-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x16x32 : Shape := ⟨3, ![65536, 16, 32]⟩
abbrev S32x32 : Shape := ⟨2, ![32, 32]⟩
abbrev S32 : Shape := ⟨1, ![32]⟩
abbrev S48x512 : Shape := ⟨2, ![48, 512]⟩
abbrev S48 : Shape := ⟨1, ![48]⟩
abbrev S3x48 : Shape := ⟨2, ![3, 48]⟩
abbrev S3 : Shape := ⟨1, ![3]⟩
abbrev S_ : Shape := ⟨0, ![]⟩

class Facts : Prop where
  bcast_S_S65536x16x32 : S_.BroadcastsInDim S65536x16x32 (![] : Fin 0 → Fin S65536x16x32.rank)
  reducesTo_S65536x16x32_S_d0_1_2 : S65536x16x32.ReducesTo [0, 1, 2] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S48x512 : S_.BroadcastsInDim S48x512 (![] : Fin 0 → Fin S48x512.rank)
  reducesTo_S48x512_S_d0_1 : S48x512.ReducesTo [0, 1] S_
  bcast_S_S48 : S_.BroadcastsInDim S48 (![] : Fin 0 → Fin S48.rank)
  reducesTo_S48_S_d0 : S48.ReducesTo [0] S_
  bcast_S_S3x48 : S_.BroadcastsInDim S3x48 (![] : Fin 0 → Fin S3x48.rank)
  reducesTo_S3x48_S_d0_1 : S3x48.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg11 : FVec F S3 .f32) (main_v48 : IVec S_ 1) (main_v49 : FVec F S3x48 .f32) (main_v50 : FVec F S3x48 .f32) : IVec S_ 1 :=
  let main_v51 : IVec S3x48 1 := cmpf .olt main_v49 main_v50
  let main_c_19 : IVec S_ 1 := constantI S_ 1 1#1
  let main_v52 : IVec S_ 1 := (fun x v => Host.reduce IntOp.andi x v reducesTo_S3x48_S_d0_1 h_S_) main_v51 main_c_19
  let main_v53 : IVec S_ 1 := andi main_v48 main_v52
  let main_v54 : FVec F S3 .f32 := Host.absf main_arg11
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  main_v58

def fn_part2 {F : FTy → Type} [FloatOps F] (main_arg7 : FVec F S32 .f32) (main_arg8 : FVec F S48x512 .f32) (main_arg9 : FVec F S48 .f32) (main_arg10 : FVec F S3x48 .f32) (main_arg11 : FVec F S3 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S48x512 .f32 := Host.absf main_arg8
  let main_cst_14 : FVec F S_ .f32 := constant S_ .f32 0x7F800000#32
  let main_v40 : FVec F S48x512 .f32 := broadcastInDim S48x512 ![] bcast_S_S48x512 main_cst_14
  let main_v41 : IVec S48x512 1 := cmpf .olt main_v39 main_v40
  let main_c_15 : IVec S_ 1 := constantI S_ 1 1#1
  let main_v42 : IVec S_ 1 := (fun x v => Host.reduce IntOp.andi x v reducesTo_S48x512_S_d0_1 h_S_) main_v41 main_c_15
  let main_v43 : IVec S_ 1 := andi main_v38 main_v42
  let main_v44 : FVec F S48 .f32 := Host.absf main_arg9
  let main_cst_16 : FVec F S_ .f32 := constant S_ .f32 0x7F800000#32
  let main_v45 : FVec F S48 .f32 := broadcastInDim S48 ![] bcast_S_S48 main_cst_16
  let main_v46 : IVec S48 1 := cmpf .olt main_v44 main_v45
  let main_c_17 : IVec S_ 1 := constantI S_ 1 1#1
  let main_v47 : IVec S_ 1 := (fun x v => Host.reduce IntOp.andi x v reducesTo_S48_S_d0 h_S_) main_v46 main_c_17
  let main_v48 : IVec S_ 1 := andi main_v43 main_v47
  let main_v49 : FVec F S3x48 .f32 := Host.absf main_arg10
  let main_cst_18 : FVec F S_ .f32 := constant S_ .f32 0x7F800000#32
  let main_v50 : FVec F S3x48 .f32 := broadcastInDim S3x48 ![] bcast_S_S3x48 main_cst_18
  fn_part3 (F := F) main_arg11 main_v48 main_v49 main_v50

def fn_part1 {F : FTy → Type} [FloatOps F] (main_arg4 : FVec F S32x32 .f32) (main_arg5 : FVec F S32 .f32) (main_arg6 : FVec F S32x32 .f32) (main_arg7 : FVec F S32 .f32) (main_arg8 : FVec F S48x512 .f32) (main_arg9 : FVec F S48 .f32) (main_arg10 : FVec F S3x48 .f32) (main_arg11 : FVec F S3 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S65536x16x32 .f32) (main_arg1 : FVec F S65536x16x32 .f32) (main_arg2 : FVec F S32x32 .f32) (main_arg3 : FVec F S32 .f32) (main_arg4 : FVec F S32x32 .f32) (main_arg5 : FVec F S32 .f32) (main_arg6 : FVec F S32x32 .f32) (main_arg7 : FVec F S32 .f32) (main_arg8 : FVec F S48x512 .f32) (main_arg9 : FVec F S48 .f32) (main_arg10 : FVec F S3x48 .f32) (main_arg11 : FVec F S3 .f32) : IVec S_ 1 :=
  let main_v0 : FVec F S65536x16x32 .f32 := Host.absf main_arg0
  let main_cst : FVec F S_ .f32 := constant S_ .f32 0x7F800000#32
  let main_v1 : FVec F S65536x16x32 .f32 := broadcastInDim S65536x16x32 ![] bcast_S_S65536x16x32 main_cst
  let main_v2 : IVec S65536x16x32 1 := cmpf .olt main_v0 main_v1
  let main_c : IVec S_ 1 := constantI S_ 1 1#1
  let main_v3 : IVec S_ 1 := (fun x v => Host.reduce IntOp.andi x v reducesTo_S65536x16x32_S_d0_1_2 h_S_) main_v2 main_c
  let main_v4 : FVec F S65536x16x32 .f32 := Host.absf main_arg1
  let main_cst_0 : FVec F S_ .f32 := constant S_ .f32 0x7F800000#32
  let main_v5 : FVec F S65536x16x32 .f32 := broadcastInDim S65536x16x32 ![] bcast_S_S65536x16x32 main_cst_0
  let main_v6 : IVec S65536x16x32 1 := cmpf .olt main_v4 main_v5
  let main_c_1 : IVec S_ 1 := constantI S_ 1 1#1
  let main_v7 : IVec S_ 1 := (fun x v => Host.reduce IntOp.andi x v reducesTo_S65536x16x32_S_d0_1_2 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_v13 main_v16
-- ==== Kernel.lean ====
abbrev S65536x16x32 : Shape := ⟨3, ![65536, 16, 32]⟩
abbrev S32x32 : Shape := ⟨2, ![32, 32]⟩
abbrev S32 : Shape := ⟨1, ![32]⟩
abbrev S48x512 : Shape := ⟨2, ![48, 512]⟩
abbrev S48 : Shape := ⟨1, ![48]⟩
abbrev S3x48 : Shape := ⟨2, ![3, 48]⟩
abbrev S3 : Shape := ⟨1, ![3]⟩
abbrev S65536x16x16 : Shape := ⟨3, ![65536, 16, 16]⟩
abbrev S16x16 : Shape := ⟨2, ![16, 16]⟩
abbrev S512x16x32 : Shape := ⟨3, ![512, 16, 32]⟩
abbrev S512x16x16 : Shape := ⟨3, ![512, 16, 16]⟩
abbrev S8192x32 : Shape := ⟨2, ![8192, 32]⟩
abbrev S1x32 : Shape := ⟨2, ![1, 32]⟩
abbrev S512x16 : Shape := ⟨2, ![512, 16]⟩
abbrev S512x16x1 : Shape := ⟨3, ![512, 16, 1]⟩
abbrev S65536x3 : Shape := ⟨2, ![65536, 3]⟩
abbrev S512x3 : Shape := ⟨2, ![512, 3]⟩
abbrev S1x16x16 : Shape := ⟨3, ![1, 16, 16]⟩
abbrev S512x512 : Shape := ⟨2, ![512, 512]⟩
abbrev S512x48 : Shape := ⟨2, ![512, 48]⟩
abbrev S1x48 : Shape := ⟨2, ![1, 48]⟩
abbrev S48x3 : Shape := ⟨2, ![48, 3]⟩
abbrev S1x3 : Shape := ⟨2, ![1, 3]⟩
abbrev S512 : Shape := ⟨1, ![512]⟩
abbrev S512x1 : Shape := ⟨2, ![512, 1]⟩

abbrev nBuf : Space → Nat
  | .hbm => 16
  | .vmem => 26
  | .smem => 0
  | _ => 0

abbrev bufTy : (tb : Table) → Fin (tcTables nBuf tb) → BufTy
  | .hbm, ⟨0, _⟩ => ⟨S65536x16x32, .f32⟩
  | .hbm, ⟨1, _⟩ => ⟨S65536x16x32, .f32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S48x512, .f32⟩
  | .hbm, ⟨9, _⟩ => ⟨S48, .f32⟩
  | .hbm, ⟨10, _⟩ => ⟨S3x48, .f32⟩
  | .hbm, ⟨11, _⟩ => ⟨S3, .f32⟩
  | .hbm, ⟨12, _⟩ => ⟨S65536x16x16, .f32⟩
  | .hbm, ⟨13, _⟩ => ⟨S65536x16x32, .f32⟩
  | .hbm, ⟨14, _⟩ => ⟨S16x16, .f32⟩
  | .hbm, ⟨15, _⟩ => ⟨S65536x3, .f32⟩
  | .local _ .vmem, ⟨0, _⟩ => ⟨S512x16x32, .f32⟩
  | .local _ .vmem, ⟨1, _⟩ => ⟨S512x16x32, .f32⟩
  | .local _ .vmem, ⟨2, _⟩ => ⟨S512x16x32, .f32⟩
  | .local _ .vmem, ⟨3, _⟩ => ⟨S512x16x32, .f32⟩
  | .local _ .vmem, ⟨4, _⟩ => ⟨S32x32, .f32⟩
  | .local _ .vmem, ⟨5, _⟩ => ⟨S32, .f32⟩
  | .local _ .vmem, ⟨6, _⟩ => ⟨S32x32, .f32⟩
  | .local _ .vmem, ⟨7, _⟩ => ⟨S32, .f32⟩
  | .local _ .vmem, ⟨8, _⟩ => ⟨S32x32, .f32⟩
  | .local _ .vmem, ⟨9, _⟩ => ⟨S32, .f32⟩
  | .local _ .vmem, ⟨10, _⟩ => ⟨S512x16x16, .f32⟩
  | .local _ .vmem, ⟨11, _⟩ => ⟨S512x16x16, .f32⟩
  | .local _ .vmem, ⟨12, _⟩ => ⟨S512x16x32, .f32⟩
  | .local _ .vmem, ⟨13, _⟩ => ⟨S512x16x32, .f32⟩
  | .local _ .vmem, ⟨14, _⟩ => ⟨S16x16, .f32⟩
  | .local _ .vmem, ⟨15, _⟩ => ⟨S512x16x16, .f32⟩
  | .local _ .vmem, ⟨16, _⟩ => ⟨S512x16x16, .f32⟩
  | .local _ .vmem, ⟨17, _⟩ => ⟨S512x16x32, .f32⟩
  | .local _ .vmem, ⟨18, _⟩ => ⟨S512x16x32, .f32⟩
  | .local _ .vmem, ⟨19, _⟩ => ⟨S16x16, .f32⟩
  | .local _ .vmem, ⟨20, _⟩ => ⟨S48x512, .f32⟩
  | .local _ .vmem, ⟨21, _⟩ => ⟨S48, .f32⟩
  | .local _ .vmem, ⟨22, _⟩ => ⟨S3x48, .f32⟩
  | .local _ .vmem, ⟨23, _⟩ => ⟨S3, .f32⟩
  | .local _ .vmem, ⟨24, _⟩ => ⟨S512x3, .f32⟩
  | .local _ .vmem, ⟨25, _⟩ => ⟨S512x3, .f32⟩
  | _, _ => ⟨S65536x16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x16x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x16x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x16x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S16x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x16x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x16x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S48x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S48 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x48 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x3 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S16x16_S16x16_0_0 : ∀ a, (![0, 0] : Fin 2 → Nat) a + S16x16.size a ≤ S16x16.size a
  h_S16x16 : 0 < S16x16.numel
  inb_S512x16x32_S512x16x32_0_0_0 : ∀ a, (![0, 0, 0] : Fin 3 → Nat) a + S512x16x32.size a ≤ S512x16x32.size a
  h_S512x16x32 : 0 < S512x16x32.numel
  shapeCasts_S512x16x32_S8192x32 : S512x16x32.ShapeCasts S8192x32
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  inb_S32_S32_0 : ∀ a, (![0] : Fin 1 → Nat) a + S32.size a ≤ S32.size a
  h_S32 : 0 < S32.numel
  shapeCasts_S32_S1x32 : S32.ShapeCasts S1x32
  broadcasts_S1x32_S8192x32 : S1x32.Broadcasts S8192x32
  shapeCasts_S8192x32_S512x16x32 : S8192x32.ShapeCasts S512x16x32
  reduces_S512x16x32_S512x16 : S512x16x32.Reduces [2] S512x16
  shapeCasts_S512x16_S512x16x1 : S512x16.ShapeCasts S512x16x1
  broadcasts_S512x16x1_S512x16x32 : S512x16x1.Broadcasts S512x16x32
  inb_S512x16x16_S512x16x16_0_0_0 : ∀ a, (![0, 0, 0] : Fin 3 → Nat) a + S512x16x16.size a ≤ S512x16x16.size a
  h_S512x16x16 : 0 < S512x16x16.numel
  shapeCasts_S16x16_S16x16 : S16x16.ShapeCasts S16x16
  reduces_S512x16x16_S16x16 : S512x16x16.Reduces [0] S16x16
  shapeCasts_S512x16x16_S512x16x16 : S512x16x16.ShapeCasts S512x16x16
  shapeCasts_S16x16_S1x16x16 : S16x16.ShapeCasts S1x16x16
  broadcasts_S1x16x16_S512x16x16 : S1x16x16.Broadcasts S512x16x16
  shapeCasts_S512x16x32_S512x16x32 : S512x16x32.ShapeCasts S512x16x32
  shapeCasts_S512x16x32_S512x512 : S512x16x32.ShapeCasts S512x512
  inb_S48x512_S48x512_0_0 : ∀ a, (![0, 0] : Fin 2 → Nat) a + S48x512.size a ≤ S48x512.size a
  h_S48x512 : 0 < S48x512.numel
  transposes_S48x512_p1_0_S512x48 : S48x512.Transposes [1, 0] S512x48
  inb_S48_S48_0 : ∀ a, (![0] : Fin 1 → Nat) a + S48.size a ≤ S48.size a
  h_S48 : 0 < S48.numel
  shapeCasts_S48_S1x48 : S48.ShapeCasts S1x48
  broadcasts_S1x48_S512x48 : S1x48.Broadcasts S512x48
  inb_S3x48_S3x48_0_0 : ∀ a, (![0, 0] : Fin 2 → Nat) a + S3x48.size a ≤ S3x48.size a
  h_S3x48 : 0 < S3x48.numel
  transposes_S3x48_p1_0_S48x3 : S3x48.Transposes [1, 0] S48x3
  inb_S3_S3_0 : ∀ a, (![0] : Fin 1 → Nat) a + S3.size a ≤ S3.size a
  h_S3 : 0 < S3.numel
  shapeCasts_S3_S1x3 : S3.ShapeCasts S1x3
  broadcasts_S1x3_S512x3 : S1x3.Broadcasts S512x3
  reduces_S512x3_S512 : S512x3.Reduces [1] S512
  shapeCasts_S512_S512x1 : S512.ShapeCasts S512x1
  broadcasts_S512x1_S512x3 : S512x1.Broadcasts S512x3
  inb_S512x3_S512x3_0_0 : ∀ a, (![0, 0] : Fin 2 → Nat) a + S512x3.size a ≤ S512x3.size a
  h_S512x3 : 0 < S512x3.numel
  dot_S8192x32_S32x32_S8192x32_1_0_0_1_n_n_wf : DotDims.WF S8192x32 S32x32 S8192x32 [1] [0] [0] [1] [] []
  dot_S512x16x32_S512x16x32_S512x16x16_2_2_1_1_0_0_wf : DotDims.WF S512x16x32 S512x16x32 S512x16x16 [2] [2] [1] [1] [0] [0]
  dot_S512x16x16_S512x16x32_S512x16x32_1_1_2_2_0_0_wf : DotDims.WF S512x16x16 S512x16x32 S512x16x32 [1] [1] [2] [2] [0] [0]
  dot_S512x512_S512x48_S512x48_1_0_0_1_n_n_wf : DotDims.WF S512x512 S512x48 S512x48 [1] [0] [0] [1] [] []
  dot_S512x48_S48x3_S512x3_1_0_0_1_n_n_wf : DotDims.WF S512x48 S48x3 S512x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x16x32.size a ≤ S65536x16x32.size a
  hwx0_0 : ∀ i : grid0.Coords, EltTy.bits .f32 = 32 ∨ (Rect.block (s := S65536x16x32) S512x16x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x16x32.size a ≤ S65536x16x32.size a
  hwx0_1 : ∀ i : grid0.Coords, EltTy.bits .f32 = 32 ∨ (Rect.block (s := S65536x16x32) S512x16x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x16x16.size a ≤ S65536x16x16.size a
  hwx0_8 : ∀ i : grid0.Coords, EltTy.bits .f32 = 32 ∨ (Rect.block (s := S65536x16x16) S512x16x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x16x32.size a ≤ S65536x16x32.size a
  hwx0_9 : ∀ i : grid0.Coords, EltTy.bits .f32 = 32 ∨ (Rect.block (s := S65536x16x32) S512x16x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x16.size a ≤ S16x16.size a
  hwx0_10 : ∀ i : grid0.Coords, EltTy.bits .f32 = 32 ∨ (Rect.block (s := S16x16) S16x16.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x16x16.size a ≤ S65536x16x16.size a
  hwx1_0 : ∀ i : grid1.Coords, EltTy.bits .f32 = 32 ∨ (Rect.block (s := S65536x16x16) S512x16x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x16x32.size a ≤ S65536x16x32.size a
  hwx1_1 : ∀ i : grid1.Coords, EltTy.bits .f32 = 32 ∨ (Rect.block (s := S65536x16x32) S512x16x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S48x512.size a ≤ S48x512.size a
  hwx1_3 : ∀ i : grid1.Coords, EltTy.bits .f32 = 32 ∨ (Rect.block (s := S48x512) S48x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S48.size a ≤ S48.size a
  hwx1_4 : ∀ i : grid1.Coords, EltTy.bits .f32 = 32 ∨ (Rect.block (s := S48) S48.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x48.size a ≤ S3x48.size a
  hwx1_5 : ∀ i : grid1.Coords, EltTy.bits .f32 = 32 ∨ (Rect.block (s := S3x48) S3x48.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3.size a ≤ S3.size a
  hwx1_6 : ∀ i : grid1.Coords, EltTy.bits .f32 = 32 ∨ (Rect.block (s := S3) S3.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x3.size a ≤ S65536x3.size a
  hwx1_7 : ∀ i : grid1.Coords, EltTy.bits .f32 = 32 ∨ (Rect.block (s := S65536x3) S512x3.size (cc1_transform_7 i) (hinb1_7 i)).WholeWords (EltTy.packing .f32)

variable [Facts₀]

def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S512x16x32_S512x16x32_S512x16x16_2_2_1_1_0_0 : DotDims S512x16x32 S512x16x32 S512x16x16 where
  lhsContracting := [2]
  rhsContracting := [2]
  lhsNonContracting := [1]
  rhsNonContracting := [1]
  lhsBatch := [0]
  rhsBatch := [0]
  wf := dot_S512x16x32_S512x16x32_S512x16x16_2_2_1_1_0_0_wf
def dot_S512x16x16_S512x16x32_S512x16x32_1_1_2_2_0_0 : DotDims S512x16x16 S512x16x32 S512x16x32 where
  lhsContracting := [1]
  rhsContracting := [1]
  lhsNonContracting := [2]
  rhsNonContracting := [2]
  lhsBatch := [0]
  rhsBatch := [0]
  wf := dot_S512x16x16_S512x16x32_S512x16x32_1_1_2_2_0_0_wf
def dot_S512x512_S512x48_S512x48_1_0_0_1_n_n : DotDims S512x512 S512x48 S512x48 where
  lhsContracting := [1]
  rhsContracting := [0]
  lhsNonContracting := [0]
  rhsNonContracting := [1]
  lhsBatch := []
  rhsBatch := []
  wf := dot_S512x512_S512x48_S512x48_1_0_0_1_n_n_wf
def dot_S512x48_S48x3_S512x3_1_0_0_1_n_n : DotDims S512x48 S48x3 S512x3 where
  lhsContracting := [1]
  rhsContracting := [0]
  lhsNonContracting := [0]
  rhsNonContracting := [1]
  lhsBatch := []
  rhsBatch := []
  wf := dot_S512x48_S48x3_S512x3_1_0_0_1_n_n_wf

abbrev win0_0 : Pipeline.Window sig grid0 :=
  Pipeline.Window.ofSpec (Memref.whole main_arg0) S512x16x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S512x16x16.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S512x16x32.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_2) S16x16.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v0_0) S512x16x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S512x16x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S48x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S48.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S3x48.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S3.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S512x3.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S65536x16x32 : Shape := ⟨3, ![65536, 16, 32]⟩
abbrev S32x32 : Shape := ⟨2, ![32, 32]⟩
abbrev S32 : Shape := ⟨1, ![32]⟩
abbrev S48x512 : Shape := ⟨2, ![48, 512]⟩
abbrev S48 : Shape := ⟨1, ![48]⟩
abbrev S3x48 : Shape := ⟨2, ![3, 48]⟩
abbrev S3 : Shape := ⟨1, ![3]⟩
abbrev S1x1x32 : Shape := ⟨3, ![1, 1, 32]⟩
abbrev S_ : Shape := ⟨0, ![]⟩
abbrev S65536x16 : Shape := ⟨2, ![65536, 16]⟩
abbrev S65536x16x1 : Shape := ⟨3, ![65536, 16, 1]⟩
abbrev S65536x16x16 : Shape := ⟨3, ![65536, 16, 16]⟩
abbrev S16x16 : Shape := ⟨2, ![16, 16]⟩
abbrev S1x16x16 : Shape := ⟨3, ![1, 16, 16]⟩
abbrev S65536x512 : Shape := ⟨2, ![65536, 512]⟩
abbrev S512x48 : Shape := ⟨2, ![512, 48]⟩
abbrev S65536x48 : Shape := ⟨2, ![65536, 48]⟩
abbrev S1x48 : Shape := ⟨2, ![1, 48]⟩
abbrev S48x3 : Shape := ⟨2, ![48, 3]⟩
abbrev S65536x3 : Shape := ⟨2, ![65536, 3]⟩
abbrev S1x3 : Shape := ⟨2, ![1, 3]⟩
abbrev S65536 : Shape := ⟨1, ![65536]⟩
abbrev S65536x1 : Shape := ⟨2, ![65536, 1]⟩

abbrev nBuf : Space → Nat
  | .hbm => 99
  | .vmem => 0
  | .smem => 0
  | _ => 0

abbrev bufTy : (tb : Table) → Fin (tcTables nBuf tb) → BufTy
  | .hbm, ⟨0, _⟩ => ⟨S65536x16x32, .f32⟩
  | .hbm, ⟨1, _⟩ => ⟨S65536x16x32, .f32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S48x512, .f32⟩
  | .hbm, ⟨9, _⟩ => ⟨S48, .f32⟩
  | .hbm, ⟨10, _⟩ => ⟨S3x48, .f32⟩
  | .hbm, ⟨11, _⟩ => ⟨S3, .f32⟩
  | .hbm, ⟨12, _⟩ => ⟨S65536x16x32, .f32⟩
  | .hbm, ⟨13, _⟩ => ⟨S1x1x32, .f32⟩
  | .hbm, ⟨14, _⟩ => ⟨S65536x16x32, .f32⟩
  | .hbm, ⟨15, _⟩ => ⟨S65536x16x32, .f32⟩
  | .hbm, ⟨16, _⟩ => ⟨S65536x16x32, .f32⟩
  | .hbm, ⟨17, _⟩ => ⟨S1x1x32, .f32⟩
  | .hbm, ⟨18, _⟩ => ⟨S65536x16x32, .f32⟩
  | .hbm, ⟨19, _⟩ => ⟨S65536x16x32, .f32⟩
  | .hbm, ⟨20, _⟩ => ⟨S65536x16x32, .f32⟩
  | .hbm, ⟨21, _⟩ => ⟨S65536x16x32, .f32⟩
  | .hbm, ⟨22, _⟩ => ⟨S1x1x32, .f32⟩
  | .hbm, ⟨23, _⟩ => ⟨S65536x16x32, .f32⟩
  | .hbm, ⟨24, _⟩ => ⟨S65536x16x32, .f32⟩
  | .hbm, ⟨25, _⟩ => ⟨S65536x16x32, .f32⟩
  | .hbm, ⟨26, _⟩ => ⟨S1x1x32, .f32⟩
  | .hbm, ⟨27, _⟩ => ⟨S65536x16x32, .f32⟩
  | .hbm, ⟨28, _⟩ => ⟨S65536x16x32, .f32⟩
  | .hbm, ⟨29, _⟩ => ⟨S65536x16x32, .f32⟩
  | .hbm, ⟨30, _⟩ => ⟨S65536x16x32, .f32⟩
  | .hbm, ⟨31, _⟩ => ⟨S1x1x32, .f32⟩
  | .hbm, ⟨32, _⟩ => ⟨S65536x16x32, .f32⟩
  | .hbm, ⟨33, _⟩ => ⟨S65536x16x32, .f32⟩
  | .hbm, ⟨34, _⟩ => ⟨S65536x16x32, .f32⟩
  | .hbm, ⟨35, _⟩ => ⟨S1x1x32, .f32⟩
  | .hbm, ⟨36, _⟩ => ⟨S65536x16x32, .f32⟩
  | .hbm, ⟨37, _⟩ => ⟨S65536x16x32, .f32⟩
  | .hbm, ⟨38, _⟩ => ⟨S65536x16x32, .f32⟩
  | .hbm, ⟨39, _⟩ => ⟨S65536x16x32, .f32⟩
  | .hbm, ⟨40, _⟩ => ⟨S_, .f32⟩
  | .hbm, ⟨41, _⟩ => ⟨S65536x16, .f32⟩
  | .hbm, ⟨42, _⟩ => ⟨S65536x16x1, .f32⟩
  | .hbm, ⟨43, _⟩ => ⟨S65536x16x1, .f32⟩
  | .hbm, ⟨44, _⟩ => ⟨S_, .f32⟩
  | .hbm, ⟨45, _⟩ => ⟨S65536x16x1, .f32⟩
  | .hbm, ⟨46, _⟩ => ⟨S65536x16x1, .f32⟩
  | .hbm, ⟨47, _⟩ => ⟨S65536x16x32, .f32⟩
  | .hbm, ⟨48, _⟩ => ⟨S65536x16x32, .f32⟩
  | .hbm, ⟨49, _⟩ => ⟨S65536x16x32, .f32⟩
  | .hbm, ⟨50, _⟩ => ⟨S_, .f32⟩
  | .hbm, ⟨51, _⟩ => ⟨S65536x16, .f32⟩
  | .hbm, ⟨52, _⟩ => ⟨S65536x16x1, .f32⟩
  | .hbm, ⟨53, _⟩ => ⟨S65536x16x1, .f32⟩
  | .hbm, ⟨54, _⟩ => ⟨S_, .f32⟩
  | .hbm, ⟨55, _⟩ => ⟨S65536x16x1, .f32⟩
  | .hbm, ⟨56, _⟩ => ⟨S65536x16x1, .f32⟩
  | .hbm, ⟨57, _⟩ => ⟨S65536x16x32, .f32⟩
  | .hbm, ⟨58, _⟩ => ⟨S65536x16x32, .f32⟩
  | .hbm, ⟨59, _⟩ => ⟨S65536x16x16, .f32⟩
  | .hbm, ⟨60, _⟩ => ⟨S_, .f32⟩
  | .hbm, ⟨61, _⟩ => ⟨S16x16, .f32⟩
  | .hbm, ⟨62, _⟩ => ⟨S_, .f32⟩
  | .hbm, ⟨63, _⟩ => ⟨S16x16, .f32⟩
  | .hbm, ⟨64, _⟩ => ⟨S16x16, .f32⟩
  | .hbm, ⟨65, _⟩ => ⟨S1x16x16, .f32⟩
  | .hbm, ⟨66, _⟩ => ⟨S65536x16x16, .f32⟩
  | .hbm, ⟨67, _⟩ => ⟨S65536x16x16, .f32⟩
  | .hbm, ⟨68, _⟩ => ⟨S65536x16x16, .f32⟩
  | .hbm, ⟨69, _⟩ => ⟨S_, .f32⟩
  | .hbm, ⟨70, _⟩ => ⟨S16x16, .f32⟩
  | .hbm, ⟨71, _⟩ => ⟨S1x16x16, .f32⟩
  | .hbm, ⟨72, _⟩ => ⟨S65536x16x16, .f32⟩
  | .hbm, ⟨73, _⟩ => ⟨S65536x16x16, .f32⟩
  | .hbm, ⟨74, _⟩ => ⟨S65536x16x32, .f32⟩
  | .hbm, ⟨75, _⟩ => ⟨S65536x512, .f32⟩
  | .hbm, ⟨76, _⟩ => ⟨S512x48, .f32⟩
  | .hbm, ⟨77, _⟩ => ⟨S65536x48, .f32⟩
  | .hbm, ⟨78, _⟩ => ⟨S1x48, .f32⟩
  | .hbm, ⟨79, _⟩ => ⟨S65536x48, .f32⟩
  | .hbm, ⟨80, _⟩ => ⟨S65536x48, .f32⟩
  | .hbm, ⟨81, _⟩ => ⟨S_, .f32⟩
  | .hbm, ⟨82, _⟩ => ⟨S65536x48, .f32⟩
  | .hbm, ⟨83, _⟩ => ⟨S65536x48, .f32⟩
  | .hbm, ⟨84, _⟩ => ⟨S48x3, .f32⟩
  | .hbm, ⟨85, _⟩ => ⟨S65536x3, .f32⟩
  | .hbm, ⟨86, _⟩ => ⟨S1x3, .f32⟩
  | .hbm, ⟨87, _⟩ => ⟨S65536x3, .f32⟩
  | .hbm, ⟨88, _⟩ => ⟨S65536x3, .f32⟩
  | .hbm, ⟨89, _⟩ => ⟨S65536x3, .f32⟩
  | .hbm, ⟨90, _⟩ => ⟨S_, .f32⟩
  | .hbm, ⟨91, _⟩ => ⟨S65536, .f32⟩
  | .hbm, ⟨92, _⟩ => ⟨S65536x1, .f32⟩
  | .hbm, ⟨93, _⟩ => ⟨S65536x1, .f32⟩
  | .hbm, ⟨94, _⟩ => ⟨S_, .f32⟩
  | .hbm, ⟨95, _⟩ => ⟨S65536x1, .f32⟩
  | .hbm, ⟨96, _⟩ => ⟨S65536x1, .f32⟩
  | .hbm, ⟨97, _⟩ => ⟨S65536x3, .f32⟩
  | .hbm, ⟨98, _⟩ => ⟨S65536x3, .f32⟩
  | _, _ => ⟨S65536x16x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_1 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_2 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_3 : Ref sig .tc := ⟨.hbm, 60, rfl⟩
abbrev main_v44 : Ref sig .tc := ⟨.hbm, 61, rfl⟩
abbrev main_cst_4 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_5 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_call0_cst : Ref sig .tc := ⟨.hbm, 81, rfl⟩
abbrev main_call0_v0 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_6 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_7 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S65536x16x32_0_1_2 : S1x1x32.BroadcastsInDim S65536x16x32 (![0, 1, 2] : Fin 3 → Fin S65536x16x32.rank)
  reducesTo_S65536x16x32_S65536x16_d2 : S65536x16x32.ReducesTo [2] S65536x16
  h_S_ : 0 < S_.numel
  bcast_S65536x16_S65536x16x1_0_1 : S65536x16.BroadcastsInDim S65536x16x1 (![0, 1] : Fin 2 → Fin S65536x16x1.rank)
  bcast_S_S65536x16x1 : S_.BroadcastsInDim S65536x16x1 (![] : Fin 0 → Fin S65536x16x1.rank)
  bcast_S65536x16x1_S65536x16x32_0_1_2 : S65536x16x1.BroadcastsInDim S65536x16x32 (![0, 1, 2] : Fin 3 → Fin S65536x16x32.rank)
  reducesTo_S65536x16x16_S16x16_d0 : S65536x16x16.ReducesTo [0] S16x16
  bcast_S_S16x16 : S_.BroadcastsInDim S16x16 (![] : Fin 0 → Fin S16x16.rank)
  bcast_S16x16_S1x16x16_1_2 : S16x16.BroadcastsInDim S1x16x16 (![1, 2] : Fin 2 → Fin S1x16x16.rank)
  bcast_S1x16x16_S65536x16x16_0_1_2 : S1x16x16.BroadcastsInDim S65536x16x16 (![0, 1, 2] : Fin 3 → Fin S65536x16x16.rank)
  shapeCasts_S65536x16x32_S65536x512 : S65536x16x32.ShapeCasts S65536x512
  transposes_S48x512_S512x48_1_0 : S48x512.Transposes [1, 0] S512x48
  bcast_S48_S1x48_1 : S48.BroadcastsInDim S1x48 (![1] : Fin 1 → Fin S1x48.rank)
  bcast_S1x48_S65536x48_0_1 : S1x48.BroadcastsInDim S65536x48 (![0, 1] : Fin 2 → Fin S65536x48.rank)
  bcast_S_S65536x48 : S_.BroadcastsInDim S65536x48 (![] : Fin 0 → Fin S65536x48.rank)
  transposes_S3x48_S48x3_1_0 : S3x48.Transposes [1, 0] S48x3
  bcast_S3_S1x3_1 : S3.BroadcastsInDim S1x3 (![1] : Fin 1 → Fin S1x3.rank)
  bcast_S1x3_S65536x3_0_1 : S1x3.BroadcastsInDim S65536x3 (![0, 1] : Fin 2 → Fin S65536x3.rank)
  reducesTo_S65536x3_S65536_d1 : S65536x3.ReducesTo [1] S65536
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x3_0_1 : S65536x1.BroadcastsInDim S65536x3 (![0, 1] : Fin 2 → Fin S65536x3.rank)
  dot_S65536x16x32_S32x32_S65536x16x32_2_1_01_0_n_n_wf : DotDims.WF S65536x16x32 S32x32 S65536x16x32 [2] [1] [0, 1] [0] [] []
  dot_S65536x16x32_S65536x16x32_S65536x16x16_2_2_1_1_0_0_wf : DotDims.WF S65536x16x32 S65536x16x32 S65536x16x16 [2] [2] [1] [1] [0] [0]
  dot_S65536x16x16_S65536x16x32_S65536x16x32_1_1_2_2_0_0_wf : DotDims.WF S65536x16x16 S65536x16x32 S65536x16x32 [1] [1] [2] [2] [0] [0]
  dot_S65536x512_S512x48_S65536x48_1_0_0_1_n_n_wf : DotDims.WF S65536x512 S512x48 S65536x48 [1] [0] [0] [1] [] []
  dot_S65536x48_S48x3_S65536x3_1_0_0_1_n_n_wf : DotDims.WF S65536x48 S48x3 S65536x3 [1] [0] [0] [1] [] []

variable [Facts₀]

def dot_S65536x16x32_S32x32_S65536x16x32_2_1_01_0_n_n : DotDims S65536x16x32 S32x32 S65536x16x32 where
  lhsContracting := [2]
  rhsContracting := [1]
  lhsNonContracting := [0, 1]
  rhsNonContracting := [0]
  lhsBatch := []
  rhsBatch := []
  wf := dot_S65536x16x32_S32x32_S65536x16x32_2_1_01_0_n_n_wf
def dot_S65536x16x32_S65536x16x32_S65536x16x16_2_2_1_1_0_0 : DotDims S65536x16x32 S65536x16x32 S65536x16x16 where
  lhsContracting := [2]
  rhsContracting := [2]
  lhsNonContracting := [1]
  rhsNonContracting := [1]
  lhsBatch := [0]
  rhsBatch := [0]
  wf := dot_S65536x16x32_S65536x16x32_S65536x16x16_2_2_1_1_0_0_wf
def dot_S65536x16x16_S65536x16x32_S65536x16x32_1_1_2_2_0_0 : DotDims S65536x16x16 S65536x16x32 S65536x16x32 where
  lhsContracting := [1]
  rhsContracting := [1]
  lhsNonContracting := [2]
  rhsNonContracting := [2]
  lhsBatch := [0]
  rhsBatch := [0]
  wf := dot_S65536x16x16_S65536x16x32_S65536x16x32_1_1_2_2_0_0_wf
def dot_S65536x512_S512x48_S65536x48_1_0_0_1_n_n : DotDims S65536x512 S512x48 S65536x48 where
  lhsContracting := [1]
  rhsContracting := [0]
  lhsNonContracting := [0]
  rhsNonContracting := [1]
  lhsBatch := []
  rhsBatch := []
  wf := dot_S65536x512_S512x48_S65536x48_1_0_0_1_n_n_wf
def dot_S65536x48_S48x3_S65536x3_1_0_0_1_n_n : DotDims S65536x48 S48x3 S65536x3 where
  lhsContracting := [1]
  rhsContracting := [0]
  lhsNonContracting := [0]
  rhsNonContracting := [1]
  lhsBatch := []
  rhsBatch := []
  wf := dot_S65536x48_S48x3_S65536x3_1_0_0_1_n_n_wf

class Facts : Prop extends Facts₀ where

variable [Facts]
-- ==== Proof.Pieces0.lean ====
import proofs.«124052_j71253507440717_2_alg».proof.Proof.Gen.KernelIdeal.Frame
import Idealize.ShloMosaic.Lib.Pipeline.Value
import Idealize.ShloMosaic.Lib.Tactic

/-!
# What the first kernel's body leaves in its three output buffers

The body runs in two control cases: at the first grid point it first stores a zero block into the running
sum's buffer, at every later point it finds the previous point's sum there. In either case the body's stores
each cover their whole buffer, so each buffer ends holding one store's value: the exponentials of the scores
of the point's rows, the point's value rows, and the previous sum (zero at the first point) plus the column
sums of the exponentials.
-/

set_option maxRecDepth 16384

noncomputable section

namespace Cert.KernelIdeal.Pieces

open Cert.KernelIdeal Cert.KernelIdeal.Gen
open Idealize.ShloMosaic Idealize.ShloMosaic.TcCoe Idealize.SL.Sem Idealize.ShloMosaic.Tactic

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- First point: the exponentials' buffer ends at the one store's value, the exponential of the scores computed
    from the two embedding blocks and the query / key weights. -/
theorem out_A_8 (c : Dev nD) (i : grid0.Coords) (a1 : Memref sig .tc .vmem S512x16x32 .f32) (h1 : a1.IsWhole) (a2 : Memref sig .tc .vmem S512x16x32 .f32) (h2 : a2.IsWhole) (a3 : Memref sig .tc .vmem S32x32 .f32) (h3 : a3.IsWhole) (a4 : Memref sig .tc .vmem S32 .f32) (h4 : a4.IsWhole) (a5 : Memref sig .tc .vmem S32x32 .f32) (h5 : a5.IsWhole) (a6 : Memref sig .tc .vmem S32 .f32) (h6 : a6.IsWhole) (a7 : Memref sig .tc .vmem S32x32 .f32) (h7 : a7.IsWhole) (a8 : Memref sig .tc .vmem S32 .f32) (h8 : a8.IsWhole) (a9 : Memref sig .tc .vmem S512x16x16 .f32) (h9 : a9.IsWhole) (a10 : Memref sig .tc .vmem S512x16x32 .f32) (h10 : a10.IsWhole) (a11 : Memref sig .tc .vmem S16x16 .f32) (h11 : a11.IsWhole) (hc : cond0_0 i) (x0 x1 : Vec F S512x16x32 .f32) (x2 : Vec F S32x32 .f32) (x3 : Vec F S32 .f32) (x4 : Vec F S32x32 .f32) (x5 : Vec F S32 .f32) (x6 : Vec F S32x32 .f32) (x7 : Vec F S32 .f32) :
    out0_A_8 c i a1 h1 a2 h2 a3 h3 a4 h4 a5 h5 a6 h6 a7 h7 a8 h8 a9 h9 a10 h10 a11 h11 hc x0 x1 x2 x3 x4 x5 x6 x7 = k0_pay11 (k0_pay7 x0 x1 x2 x3 x3) (k0_pay8 x0 x4 x5) (k0_pay9 x1 x4) x5 := by
  unfold out0_A_8
  rw [View.read_writes_eq_canon _ _ _ (cover0_A_8 c i a1 h1 a2 h2 a3 h3 a4 h4 a5 h5 a6 h6 a7 h7 a8 h8 a9 h9 a10 h10 a11 h11 hc x0 x1 x2 x3 x4 x5 x6 x7)]
  unfold kernelRun0_A
  dsimp only
  sl_unfold_words
  rw [View.canon_unit_zero hz3]
  simp only [View.readAt_eq_ld, h1.read_unread, h2.read_unread, h3.read_unread, h4.read_unread, h5.read_unread, h6.read_unread, h7.read_unread, h8.read_unread, h11.read_unread, View.ld_unit_zero (S := S512x16x32) hz3, View.ld_unit_zero (S := S32x32) hz2, View.ld_unit_zero (S := S32) hz1, View.ld_unit_zero (S := S16x16) hz2]

/-- First point: the values' buffer ends at the product of the two embeddings' value projections. -/
theorem out_A_9 (c : Dev nD) (i : grid0.Coords) (a1 : Memref sig .tc .vmem S512x16x32 .f32) (h1 : a1.IsWhole) (a2 : Memref sig .tc .vmem S512x16x32 .f32) (h2 : a2.IsWhole) (a3 : Memref sig .tc .vmem S32x32 .f32) (h3 : a3.IsWhole) (a4 : Memref sig .tc .vmem S32 .f32) (h4 : a4.IsWhole) (a5 : Memref sig .tc .vmem S32x32 .f32) (h5 : a5.IsWhole) (a6 : Memref sig .tc .vmem S32 .f32) (h6 : a6.IsWhole) (a7 : Memref sig .tc .vmem S32x32 .f32) (h7 : a7.IsWhole) (a8 : Memref sig .tc .vmem S32 .f32) (h8 : a8.IsWhole) (a9 : Memref sig .tc .vmem S512x16x16 .f32) (h9 : a9.IsWhole) (a10 : Memref sig .tc .vmem S512x16x32 .f32) (h10 : a10.IsWhole) (a11 : Memref sig .tc .vmem S16x16 .f32) (h11 : a11.IsWhole) (hc : cond0_0 i) (x0 x1 : Vec F S512x16x32 .f32) (x2 : Vec F S32x32 .f32) (x3 : Vec F S32 .f32) (x4 : Vec F S32x32 .f32) (x5 : Vec F S32 .f32) (x6 : Vec F S32x32 .f32) (x7 : Vec F S32 .f32) :
    out0_A_9 c i a1 h1 a2 h2 a3 h3 a4 h4 a5 h5 a6 h6 a7 h7 a8 h8 a9 h9 a10 h10 a11 h11 hc x0 x1 x2 x3 x4 x5 x6 x7 = k0_pay10 (k0_pay3 x0) (k0_pay4 x1) (k0_pay6 x6) x7 x7 := by
  unfold out0_A_9
  rw [View.read_writes_eq_canon _ _ _ (cover0_A_9 c i a1 h1 a2 h2 a3 h3 a4 h4 a5 h5 a6 h6 a7 h7 a8 h8 a9 h9 a10 h10 a11 h11 hc x0 x1 x2 x3 x4 x5 x6 x7)]
  unfold kernelRun0_A
  dsimp only
  sl_unfold_words
  rw [View.canon_unit_zero hz3]
  simp only [View.readAt_eq_ld, h1.read_unread, h2.read_unread, h3.read_unread, h4.read_unread, h5.read_unread, h6.read_unread, h7.read_unread, h8.read_unread, h11.read_unread, View.ld_unit_zero (S := S512x16x32) hz3, View.ld_unit_zero (S := S32x32) hz2, View.ld_unit_zero (S := S32) hz1, View.ld_unit_zero (S := S16x16) hz2]

/-- First point: the running sum's buffer is first set to the zero block, read back, and ends at that zero block
    plus the column sums of the point's exponentials. -/
theorem out_A_10 (c : Dev nD) (i : grid0.Coords) (a1 : Memref sig .tc .vmem S512x16x32 .f32) (h1 : a1.IsWhole) (a2 : Memref sig .tc .vmem S512x16x32 .f32) (h2 : a2.IsWhole) (a3 : Memref sig .tc .vmem S32x32 .f32) (h3 : a3.IsWhole) (a4 : Memref sig .tc .vmem S32 .f32) (h4 : a4.IsWhole) (a5 : Memref sig .tc .vmem S32x32 .f32) (h5 : a5.IsWhole) (a6 : Memref sig .tc .vmem S32 .f32) (h6 : a6.IsWhole) (a7 : Memref sig .tc .vmem S32x32 .f32) (h7 : a7.IsWhole) (a8 : Memref sig .tc .vmem S32 .f32) (h8 : a8.IsWhole) (a9 : Memref sig .tc .vmem S512x16x16 .f32) (h9 : a9.IsWhole) (a10 : Memref sig .tc .vmem S512x16x32 .f32) (h10 : a10.IsWhole) (a11 : Memref sig .tc .vmem S16x16 .f32) (h11 : a11.IsWhole) (hc : cond0_0 i) (x0 x1 : Vec F S512x16x32 .f32) (x2 : Vec F S32x32 .f32) (x3 : Vec F S32 .f32) (x4 : Vec F S32x32 .f32) (x5 : Vec F S32 .f32) (x6 : Vec F S32x32 .f32) (x7 : Vec F S32 .f32) :
    out0_A_10 c i a1 h1 a2 h2 a3 h3 a4 h4 a5 h5 a6 h6 a7 h7 a8 h8 a9 h9 a10 h10 a11 h11 hc x0 x1 x2 x3 x4 x5 x6 x7 = k0_pay1 (k0_pay11 (k0_pay7 x0 x1 x2 x3 x3) (k0_pay8 x0 x4 x5) (k0_pay9 x1 x4) x5) k0_pay2 := by
  unfold out0_A_10
  rw [View.read_writes_eq_canon _ _ _ (cover0_A_10 c i a1 h1 a2 h2 a3 h3 a4 h4 a5 h5 a6 h6 a7 h7 a8 h8 a9 h9 a10 h10 a11 h11 hc x0 x1 x2 x3 x4 x5 x6 x7)]
  unfold kernelRun0_A
  dsimp only
  sl_unfold_words
  rw [View.canon_cons_unit_zero (S := S16x16) hz2, View.readCov_unit_zero (S := S16x16) _ hz2]
  simp only [View.readAt_eq_ld, h1.read_unread, h2.read_unread, h3.read_unread, h4.read_unread, h5.read_unread, h6.read_unread, h7.read_unread, h8.read_unread, h11.read_unread, View.ld_unit_zero (S := S512x16x32) hz3, View.ld_unit_zero (S := S32x32) hz2, View.ld_unit_zero (S := S32) hz1, View.ld_unit_zero (S := S16x16) hz2]

/-- Later points: the exponentials' buffer, as at the first point. -/
theorem out_B_8 (c : Dev nD) (i : grid0.Coords) (a1 : Memref sig .tc .vmem S512x16x32 .f32) (h1 : a1.IsWhole) (a2 : Memref sig .tc .vmem S512x16x32 .f32) (h2 : a2.IsWhole) (a3 : Memref sig .tc .vmem S32x32 .f32) (h3 : a3.IsWhole) (a4 : Memref sig .tc .vmem S32 .f32) (h4 : a4.IsWhole) (a5 : Memref sig .tc .vmem S32x32 .f32) (h5 : a5.IsWhole) (a6 : Memref sig .tc .vmem S32 .f32) (h6 : a6.IsWhole) (a7 : Memref sig .tc .vmem S32x32 .f32) (h7 : a7.IsWhole) (a8 : Memref sig .tc .vmem S32 .f32) (h8 : a8.IsWhole) (a9 : Memref sig .tc .vmem S512x16x16 .f32) (h9 : a9.IsWhole) (a10 : Memref sig .tc .vmem S512x16x32 .f32) (h10 : a10.IsWhole) (a11 : Memref sig .tc .vmem S16x16 .f32) (h11 : a11.IsWhole) (hc : ¬cond0_0 i) (x0 x1 : Vec F S512x16x32 .f32) (x2 : Vec F S32x32 .f32) (x3 : Vec F S32 .f32) (x4 : Vec F S32x32 .f32) (x5 : Vec F S32 .f32) (x6 : Vec F S32x32 .f32) (x7 : Vec F S32 .f32) (xo : Vec F S16x16 .f32) :
    out0_B_8 c i a1 h1 a2 h2 a3 h3 a4 h4 a5 h5 a6 h6 a7 h7 a8 h8 a9 h9 a10 h10 a11 h11 hc x0 x1 x2 x3 x4 x5 x6 x7 xo = k0_pay11 (k0_pay7 x0 x1 x2 x3 x3) (k0_pay8 x0 x4 x5) (k0_pay9 x1 x4) x5 := by
  unfold out0_B_8
  rw [View.read_writes_eq_canon _ _ _ (cover0_B_8 c i a1 h1 a2 h2 a3 h3 a4 h4 a5 h5 a6 h6 a7 h7 a8 h8 a9 h9 a10 h10 a11 h11 hc x0 x1 x2 x3 x4 x5 x6 x7 xo)]
  unfold kernelRun0_B
  dsimp only
  sl_unfold_words
  rw [View.canon_unit_zero hz3]
  simp only [View.readAt_eq_ld, h1.read_unread, h2.read_unread, h3.read_unread, h4.read_unread, h5.read_unread, h6.read_unread, h7.read_unread, h8.read_unread, h11.read_unread, View.ld_unit_zero (S := S512x16x32) hz3, View.ld_unit_zero (S := S32x32) hz2, View.ld_unit_zero (S := S32) hz1, View.ld_unit_zero (S := S16x16) hz2]

/-- Later points: the values' buffer, as at the first point. -/
theorem out_B_9 (c : Dev nD) (i : grid0.Coords) (a1 : Memref sig .tc .vmem S512x16x32 .f32) (h1 : a1.IsWhole) (a2 : Memref sig .tc .vmem S512x16x32 .f32) (h2 : a2.IsWhole) (a3 : Memref sig .tc .vmem S32x32 .f32) (h3 : a3.IsWhole) (a4 : Memref sig .tc .vmem S32 .f32) (h4 : a4.IsWhole) (a5 : Memref sig .tc .vmem S32x32 .f32) (h5 : a5.IsWhole) (a6 : Memref sig .tc .vmem S32 .f32) (h6 : a6.IsWhole) (a7 : Memref sig .tc .vmem S32x32 .f32) (h7 : a7.IsWhole) (a8 : Memref sig .tc .vmem S32 .f32) (h8 : a8.IsWhole) (a9 : Memref sig .tc .vmem S512x16x16 .f32) (h9 : a9.IsWhole) (a10 : Memref sig .tc .vmem S512x16x32 .f32) (h10 : a10.IsWhole) (a11 : Memref sig .tc .vmem S16x16 .f32) (h11 : a11.IsWhole) (hc : ¬cond0_0 i) (x0 x1 : Vec F S512x16x32 .f32) (x2 : Vec F S32x32 .f32) (x3 : Vec F S32 .f32) (x4 : Vec F S32x32 .f32) (x5 : Vec F S32 .f32) (x6 : Vec F S32x32 .f32) (x7 : Vec F S32 .f32) (xo : Vec F S16x16 .f32) :
    out0_B_9 c i a1 h1 a2 h2 a3 h3 a4 h4 a5 h5 a6 h6 a7 h7 a8 h8 a9 h9 a10 h10 a11 h11 hc x0 x1 x2 x3 x4 x5 x6 x7 xo = k0_pay10 (k0_pay3 x0) (k0_pay4 x1) (k0_pay6 x6) x7 x7 := by
  unfold out0_B_9
  rw [View.read_writes_eq_canon _ _ _ (cover0_B_9 c i a1 h1 a2 h2 a3 h3 a4 h4 a5 h5 a6 h6 a7 h7 a8 h8 a9 h9 a10 h10 a11 h11 hc x0 x1 x2 x3 x4 x5 x6 x7 xo)]
  unfold kernelRun0_B
  dsimp only
  sl_unfold_words
  rw [View.canon_unit_zero hz3]
  simp only [View.readAt_eq_ld, h1.read_unread, h2.read_unread, h3.read_unread, h4.read_unread, h5.read_unread, h6.read_unread, h7.read_unread, h8.read_unread, h11.read_unread, View.ld_unit_zero (S := S512x16x32) hz3, View.ld_unit_zero (S := S32x32) hz2, View.ld_unit_zero (S := S32) hz1, View.ld_unit_zero (S := S16x16) hz2]

/-- Later points: the running sum's buffer holds the previous point's sum `xo` and ends at `xo` plus the column
    sums of the point's exponentials. -/
theorem out_B_10 (c : Dev nD) (i : grid0.Coords) (a1 : Memref sig .tc .vmem S512x16x32 .f32) (h1 : a1.IsWhole) (a2 : Memref sig .tc .vmem S512x16x32 .f32) (h2 : a2.IsWhole) (a3 : Memref sig .tc .vmem S32x32 .f32) (h3 : a3.IsWhole) (a4 : Memref sig .tc .vmem S32 .f32) (h4 : a4.IsWhole) (a5 : Memref sig .tc .vmem S32x32 .f32) (h5 : a5.IsWhole) (a6 : Memref sig .tc .vmem S32 .f32) (h6 : a6.IsWhole) (a7 : Memref sig .tc .vmem S32x32 .f32) (h7 : a7.IsWhole) (a8 : Memref sig .tc .vmem S32 .f32) (h8 : a8.IsWhole) (a9 : Memref sig .tc .vmem S512x16x16 .f32) (h9 : a9.IsWhole) (a10 : Memref sig .tc .vmem S512x16x32 .f32) (h10 : a10.IsWhole) (a11 : Memref sig .tc .vmem S16x16 .f32) (h11 : a11.IsWhole) (hc : ¬cond0_0 i) (x0 x1 : Vec F S512x16x32 .f32) (x2 : Vec F S32x32 .f32) (x3 : Vec F S32 .f32) (x4 : Vec F S32x32 .f32) (x5 : Vec F S32 .f32) (x6 : Vec F S32x32 .f32) (x7 : Vec F S32 .f32) (xo : Vec F S16x16 .f32) :
    out0_B_10 c i a1 h1 a2 h2 a3 h3 a4 h4 a5 h5 a6 h6 a7 h7 a8 h8 a9 h9 a10 h10 a11 h11 hc x0 x1 x2 x3 x4 x5 x6 x7 xo = k0_pay1 (k0_pay11 (k0_pay7 x0 x1 x2 x3 x3) (k0_pay8 x0 x4 x5) (k0_pay9 x1 x4) x5) xo := by
  unfold out0_B_10
  rw [View.read_writes_eq_canon _ _ _ (cover0_B_10 c i a1 h1 a2 h2 a3 h3 a4 h4 a5 h5 a6 h6 a7 h7 a8 h8 a9 h9 a10 h10 a11 h11 hc x0 x1 x2 x3 x4 x5 x6 x7 xo)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h11.read_unread, View.ld_unit_zero (S := S512x16x32) hz3, View.ld_unit_zero (S := S32x32) hz2, View.ld_unit_zero (S := S32) hz1, View.ld_unit_zero (S := S16x16) hz2]

end Cert.KernelIdeal.Pieces

end
-- ==== Proof.Arrays0a.lean ====
import proofs.«124052_j71253507440717_2_alg».proof.Proof.Gen.KernelIdeal.Frame
import proofs.«124052_j71253507440717_2_alg».proof.Proof.Pieces0
import Idealize.ShloMosaic.Lib.Pipeline.Value
import Idealize.ShloMosaic.Lib.ValueIdx

/-!
# The first kernel, point by point

Grid point `t` of the first kernel reads rows `512·t … 512·t + 511` of the two embeddings and the whole of each
weight array. This module reads those blocks off the arrays as launched, and shows by induction on the point that
after point `n` the three output buffers hold: the exponentials of the point's scores, the point's values, and the
sum over the points `0 … n` of the exponentials' column sums, started from the zero block.
-/

set_option maxRecDepth 16384

noncomputable section

namespace Cert.KernelIdeal.Arrays

open Cert.KernelIdeal Cert.KernelIdeal.Gen Cert.KernelIdeal.Pieces
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- The block index maps of the first kernel, decided over its 128 grid points: the embeddings' windows and the two
    per-row output windows move with the point along the batch axis; every other window stays at block zero. -/
theorem idx0 : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_8.index t (0 : Fin 3) = t.val ∧ win0_8.index t (1 : Fin 3) = 0 ∧ win0_8.index t (2 : Fin 3) = 0
    ∧ win0_9.index t (0 : Fin 3) = t.val ∧ win0_9.index t (1 : Fin 3) = 0 ∧ win0_9.index t (2 : Fin 3) = 0 :=
  (by decide +kernel : ∀ t : Fin grid0.N, _)

theorem idx0w : ∀ t : Fin cfg0.N, win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_10.index t (0 : Fin 2) = 0 ∧ win0_10.index t (1 : Fin 2) = 0 :=
  (by decide +kernel : ∀ t : Fin grid0.N, _)

/-- Row `512·t + r` of the batch axis. -/
abbrev brow (t : Fin cfg0.N) (r : Fin 512) : Fin 65536 :=
  ⟨512 * t.val + r.val, by have := t.isLt; have hN : cfg0.N = 128 := N_0; have := r.isLt; omega⟩

/-- The first embedding's block at point `t` holds rows `512·t + r` of the array as launched. -/
theorem blk0_0 (c : Dev nD) (t : Fin cfg0.N) (r : Fin 512) (cc : Fin 16) (l : Fin 32) :
    (iblk0 (V0 m ρ) c 0 t : Vec F S512x16x32 .f32) (ix3 r cc l) = m ((c : Thread nD τ).loc main_arg0) (ix3 (brow t r) cc l) := by
  unfold iblk0
  rw [View.read_apply]
  show m ((c : Thread nD τ).loc main_arg0) _ = m ((c : Thread nD τ).loc main_arg0) _
  refine congrArg _ ?_
  obtain ⟨e0, e1, e2, -⟩ := idx0 t
  funext a
  apply Fin.ext
  match a with
  | ⟨0, _⟩ => show win0_0.index t (0 : Fin 3) * 512 + 1 * r.val = 512 * t.val + r.val; omega
  | ⟨1, _⟩ => show win0_0.index t (1 : Fin 3) * 16 + 1 * cc.val = cc.val; omega
  | ⟨2, _⟩ => show win0_0.index t (2 : Fin 3) * 32 + 1 * l.val = l.val; omega

/-- The second embedding's block likewise. -/
theorem blk0_1 (c : Dev nD) (t : Fin cfg0.N) (r : Fin 512) (cc : Fin 16) (l : Fin 32) :
    (iblk0 (V0 m ρ) c 1 t : Vec F S512x16x32 .f32) (ix3 r cc l) = m ((c : Thread nD τ).loc main_arg1) (ix3 (brow t r) cc l) := by
  unfold iblk0
  rw [View.read_apply]
  show m ((c : Thread nD τ).loc main_arg1) _ = m ((c : Thread nD τ).loc main_arg1) _
  refine congrArg _ ?_
  obtain ⟨-, -, -, e0, e1, e2, -⟩ := idx0 t
  funext a
  apply Fin.ext
  match a with
  | ⟨0, _⟩ => show win0_1.index t (0 : Fin 3) * 512 + 1 * r.val = 512 * t.val + r.val; omega
  | ⟨1, _⟩ => show win0_1.index t (1 : Fin 3) * 16 + 1 * cc.val = cc.val; omega
  | ⟨2, _⟩ => show win0_1.index t (2 : Fin 3) * 32 + 1 * l.val = l.val; omega

/-- Each weight window's block is its whole array, at every point. -/
theorem blk0_2 (c : Dev nD) (t : Fin cfg0.N) : (iblk0 (V0 m ρ) c 2 t : Vec F S32x32 .f32) = m ((c : Thread nD τ).loc main_arg2) := by
  funext j
  unfold iblk0
  rw [View.read_apply]
  show m ((c : Thread nD τ).loc main_arg2) _ = m ((c : Thread nD τ).loc main_arg2) _
  refine congrArg _ ?_
  obtain ⟨e0, e1, -⟩ := idx0w t
  funext a
  apply Fin.ext
  match a with
  | ⟨0, _⟩ => show win0_2.index t (0 : Fin 2) * 32 + 1 * (j 0).val = (j 0).val; omega
  | ⟨1, _⟩ => show win0_2.index t (1 : Fin 2) * 32 + 1 * (j 1).val = (j 1).val; omega
theorem blk0_3 (c : Dev nD) (t : Fin cfg0.N) : (iblk0 (V0 m ρ) c 3 t : Vec F S32 .f32) = m ((c : Thread nD τ).loc main_arg3) := by
  funext j
  unfold iblk0
  rw [View.read_apply]
  show m ((c : Thread nD τ).loc main_arg3) _ = m ((c : Thread nD τ).loc main_arg3) _
  refine congrArg _ ?_
  obtain ⟨-, -, e0, -⟩ := idx0w t
  funext a
  apply Fin.ext
  match a with
  | ⟨0, _⟩ => show win0_3.index t (0 : Fin 1) * 32 + 1 * (j 0).val = (j 0).val; omega
theorem blk0_4 (c : Dev nD) (t : Fin cfg0.N) : (iblk0 (V0 m ρ) c 4 t : Vec F S32x32 .f32) = m ((c : Thread nD τ).loc main_arg4) := by
  funext j
  unfold iblk0
  rw [View.read_apply]
  show m ((c : Thread nD τ).loc main_arg4) _ = m ((c : Thread nD τ).loc main_arg4) _
  refine congrArg _ ?_
  obtain ⟨-, -, -, e0, e1, -⟩ := idx0w t
  funext a
  apply Fin.ext
  match a with
  | ⟨0, _⟩ => show win0_4.index t (0 : Fin 2) * 32 + 1 * (j 0).val = (j 0).val; omega
  | ⟨1, _⟩ => show win0_4.index t (1 : Fin 2) * 32 + 1 * (j 1).val = (j 1).val; omega
theorem blk0_5 (c : Dev nD) (t : Fin cfg0.N) : (iblk0 (V0 m ρ) c 5 t : Vec F S32 .f32) = m ((c : Thread nD τ).loc main_arg5) := by
  funext j
  unfold iblk0
  rw [View.read_apply]
  show m ((c : Thread nD τ).loc main_arg5) _ = m ((c : Thread nD τ).loc main_arg5) _
  refine congrArg _ ?_
  obtain ⟨-, -, -, -, -, e0, -⟩ := idx0w t
  funext a
  apply Fin.ext
  match a with
  | ⟨0, _⟩ => show win0_5.index t (0 : Fin 1) * 32 + 1 * (j 0).val = (j 0).val; omega
theorem blk0_6 (c : Dev nD) (t : Fin cfg0.N) : (iblk0 (V0 m ρ) c 6 t : Vec F S32x32 .f32) = m ((c : Thread nD τ).loc main_arg6) := by
  funext j
  unfold iblk0
  rw [View.read_apply]
  show m ((c : Thread nD τ).loc main_arg6) _ = m ((c : Thread nD τ).loc main_arg6) _
  refine congrArg _ ?_
  obtain ⟨-, -, -, -, -, -, e0, e1, -⟩ := idx0w t
  funext a
  apply Fin.ext
  match a with
  | ⟨0, _⟩ => show win0_6.index t (0 : Fin 2) * 32 + 1 * (j 0).val = (j 0).val; omega
  | ⟨1, _⟩ => show win0_6.index t (1 : Fin 2) * 32 + 1 * (j 1).val = (j 1).val; omega
theorem blk0_7 (c : Dev nD) (t : Fin cfg0.N) : (iblk0 (V0 m ρ) c 7 t : Vec F S32 .f32) = m ((c : Thread nD τ).loc main_arg7) := by
  funext j
  unfold iblk0
  rw [View.read_apply]
  show m ((c : Thread nD τ).loc main_arg7) _ = m ((c : Thread nD τ).loc main_arg7) _
  refine congrArg _ ?_
  obtain ⟨-, -, -, -, -, -, -, -, e0, -⟩ := idx0w t
  funext a
  apply Fin.ext
  match a with
  | ⟨0, _⟩ => show win0_7.index t (0 : Fin 1) * 32 + 1 * (j 0).val = (j 0).val; omega

/-- The exponentials of point `t`'s scores, as the body computes them from the point's blocks. -/
def eBlk (c : Dev nD) (t : Fin cfg0.N) : Vec F S512x16x16 .f32 := k0_pay11 (k0_pay7 (iblk0 (V0 m ρ) c 0 t) (iblk0 (V0 m ρ) c 1 t) (iblk0 (V0 m ρ) c 2 t) (iblk0 (V0 m ρ) c 3 t) (iblk0 (V0 m ρ) c 3 t)) (k0_pay8 (iblk0 (V0 m ρ) c 0 t) (iblk0 (V0 m ρ) c 4 t) (iblk0 (V0 m ρ) c 5 t)) (k0_pay9 (iblk0 (V0 m ρ) c 1 t) (iblk0 (V0 m ρ) c 4 t)) (iblk0 (V0 m ρ) c 5 t)

/-- The values of point `t`'s rows. -/
def vBlk (c : Dev nD) (t : Fin cfg0.N) : Vec F S512x16x32 .f32 := k0_pay10 (k0_pay3 (iblk0 (V0 m ρ) c 0 t)) (k0_pay4 (iblk0 (V0 m ρ) c 1 t)) (k0_pay6 (iblk0 (V0 m ρ) c 6 t)) (iblk0 (V0 m ρ) c 7 t) (iblk0 (V0 m ρ) c 7 t)

/-- The running sum after point `n`: the zero block plus point 0's column sums, then plus each later point's. -/
def acc (c : Dev nD) : (n : ℕ) → n < cfg0.N → Vec F S16x16 .f32
  | 0, h => k0_pay1 (eBlk m ρ c ⟨0, h⟩) k0_pay2
  | n + 1, h => k0_pay1 (eBlk m ρ c ⟨n + 1, h⟩) (acc c n (Nat.lt_of_succ_lt h))

/-- What the three output buffers hold after point `n`: by induction on the point, the first point in the case that
    resets the sum, every later one in the case that finds the previous sum. -/
theorem outsAt_eq (c : Dev nD) : ∀ (n : ℕ) (h : n < cfg0.N),
    outsAt0 (V0 m ρ) c n h = (eBlk m ρ c ⟨n, h⟩, vBlk m ρ c ⟨n, h⟩, acc m ρ c n h)
  | 0, h => by
    rw [outsAt0_A (V0 m ρ) c ⟨0, h⟩ rfl, out_A_8, out_A_9, out_A_10]
    rfl
  | n + 1, h => by
    have hN : cfg0.N = 128 := N_0
    have hB : ¬(⟨n + 1, h⟩ : Fin cfg0.N).val % 128 = 0 := by dsimp only; omega
    rw [outsAt0_B (V0 m ρ) c ⟨n + 1, h⟩ hB, out_B_8, out_B_9, out_B_10]
    show (_, _, k0_pay1 _ (outsAt0 (V0 m ρ) c n _).2.2) = _
    rw [outsAt_eq c n]
    rfl

end Cert.KernelIdeal.Arrays

end
-- ==== Proof.Spec.lean ====
import Idealize.ShloMosaic.Lib.ValueIdx
import Idealize.ShloMosaic.PureOps.Ideal.Laws

/-!
# The function both programs compute, one batch row at a time

Everything up to the softmax, and everything after it, treats the 65536 batch rows independently: a row
`n` contributes a [16, 32] slice of each embedding. Only the softmax weights couple the rows (a sum over
the batch axis). This module states the per-row functions over the extended reals, with the arrays read
through curried coordinate functions, so that a 512-row block of the kernel and the whole array of the
reference are instances of the same definitions.
-/

noncomputable section

namespace Cert.Spec

open Idealize.ShloMosaic Idealize.ShloMosaic.ValueIdx
open scoped BigOperators

/-- The floor under a norm: the single-precision word nearest to 1e-12. -/
abbrev EPS : EReal := Ideal.ofBits .f32 0x2B8CBCCC#32

/-- The single-precision zero word. -/
abbrev Z0 : EReal := Ideal.ofBits .f32 0x00000000#32

/-- Row `n` of a rank-3 array as a matrix of its two trailing coordinates. -/
abbrev row {B a b : Nat} (x : (⟨3, ![B, a, b]⟩ : Shape).Idx → EReal) (n : Fin B) : Fin a → Fin b → EReal :=
  fun c l => x (ix3 n c l)

/-- A rank-2 array as a function of two coordinates. -/
abbrev mat {a b : Nat} (x : (⟨2, ![a, b]⟩ : Shape).Idx → EReal) : Fin a → Fin b → EReal := fun i j => x (ix2 i j)

/-- A rank-1 array as a function of its coordinate. -/
abbrev vec {a : Nat} (x : (⟨1, ![a]⟩ : Shape).Idx → EReal) : Fin a → EReal := fun i => x (ix1 i)

/-- A linear layer `x · Wᵀ + b` on one row: entry (c, e) is `∑ l, x(c,l) · W(e,l) + b(e)`. -/
def lin (x : Fin 16 → Fin 32 → EReal) (W : Fin 32 → Fin 32 → EReal) (b : Fin 32 → EReal) (c : Fin 16) (e : Fin 32) : EReal :=
  (∑ l : Fin 32, x c l * W e l) + b e

/-- The product of the two embeddings' projections. -/
def pr (x1 x2 : Fin 16 → Fin 32 → EReal) (W : Fin 32 → Fin 32 → EReal) (b : Fin 32 → EReal) (c : Fin 16) (e : Fin 32) : EReal :=
  lin x1 W b c e * lin x2 W b c e

/-- The Euclidean norm of a vector, floored at `EPS`. -/
def floorNorm {n : Nat} (z : Fin n → EReal) : EReal := max (Ideal.sqrt (∑ e : Fin n, z e * z e)) EPS

/-- Each row of a matrix divided by its floored norm. -/
def unit (z : Fin 16 → Fin 32 → EReal) (c : Fin 16) (e : Fin 32) : EReal := Ideal.div (z c e) (floorNorm (z c))

/-- The cosine score of query row `c` against key row `d`. -/
def score (x1 x2 : Fin 16 → Fin 32 → EReal) (qW : Fin 32 → Fin 32 → EReal) (qb : Fin 32 → EReal)
    (kW : Fin 32 → Fin 32 → EReal) (kb : Fin 32 → EReal) (c d : Fin 16) : EReal :=
  ∑ e : Fin 32, unit (pr x1 x2 qW qb) c e * unit (pr x1 x2 kW kb) d e

/-- The weights applied to the values: entry (d, e) is `∑ c, p(c,d) · v(c,e)`. -/
def mix (p : Fin 16 → Fin 16 → EReal) (v : Fin 16 → Fin 32 → EReal) (d : Fin 16) (e : Fin 32) : EReal :=
  ∑ c : Fin 16, p c d * v c e

/-- A [16, 32] matrix laid out row-major as a vector of 512. -/
def flat (o : Fin 16 → Fin 32 → EReal) (j : Fin 512) : EReal :=
  o ⟨j.val / 32, by have := j.isLt; omega⟩ ⟨j.val % 32, by have := j.isLt; omega⟩

/-- The hidden layer: `max (h · p1Wᵀ + p1b) 0`. -/
def hid (h : Fin 512 → EReal) (p1W : Fin 48 → Fin 512 → EReal) (p1b : Fin 48 → EReal) (k : Fin 48) : EReal :=
  max ((∑ j : Fin 512, h j * p1W k j) + p1b k) Z0

/-- The last linear layer on one row. -/
def head (p : Fin 16 → Fin 16 → EReal) (v : Fin 16 → Fin 32 → EReal) (p1W : Fin 48 → Fin 512 → EReal) (p1b : Fin 48 → EReal)
    (p2W : Fin 3 → Fin 48 → EReal) (p2b : Fin 3 → EReal) (r : Fin 3) : EReal :=
  (∑ k : Fin 48, hid (flat (mix p v)) p1W p1b k * p2W r k) + p2b r

/-- One row of the result: the last layer's output divided by its floored norm. -/
def out (p : Fin 16 → Fin 16 → EReal) (v : Fin 16 → Fin 32 → EReal) (p1W : Fin 48 → Fin 512 → EReal) (p1b : Fin 48 → EReal)
    (p2W : Fin 3 → Fin 48 → EReal) (p2b : Fin 3 → EReal) (r : Fin 3) : EReal :=
  Ideal.div (head p v p1W p1b p2W p2b r) (floorNorm (head p v p1W p1b p2W p2b))

/-- Softmax weights over a finite family, as the kernel computes them: no shift. -/
def soft {N : Nat} (a : Fin N → EReal) (n : Fin N) : EReal :=
  Ideal.div (Ideal.exp (a n)) (∑ n' : Fin N, Ideal.exp (a n'))

/-- Softmax weights with every exponent shifted by `M` first. -/
def softShift {N : Nat} (a : Fin N → EReal) (M : EReal) (n : Fin N) : EReal :=
  Ideal.div (Ideal.exp (a n - M)) (∑ n' : Fin N, Ideal.exp (a n' - M))

end Cert.Spec

end
-- ==== Proof.Arrays0b.lean ====
import proofs.«124052_j71253507440717_2_alg».proof.Proof.Arrays0a
import proofs.«124052_j71253507440717_2_alg».proof.Proof.Spec
import Idealize.ShloMosaic.Lib.Pipeline.Value
import Idealize.ShloMosaic.Lib.ValueIdx

/-!
# The three arrays the first kernel leaves behind

Over the extended reals, with the body's arithmetic read at an index (the four hypotheses below, each a fact about
the body's pure terms), the first kernel's write-backs cover its output arrays, so after its last grid point:
the first array holds `exp (score n c d)` at `(n, c, d)`, the second the value rows, and the third, written back once
after the last point, the sum over all grid points of the column sums of the exponentials.
-/

set_option maxRecDepth 16384

noncomputable section

namespace Cert.KernelIdeal.Arrays

open Cert.KernelIdeal Cert.KernelIdeal.Gen Cert.Spec
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- The cosine score of batch row `n`, query row `cc` against key row `d`, from the arrays as launched. -/
def sc (c : Dev nD) (n : Fin 65536) (cc d : Fin 16) : EReal :=
  score (row (m ((c : Thread nD τ).loc main_arg0)) n) (row (m ((c : Thread nD τ).loc main_arg1)) n) (mat (m ((c : Thread nD τ).loc main_arg2))) (vec (m ((c : Thread nD τ).loc main_arg3))) (mat (m ((c : Thread nD τ).loc main_arg4))) (vec (m ((c : Thread nD τ).loc main_arg5))) cc d

/-- The value entry `(cc, e)` of batch row `n`. -/
def vl (c : Dev nD) (n : Fin 65536) (cc : Fin 16) (e : Fin 32) : EReal :=
  pr (row (m ((c : Thread nD τ).loc main_arg0)) n) (row (m ((c : Thread nD τ).loc main_arg1)) n) (mat (m ((c : Thread nD τ).loc main_arg6))) (vec (m ((c : Thread nD τ).loc main_arg7))) cc e

theorem row0 (c : Dev nD) (t : Fin cfg0.N) (r : Fin 512) :
    row (iblk0 (V0 m ρ) c 0 t : Vec Ideal S512x16x32 .f32) r = row (m ((c : Thread nD τ).loc main_arg0)) (brow t r) :=
  funext fun cc => funext fun l => blk0_0 m ρ c t r cc l
theorem row1 (c : Dev nD) (t : Fin cfg0.N) (r : Fin 512) :
    row (iblk0 (V0 m ρ) c 1 t : Vec Ideal S512x16x32 .f32) r = row (m ((c : Thread nD τ).loc main_arg1)) (brow t r) :=
  funext fun cc => funext fun l => blk0_1 m ρ c t r cc l

/-- Point `t`'s exponentials at row `r`: the exponential of the score of batch row `512·t + r`. -/
theorem eBlk_apply (hE : ∀ (x0 x1 : Vec Ideal S512x16x32 .f32) (qW : Vec Ideal S32x32 .f32) (qb : Vec Ideal S32 .f32) (kW : Vec Ideal S32x32 .f32) (kb : Vec Ideal S32 .f32) (r : Fin 512) (cc d : Fin 16),
      k0_pay11 (k0_pay7 x0 x1 qW qb qb) (k0_pay8 x0 kW kb) (k0_pay9 x1 kW) kb (ix3 r cc d) = Ideal.exp (score (row x0 r) (row x1 r) (mat qW) (vec qb) (mat kW) (vec kb) cc d))
    (c : Dev nD) (t : Fin cfg0.N) (r : Fin 512) (cc d : Fin 16) :
    eBlk m ρ c t (ix3 r cc d) = Ideal.exp (sc m c (brow t r) cc d) := by
  unfold eBlk
  rw [hE, row0, row1, blk0_2, blk0_3, blk0_4, blk0_5]
  rfl

/-- Point `t`'s values at row `r`. -/
theorem vBlk_apply (hV : ∀ (x0 x1 : Vec Ideal S512x16x32 .f32) (vW : Vec Ideal S32x32 .f32) (vb : Vec Ideal S32 .f32) (r : Fin 512) (cc : Fin 16) (e : Fin 32),
      k0_pay10 (k0_pay3 x0) (k0_pay4 x1) (k0_pay6 vW) vb vb (ix3 r cc e) = pr (row x0 r) (row x1 r) (mat vW) (vec vb) cc e)
    (c : Dev nD) (t : Fin cfg0.N) (r : Fin 512) (cc : Fin 16) (e : Fin 32) :
    vBlk m ρ c t (ix3 r cc e) = vl m c (brow t r) cc e := by
  unfold vBlk
  rw [hV, row0, row1, blk0_6, blk0_7]
  rfl

end Cert.KernelIdeal.Arrays

end
-- ==== Proof.Reals.lean ====
import proofs.«124052_j71253507440717_2_alg».proof.Proof.Spec

noncomputable section

namespace Cert.Reals

open Cert.Spec Idealize.ShloMosaic
open scoped BigOperators

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Softmax weights do not change when every exponent is shifted by the same real:
    exp (a n - M) / ∑ exp (a n' - M) = exp (a n) / ∑ exp (a n'), since exp (x - M) = exp x / exp M and the
    common factor 1 / exp M cancels between numerator and denominator. -/
theorem soft_shift {N : Nat} (a : Fin N → EReal) (M : EReal) (ha : ∀ n, ∃ r : ℝ, a n = (r : EReal))
    (hM : ∃ m : ℝ, M = (m : EReal)) (n : Fin N) : softShift a M n = soft a n := by
  choose f hf using ha
  obtain ⟨m, rfl⟩ := hM
  have hfa : a = fun n => (f n : EReal) := funext hf
  subst hfa
  unfold softShift soft
  simp only [← EReal.coe_sub, Ideal.exp_coe, ← coe_sum]
  have hpos1 : 0 < ∑ n' : Fin N, Real.exp (f n' - m) :=
    Finset.sum_pos (fun i _ => Real.exp_pos _) ⟨n, Finset.mem_univ n⟩
  have hpos2 : 0 < ∑ n' : Fin N, Real.exp (f n') :=
    Finset.sum_pos (fun i _ => Real.exp_pos _) ⟨n, Finset.mem_univ n⟩
  rw [Ideal.div_coe hpos1.ne', Ideal.div_coe hpos2.ne', ← EReal.coe_mul, ← EReal.coe_mul]
  congr 1
  have hM : Real.exp m ≠ 0 := (Real.exp_pos m).ne'
  simp only [Real.exp_sub, ← Finset.sum_div] at hpos1 ⊢
  field_simp

/-- The coercion of the larger of two reals is the larger of the coercions (the coercion is monotone). -/
theorem coe_max (a b : ℝ) : ((max a b : ℝ) : EReal) = max (a : EReal) (b : EReal) :=
  EReal.coe_strictMono.monotone.map_max

/-- An extended real is real when it is the coercion of a real number (neither infinity). -/
def IsReal (x : EReal) : Prop := ∃ r : ℝ, x = (r : EReal)

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is real. -/
theorem IsReal.sum {ι : Type} (s : Finset ι) (f : ι → EReal) (h : ∀ i, IsReal (f i)) : IsReal (∑ i ∈ s, f i) := by
  choose g hg using h
  have hf : f = fun i => (g i : EReal) := funext hg
  subst hf
  exact ⟨∑ i ∈ s, g i, (coe_sum s g).symm⟩

/-- The floor under a norm denotes a positive real: the word 0x2B8CBCCC has sign 0, exponent field 87 and
    fraction field 834764, so it denotes (2^23 + 834764) · 2^(87 - 127 - 23) = 9223372 · 2^(-63). -/
theorem eps_pos : ∃ ε : ℝ, 0 < ε ∧ EPS = (ε : EReal) := by
  refine ⟨9223372 * (2 : ℝ) ^ (-63 : ℤ), by positivity, ?_⟩
  simp [EPS, Ideal.ofBits, Ideal.ieee, -EReal.coe_mul]

/-- The floored Euclidean norm of a real vector is a positive real: the sum of squares is a real ≥ 0, its
    square root is a real, and the maximum with the positive floor is a real at least the floor. -/
theorem floorNorm_pos {n : Nat} (z : Fin n → EReal) (hz : ∀ e, IsReal (z e)) :
    ∃ r : ℝ, 0 < r ∧ floorNorm z = (r : EReal) := by
  choose f hf using hz
  obtain ⟨ε, hε, he⟩ := eps_pos
  have hzf : z = fun e => (f e : EReal) := funext hf
  subst hzf
  unfold floorNorm
  rw [he]
  simp only [← EReal.coe_mul, ← coe_sum]
  have h0 : 0 ≤ ∑ e : Fin n, f e * f e := Finset.sum_nonneg (fun i _ => mul_self_nonneg _)
  rw [Ideal.sqrt_coe, if_neg (not_lt.mpr h0), ← coe_max]
  exact ⟨max (Real.sqrt (∑ e : Fin n, f e * f e)) ε, lt_max_of_lt_right hε, rfl⟩

/-- A real divided by a positive real is real. -/
theorem IsReal.div_pos {x y : EReal} (hx : IsReal x) (hy : ∃ r : ℝ, 0 < r ∧ y = (r : EReal)) :
    IsReal (Ideal.div x y) := by
  obtain ⟨a, rfl⟩ := hx
  obtain ⟨r, hr, rfl⟩ := hy
  rw [Ideal.div_coe hr.ne']
  exact ⟨a * (1 / r), (EReal.coe_mul a (1 / r)).symm⟩

/-- A linear layer of real data is real. -/
theorem lin_real (x : Fin 16 → Fin 32 → EReal) (W : Fin 32 → Fin 32 → EReal) (b : Fin 32 → EReal)
    (hx : ∀ c l, IsReal (x c l)) (hW : ∀ e l, IsReal (W e l)) (hb : ∀ e, IsReal (b e)) (c : Fin 16) (e : Fin 32) :
    IsReal (lin x W b c e) :=
  (IsReal.sum _ _ (fun l => (hx c l).mul (hW e l))).add (hb e)

/-- The product of the two projections of real data is real. -/
theorem pr_real (x1 x2 : Fin 16 → Fin 32 → EReal) (W : Fin 32 → Fin 32 → EReal) (b : Fin 32 → EReal)
    (h1 : ∀ c l, IsReal (x1 c l)) (h2 : ∀ c l, IsReal (x2 c l)) (hW : ∀ e l, IsReal (W e l)) (hb : ∀ e, IsReal (b e))
    (c : Fin 16) (e : Fin 32) : IsReal (pr x1 x2 W b c e) :=
  (lin_real x1 W b h1 hW hb c e).mul (lin_real x2 W b h2 hW hb c e)

/-- A real matrix with each row divided by its floored norm is real. -/
theorem unit_real (z : Fin 16 → Fin 32 → EReal) (hz : ∀ c e, IsReal (z c e)) (c : Fin 16) (e : Fin 32) :
    IsReal (unit z c e) :=
  (hz c e).div_pos (floorNorm_pos (z c) (hz c))

/-- The cosine score of real data is real: every operation on the way (finite sums, products, the square
    root of a sum of squares, the maximum with the positive floor, the quotient by a positive real) keeps
    real values real. -/
theorem score_real (x1 x2 : Fin 16 → Fin 32 → EReal) (qW kW : Fin 32 → Fin 32 → EReal) (qb kb : Fin 32 → EReal)
    (h1 : ∀ c l, ∃ r : ℝ, x1 c l = (r : EReal)) (h2 : ∀ c l, ∃ r : ℝ, x2 c l = (r : EReal))
    (hqW : ∀ e l, ∃ r : ℝ, qW e l = (r : EReal)) (hqb : ∀ e, ∃ r : ℝ, qb e = (r : EReal))
    (hkW : ∀ e l, ∃ r : ℝ, kW e l = (r : EReal)) (hkb : ∀ e, ∃ r : ℝ, kb e = (r : EReal)) (c d : Fin 16) :
    ∃ r : ℝ, score x1 x2 qW qb kW kb c d = (r : EReal) :=
  IsReal.sum _ _ (fun e =>
    (unit_real _ (pr_real x1 x2 qW qb h1 h2 hqW hqb) c e).mul (unit_real _ (pr_real x1 x2 kW kb h1 h2 hkW hkb) d e))

/-- A sum over 65536 = 128 · 512 consecutive indices is the sum over 128 blocks of the sums over the 512
    indices of each block. -/
theorem sum_blocks (f : Fin 65536 → EReal) :
    ∑ n : Fin 65536, f n
      = ∑ t : Fin 128, ∑ r : Fin 512, f ⟨512 * t.val + r.val, by have := t.isLt; have := r.isLt; omega⟩ := by
  rw [← Fintype.sum_prod_type']
  refine (Fintype.sum_equiv (finProdFinEquiv (m := 128) (n := 512)) _ _ ?_).symm
  rintro ⟨t, r⟩
  refine congrArg f (Fin.ext ?_)
  show 512 * t.val + r.val = r.val + 512 * t.val
  omega

end Cert.Reals

end
-- ==== Proof.Arrays0c.lean ====
import proofs.«124052_j71253507440717_2_alg».proof.Proof.Arrays0b
import proofs.«124052_j71253507440717_2_alg».proof.Proof.Reals
import Idealize.ShloMosaic.Lib.Pipeline.Value
import Idealize.ShloMosaic.Lib.ValueIdx

/-!
# The value array and the running sum after the first kernel

The first kernel writes two more arrays besides the exponentials. The value array [65536, 16, 32] is written back
at every grid point, 512 rows at a time: point `t` writes rows `512·t … 512·t + 511`, the 128 blocks tile the
array, and so the array ends holding the value of every batch row. The running sum [16, 16] lives in one block
that every point updates and only the last point writes back: after point `n` it holds the sum, over the points
`0 … n` and the 512 rows of each, of the exponentials of the rows' scores, and after the last point that is the
sum over all 65536 batch rows.

The body's arithmetic enters through four hypotheses, each a fact about the body's pure terms read at an index.
-/

set_option maxRecDepth 16384

noncomputable section

namespace Cert.KernelIdeal.Arrays

open Cert.KernelIdeal Cert.KernelIdeal.Gen Cert.Spec
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-! ## The value array -/

/-- The value array as one function of the arrays as launched: entry `(n, cc, e)` is the value of batch row `n`. -/
def GV (c : Dev nD) : Buf (Elt Ideal) ((c : Thread nD τ).loc main_v0_1) := fun i =>
  vl m c (⟨(i 0).val, (i 0).isLt⟩ : Fin 65536) (⟨(i 1).val, (i 1).isLt⟩ : Fin 16) (⟨(i 2).val, (i 2).isLt⟩ : Fin 32)

/-- What point `t` writes back to the value array is block `t` of that function: row `r` of the point's values is
    the value of batch row `512·t + r`, and the block's row `r` sits at row `512·t + r` of the array. -/
theorem flushed9_eq (hV : ∀ (x0 x1 : Vec Ideal S512x16x32 .f32) (vW : Vec Ideal S32x32 .f32) (vb : Vec Ideal S32 .f32) (r : Fin 512) (cc : Fin 16) (e : Fin 32),
      k0_pay10 (k0_pay3 x0) (k0_pay4 x1) (k0_pay6 vW) vb vb (ix3 r cc e) = pr (row x0 r) (row x1 r) (mat vW) (vec vb) cc e)
    (c : Dev nD) (t : Fin cfg0.N) :
    (dat0 (V0 m ρ) c).flushed 9 t = ((cfg0.win 9).blk t).view.read (Elt Ideal) (GV m c) := by
  show (cfg0.win 9).cut (grid0.coords t) ((dat0 (V0 m ρ) c).after 9 t) = _
  rw [after0_9, outsAt_eq]
  funext j
  rw [View.read_apply]
  show vBlk m ρ c t j = GV m c (((cfg0.win 9).blk t).view.emb j)
  have e : vBlk m ρ c t j = vBlk m ρ c t (ix3 (⟨(j 0).val, (j 0).isLt⟩ : Fin 512) (⟨(j 1).val, (j 1).isLt⟩ : Fin 16) (⟨(j 2).val, (j 2).isLt⟩ : Fin 32)) :=
    congrArg (vBlk m ρ c t) (funext fun a => by match a with | ⟨0, _⟩ => rfl | ⟨1, _⟩ => rfl | ⟨2, _⟩ => rfl)
  refine e.trans ((vBlk_apply m ρ hV c t _ _ _).trans ?_)
  obtain ⟨-, -, -, -, -, -, -, -, -, e0, e1, e2⟩ := idx0 t
  show vl m c _ _ _ = vl m c _ _ _
  refine congr (congr (congrArg (vl m c) (Fin.ext ?_)) (Fin.ext ?_)) (Fin.ext ?_)
  · show 512 * t.val + (j 0).val = win0_9.index t (0 : Fin 3) * 512 + 1 * (j 0).val
    omega
  · show (j 1).val = win0_9.index t (1 : Fin 3) * 16 + 1 * (j 1).val
    omega
  · show (j 2).val = win0_9.index t (2 : Fin 3) * 32 + 1 * (j 2).val
    omega

/-- An index of the value array is in point `t`'s block iff each coordinate is in the block's range on its axis. -/
theorem mem_blk9 (t : Fin cfg0.N) (i : S65536x16x32.Idx) :
    i ∈ ((cfg0.win 9).blk t).view.set ↔ ∀ a : Fin 3, win0_9.index t a * S512x16x32.size a ≤ (i a).val ∧ (i a).val < win0_9.index t a * S512x16x32.size a + S512x16x32.size a := by
  show i ∈ ((View.whole main_v0_1).slice (win0_9.rect t)).set ↔ _
  rw [View.set_slice_whole, Rect.mem_set_unit]
  exact Iff.rfl

/-- The value array after the last point: every row `n` lies in the block of point `n / 512`, so the array holds the
    value of every batch row. -/
theorem final9 (hV : ∀ (x0 x1 : Vec Ideal S512x16x32 .f32) (vW : Vec Ideal S32x32 .f32) (vb : Vec Ideal S32 .f32) (r : Fin 512) (cc : Fin 16) (e : Fin 32),
      k0_pay10 (k0_pay3 x0) (k0_pay4 x1) (k0_pay6 vW) vb vb (ix3 r cc e) = pr (row x0 r) (row x1 r) (mat vW) (vec vb) cc e)
    (c : Dev nD) : (dat0 (V0 m ρ) c).arrAt 9 cfg0.N = GV m c :=
  (dat0 (V0 m ρ) c).arrAt_eq_of_cover 9 (GV m c) (fun t _ => flushed9_eq m ρ hV c t) fun i => by
    have hN : cfg0.N = 128 := N_0
    have hi0 : (i 0).val < 65536 := (i 0).isLt
    have hi1 : (i 1).val < 16 := (i 1).isLt
    have hi2 : (i 2).val < 32 := (i 2).isLt
    obtain ⟨tt, htt⟩ : ∃ tt : Fin cfg0.N, tt.val = (i 0).val / 512 := ⟨⟨(i 0).val / 512, by omega⟩, rfl⟩
    obtain ⟨-, -, -, -, -, -, -, -, -, e0, e1, e2⟩ := idx0 tt
    refine ⟨tt, flush0_9 tt, ?_⟩
    rw [mem_blk9]
    intro a
    match a with
    | ⟨0, _⟩ =>
      show win0_9.index tt (0 : Fin 3) * 512 ≤ (i 0).val ∧ (i 0).val < win0_9.index tt (0 : Fin 3) * 512 + 512
      omega
    | ⟨1, _⟩ =>
      show win0_9.index tt (1 : Fin 3) * 16 ≤ (i 1).val ∧ (i 1).val < win0_9.index tt (1 : Fin 3) * 16 + 16
      omega
    | ⟨2, _⟩ =>
      show win0_9.index tt (2 : Fin 3) * 32 ≤ (i 2).val ∧ (i 2).val < win0_9.index tt (2 : Fin 3) * 32 + 32
      omega

/-! ## The running sum -/

/-- The running-sum array as one function of the arrays as launched: entry `(cc, d)` is the sum over all 65536
    batch rows of the exponential of the row's score at `(cc, d)`. -/
def GS (c : Dev nD) : Buf (Elt Ideal) ((c : Thread nD τ).loc main_v0_2) := fun i =>
  (∑ n : Fin 65536, Ideal.exp (sc m c n (⟨(i 0).val, (i 0).isLt⟩ : Fin 16) (⟨(i 1).val, (i 1).isLt⟩ : Fin 16)) : EReal)

/-- Row `r` of point `t ≤ n` is a batch row. -/
theorem blockRow_lt (n : ℕ) (h : n < cfg0.N) (t : Fin (n + 1)) (r : Fin 512) : 512 * t.val + r.val < 65536 := by
  have hN : cfg0.N = 128 := N_0
  have := t.isLt
  have := r.isLt
  omega

/-- The running sum after point `n`, in closed form: the sum over the points `0 … n` and the 512 rows of each of the
    exponentials of the rows' scores. By induction on the point: the first point adds its column sums to the zero
    block, every later point to the sum before it. -/
theorem acc_closed (hE : ∀ (x0 x1 : Vec Ideal S512x16x32 .f32) (qW : Vec Ideal S32x32 .f32) (qb : Vec Ideal S32 .f32) (kW : Vec Ideal S32x32 .f32) (kb : Vec Ideal S32 .f32) (r : Fin 512) (cc d : Fin 16),
      k0_pay11 (k0_pay7 x0 x1 qW qb qb) (k0_pay8 x0 kW kb) (k0_pay9 x1 kW) kb (ix3 r cc d) = Ideal.exp (score (row x0 r) (row x1 r) (mat qW) (vec qb) (mat kW) (vec kb) cc d))
    (hAcc : ∀ (E : FVec Ideal S512x16x16 .f32) (s : Vec Ideal S16x16 .f32) (cc d : Fin 16), k0_pay1 E s (ix2 cc d) = s (ix2 cc d) + ∑ r : Fin 512, E (ix3 r cc d))
    (hZero : ∀ (cc d : Fin 16), k0_pay2 (F := Ideal) (ix2 cc d) = 0)
    (c : Dev nD) (cc d : Fin 16) : ∀ (n : ℕ) (h : n < cfg0.N),
    acc m ρ c n h (ix2 cc d)
      = ∑ t : Fin (n + 1), ∑ r : Fin 512, Ideal.exp (sc m c ⟨512 * t.val + r.val, blockRow_lt n h t r⟩ cc d)
  | 0, h => by
    show k0_pay1 (eBlk m ρ c ⟨0, h⟩) (k0_pay2 (F := Ideal)) (ix2 cc d) = _
    refine (hAcc _ _ cc d).trans ?_
    rw [hZero, zero_add, Fin.sum_univ_one]
    refine Finset.sum_congr rfl fun r _ => ?_
    exact eBlk_apply m ρ hE c ⟨0, h⟩ r cc d
  | n + 1, h => by
    show k0_pay1 (eBlk m ρ c ⟨n + 1, h⟩) (acc m ρ c n (Nat.lt_of_succ_lt h)) (ix2 cc d) = _
    refine (hAcc _ _ cc d).trans ?_
    refine Eq.trans ?_ (Fin.sum_univ_castSucc _).symm
    refine congrArg₂ (· + ·) ?_ ?_
    · exact acc_closed hE hAcc hZero c cc d n (Nat.lt_of_succ_lt h)
    · refine Finset.sum_congr rfl fun r _ => ?_
      exact eBlk_apply m ρ hE c ⟨n + 1, h⟩ r cc d

/-- The running sum after the last point: the sum over all 65536 batch rows, the 128 points' blocks of 512 rows put
    end to end. -/
theorem acc_last (hE : ∀ (x0 x1 : Vec Ideal S512x16x32 .f32) (qW : Vec Ideal S32x32 .f32) (qb : Vec Ideal S32 .f32) (kW : Vec Ideal S32x32 .f32) (kb : Vec Ideal S32 .f32) (r : Fin 512) (cc d : Fin 16),
      k0_pay11 (k0_pay7 x0 x1 qW qb qb) (k0_pay8 x0 kW kb) (k0_pay9 x1 kW) kb (ix3 r cc d) = Ideal.exp (score (row x0 r) (row x1 r) (mat qW) (vec qb) (mat kW) (vec kb) cc d))
    (hAcc : ∀ (E : FVec Ideal S512x16x16 .f32) (s : Vec Ideal S16x16 .f32) (cc d : Fin 16), k0_pay1 E s (ix2 cc d) = s (ix2 cc d) + ∑ r : Fin 512, E (ix3 r cc d))
    (hZero : ∀ (cc d : Fin 16), k0_pay2 (F := Ideal) (ix2 cc d) = 0)
    (c : Dev nD) (n : ℕ) (h : n < cfg0.N) (hn : n = 127) (cc d : Fin 16) :
    acc m ρ c n h (ix2 cc d) = ∑ k : Fin 65536, Ideal.exp (sc m c k cc d) := by
  subst hn
  exact (acc_closed m ρ hE hAcc hZero c cc d 127 h).trans
    (Cert.Reals.sum_blocks fun k => Ideal.exp (sc m c k cc d)).symm

/-- The running-sum function at an entry written by its two coordinates. -/
theorem GS_apply (c : Dev nD) (cc d : Fin 16) :
    GS m c (ix2 cc d) = ∑ k : Fin 65536, Ideal.exp (sc m c k cc d) := rfl

/-- What a point writes back to the running-sum array, against any array `G` that agrees entry by entry with the
    running sum after that point: the window's one block is the whole array, read through zero offsets. (Stated for
    an arbitrary `G` so that the sum over all batch rows is never unfolded.) -/
theorem flushed10_of (c : Dev nD) (t : Fin cfg0.N) (G : Buf (Elt Ideal) ((c : Thread nD τ).loc main_v0_2))
    (hG : ∀ cc d : Fin 16, acc m ρ c t.val t.isLt (ix2 cc d) = G (ix2 cc d)) :
    (dat0 (V0 m ρ) c).flushed 10 t = ((cfg0.win 10).blk t).view.read (Elt Ideal) G := by
  show (cfg0.win 10).cut (grid0.coords t) ((dat0 (V0 m ρ) c).after 10 t) = _
  rw [after0_10, outsAt_eq]
  funext j
  rw [View.read_apply]
  show acc m ρ c t.val t.isLt j = G (((cfg0.win 10).blk t).view.emb j)
  have e : acc m ρ c t.val t.isLt j = acc m ρ c t.val t.isLt (ix2 (⟨(j 0).val, (j 0).isLt⟩ : Fin 16) (⟨(j 1).val, (j 1).isLt⟩ : Fin 16)) :=
    congrArg (acc m ρ c t.val t.isLt) (funext fun a => by match a with | ⟨0, _⟩ => rfl | ⟨1, _⟩ => rfl)
  refine e.trans ((hG _ _).trans (congrArg G (funext fun a => Fin.ext ?_)))
  obtain ⟨-, -, -, -, -, -, -, -, -, e0, e1⟩ := idx0w t
  match a with
  | ⟨0, _⟩ =>
    show (j 0).val = win0_10.index t (0 : Fin 2) * 16 + 1 * (j 0).val
    omega
  | ⟨1, _⟩ =>
    show (j 1).val = win0_10.index t (1 : Fin 2) * 16 + 1 * (j 1).val
    omega

/-- The one write-back of the running sum, at the last point, writes the sum over all batch rows. -/
theorem flushed10_eq (hE : ∀ (x0 x1 : Vec Ideal S512x16x32 .f32) (qW : Vec Ideal S32x32 .f32) (qb : Vec Ideal S32 .f32) (kW : Vec Ideal S32x32 .f32) (kb : Vec Ideal S32 .f32) (r : Fin 512) (cc d : Fin 16),
      k0_pay11 (k0_pay7 x0 x1 qW qb qb) (k0_pay8 x0 kW kb) (k0_pay9 x1 kW) kb (ix3 r cc d) = Ideal.exp (score (row x0 r) (row x1 r) (mat qW) (vec qb) (mat kW) (vec kb) cc d))
    (hAcc : ∀ (E : FVec Ideal S512x16x16 .f32) (s : Vec Ideal S16x16 .f32) (cc d : Fin 16), k0_pay1 E s (ix2 cc d) = s (ix2 cc d) + ∑ r : Fin 512, E (ix3 r cc d))
    (hZero : ∀ (cc d : Fin 16), k0_pay2 (F := Ideal) (ix2 cc d) = 0)
    (c : Dev nD) (t : Fin cfg0.N) (hf : (cfg0.win 10).flush t = true) :
    (dat0 (V0 m ρ) c).flushed 10 t = ((cfg0.win 10).blk t).view.read (Elt Ideal) (GS m c) := by
  have hN : cfg0.N = 128 := N_0
  have h127 : t.val = 127 := by have := (flush0_10 t).mp hf; have := t.isLt; omega
  exact flushed10_of m ρ c t (GS m c) fun cc d =>
    (acc_last m ρ hE hAcc hZero c t.val t.isLt h127 cc d).trans (GS_apply m c cc d).symm

/-- An index of the running-sum array is in point `t`'s block iff each coordinate is in the block's range on its
    axis. -/
theorem mem_blk10 (t : Fin cfg0.N) (i : S16x16.Idx) :
    i ∈ ((cfg0.win 10).blk t).view.set ↔ ∀ a : Fin 2, win0_10.index t a * S16x16.size a ≤ (i a).val ∧ (i a).val < win0_10.index t a * S16x16.size a + S16x16.size a := by
  show i ∈ ((View.whole main_v0_2).slice (win0_10.rect t)).set ↔ _
  rw [View.set_slice_whole, Rect.mem_set_unit]
  exact Iff.rfl

/-- The running-sum array after the last point: the last point's block is the whole array, so the array holds, at
    `(cc, d)`, the sum over all batch rows of the exponentials of their scores. -/
theorem final10 (hE : ∀ (x0 x1 : Vec Ideal S512x16x32 .f32) (qW : Vec Ideal S32x32 .f32) (qb : Vec Ideal S32 .f32) (kW : Vec Ideal S32x32 .f32) (kb : Vec Ideal S32 .f32) (r : Fin 512) (cc d : Fin 16),
      k0_pay11 (k0_pay7 x0 x1 qW qb qb) (k0_pay8 x0 kW kb) (k0_pay9 x1 kW) kb (ix3 r cc d) = Ideal.exp (score (row x0 r) (row x1 r) (mat qW) (vec qb) (mat kW) (vec kb) cc d))
    (hAcc : ∀ (E : FVec Ideal S512x16x16 .f32) (s : Vec Ideal S16x16 .f32) (cc d : Fin 16), k0_pay1 E s (ix2 cc d) = s (ix2 cc d) + ∑ r : Fin 512, E (ix3 r cc d))
    (hZero : ∀ (cc d : Fin 16), k0_pay2 (F := Ideal) (ix2 cc d) = 0)
    (c : Dev nD) : (dat0 (V0 m ρ) c).arrAt 10 cfg0.N = GS m c :=
  (dat0 (V0 m ρ) c).arrAt_eq_of_cover 10 (GS m c) (fun t hf => flushed10_eq m ρ hE hAcc hZero c t hf) fun i => by
    have hN : cfg0.N = 128 := N_0
    have hi0 : (i 0).val < 16 := (i 0).isLt
    have hi1 : (i 1).val < 16 := (i 1).isLt
    obtain ⟨tt, htt⟩ : ∃ tt : Fin cfg0.N, tt.val = 127 := ⟨⟨127, by omega⟩, rfl⟩
    obtain ⟨-, -, -, -, -, -, -, -, -, e0, e1⟩ := idx0w tt
    refine ⟨tt, (flush0_10 tt).mpr (by omega), ?_⟩
    rw [mem_blk10]
    intro a
    match a with
    | ⟨0, _⟩ =>
      show win0_10.index tt (0 : Fin 2) * 16 ≤ (i 0).val ∧ (i 0).val < win0_10.index tt (0 : Fin 2) * 16 + 16
      omega
    | ⟨1, _⟩ =>
      show win0_10.index tt (1 : Fin 2) * 16 ≤ (i 1).val ∧ (i 1).val < win0_10.index tt (1 : Fin 2) * 16 + 16
      omega

end Cert.KernelIdeal.Arrays

end
-- ==== Proof.Arrays0d.lean ====
import proofs.«124052_j71253507440717_2_alg».proof.Proof.Arrays0b
import Idealize.ShloMosaic.Lib.Pipeline.Value
import Idealize.ShloMosaic.Lib.ValueIdx

/-!
# The exponentials' array after the first kernel

Every grid point writes its block of exponentials back, and the blocks tile the batch axis: row `n` is in the
block of point `n / 512`. So the array ends holding `exp (score n c d)` at every index.
-/

set_option maxRecDepth 16384

noncomputable section

namespace Cert.KernelIdeal.Arrays

open Cert.KernelIdeal Cert.KernelIdeal.Gen Cert.Spec
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- The exponentials' array as one function of the arrays as launched. -/
def GE (c : Dev nD) : Buf (Elt Ideal) ((c : Thread nD τ).loc main_v0_0) := fun i =>
  Ideal.exp (sc m c (⟨(i 0).val, (i 0).isLt⟩ : Fin 65536) (⟨(i 1).val, (i 1).isLt⟩ : Fin 16) (⟨(i 2).val, (i 2).isLt⟩ : Fin 16))

/-- What point `t` writes back is block `t` of that function. -/
theorem flushed8 (hE : ∀ (x0 x1 : Vec Ideal S512x16x32 .f32) (qW : Vec Ideal S32x32 .f32) (qb : Vec Ideal S32 .f32) (kW : Vec Ideal S32x32 .f32) (kb : Vec Ideal S32 .f32) (r : Fin 512) (cc d : Fin 16),
      k0_pay11 (k0_pay7 x0 x1 qW qb qb) (k0_pay8 x0 kW kb) (k0_pay9 x1 kW) kb (ix3 r cc d) = Ideal.exp (score (row x0 r) (row x1 r) (mat qW) (vec qb) (mat kW) (vec kb) cc d))
    (c : Dev nD) (t : Fin cfg0.N) :
    (dat0 (V0 m ρ) c).flushed 8 t = ((cfg0.win 8).blk t).view.read (Elt Ideal) (GE m c) := by
  show (cfg0.win 8).cut (grid0.coords t) ((dat0 (V0 m ρ) c).after 8 t) = _
  rw [after0_8, outsAt_eq]
  funext j
  rw [View.read_apply]
  show eBlk m ρ c t j = GE m c (((cfg0.win 8).blk t).view.emb j)
  have hj : (j : S512x16x16.Idx) = ix3 (⟨(j 0).val, (j 0).isLt⟩ : Fin 512) (⟨(j 1).val, (j 1).isLt⟩ : Fin 16) (⟨(j 2).val, (j 2).isLt⟩ : Fin 16) :=
    funext fun a => by match a with | ⟨0, _⟩ => rfl | ⟨1, _⟩ => rfl | ⟨2, _⟩ => rfl
  refine (congrArg (eBlk m ρ c t) hj).trans ?_
  rw [eBlk_apply m ρ hE]
  unfold GE
  obtain ⟨-, -, -, -, -, -, e0, e1, e2, -⟩ := idx0 t
  have a0 : ((((cfg0.win 8).blk t).view.emb j) 0).val = 512 * t.val + (j 0).val := by
    show win0_8.index t (0 : Fin 3) * 512 + 1 * (j 0).val = _; omega
  have a1 : ((((cfg0.win 8).blk t).view.emb j) 1).val = (j 1).val := by
    show win0_8.index t (1 : Fin 3) * 16 + 1 * (j 1).val = _; omega
  have a2 : ((((cfg0.win 8).blk t).view.emb j) 2).val = (j 2).val := by
    show win0_8.index t (2 : Fin 3) * 16 + 1 * (j 2).val = _; omega
  have b0 : brow t (⟨(j 0).val, (j 0).isLt⟩ : Fin 512) = (⟨((((cfg0.win 8).blk t).view.emb j) 0).val, ((((cfg0.win 8).blk t).view.emb j) 0).isLt⟩ : Fin 65536) := Fin.ext a0.symm
  have b1 : (⟨(j 1).val, (j 1).isLt⟩ : Fin 16) = (⟨((((cfg0.win 8).blk t).view.emb j) 1).val, ((((cfg0.win 8).blk t).view.emb j) 1).isLt⟩ : Fin 16) := Fin.ext a1.symm
  have b2 : (⟨(j 2).val, (j 2).isLt⟩ : Fin 16) = (⟨((((cfg0.win 8).blk t).view.emb j) 2).val, ((((cfg0.win 8).blk t).view.emb j) 2).isLt⟩ : Fin 16) := Fin.ext a2.symm
  rw [b0, b1, b2]

/-- An index is in point `t`'s block iff each coordinate is in the block's range on its axis. -/
theorem mem_blk8 (t : Fin cfg0.N) (i : S65536x16x16.Idx) :
    i ∈ ((cfg0.win 8).blk t).view.set ↔ ∀ a : Fin 3, win0_8.index t a * S512x16x16.size a ≤ (i a).val ∧ (i a).val < win0_8.index t a * S512x16x16.size a + S512x16x16.size a := by
  show i ∈ ((View.whole main_v0_0).slice (win0_8.rect t)).set ↔ _
  rw [View.set_slice_whole, Rect.mem_set_unit]
  exact Iff.rfl

/-- Every index is in the block of the point its batch row falls in. -/
theorem cover8 (i : S65536x16x16.Idx) : ∃ t : Fin cfg0.N, (cfg0.win 8).flush t = true ∧ i ∈ ((cfg0.win 8).blk t).view.set := by
  have hN : cfg0.N = 128 := N_0
  have h0 : (i 0).val < 65536 := (i 0).isLt
  have h1 : (i 1).val < 16 := (i 1).isLt
  have h2 : (i 2).val < 16 := (i 2).isLt
  refine ⟨⟨(i 0).val / 512, by omega⟩, flush0_8 _, ?_⟩
  rw [mem_blk8]
  obtain ⟨-, -, -, -, -, -, e0, e1, e2, -⟩ := idx0 (⟨(i 0).val / 512, by omega⟩ : Fin cfg0.N)
  intro a
  match a with
  | ⟨0, _⟩ => show win0_8.index _ (0 : Fin 3) * 512 ≤ (i 0).val ∧ (i 0).val < win0_8.index _ (0 : Fin 3) * 512 + 512; rw [e0]; dsimp only; omega
  | ⟨1, _⟩ => show win0_8.index _ (1 : Fin 3) * 16 ≤ (i 1).val ∧ (i 1).val < win0_8.index _ (1 : Fin 3) * 16 + 16; rw [e1]; omega
  | ⟨2, _⟩ => show win0_8.index _ (2 : Fin 3) * 16 ≤ (i 2).val ∧ (i 2).val < win0_8.index _ (2 : Fin 3) * 16 + 16; rw [e2]; omega

/-- The exponentials' array after the last point. -/
theorem final8 (hE : ∀ (x0 x1 : Vec Ideal S512x16x32 .f32) (qW : Vec Ideal S32x32 .f32) (qb : Vec Ideal S32 .f32) (kW : Vec Ideal S32x32 .f32) (kb : Vec Ideal S32 .f32) (r : Fin 512) (cc d : Fin 16),
      k0_pay11 (k0_pay7 x0 x1 qW qb qb) (k0_pay8 x0 kW kb) (k0_pay9 x1 kW) kb (ix3 r cc d) = Ideal.exp (score (row x0 r) (row x1 r) (mat qW) (vec qb) (mat kW) (vec kb) cc d))
    (c : Dev nD) : (dat0 (V0 m ρ) c).arrAt 8 cfg0.N = GE m c :=
  (dat0 (V0 m ρ) c).arrAt_eq_of_cover 8 (GE m c) (fun t _ => flushed8 m ρ hE c t) (cover8)

end Cert.KernelIdeal.Arrays

end
-- ==== Proof.Arrays1.lean ====
import proofs.«124052_j71253507440717_2_alg».proof.Proof.Gen.KernelIdeal.Frame
import proofs.«124052_j71253507440717_2_alg».proof.Proof.Spec
import Idealize.ShloMosaic.Lib.Pipeline.Value
import Idealize.ShloMosaic.Lib.ValueIdx

/-!
# The second kernel: from its 512-row blocks to the whole result

Grid point `t` of the second kernel reads rows `512·t … 512·t + 511` of the exponentials and of the values, the whole
of the column sums and of the four weight arrays, and writes rows `512·t … 512·t + 511` of the result. The 128
points' blocks tile the 65536 rows, so the result array after the run is one function of the arrays the kernel
finds, row by row.
-/

set_option maxRecDepth 16384

noncomputable section

namespace Cert.KernelIdeal.Arrays1

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a rank-3 block, as a constant function. -/
theorem hz3 : (![0, 0, 0] : Fin 3 → Nat) = fun _ => 0 := funext fun a => by fin_cases a <;> rfl
/-- The zero offsets of a rank-2 block, as a constant function. -/
theorem hz2 : (![0, 0] : Fin 2 → Nat) = fun _ => 0 := funext fun a => by fin_cases a <;> rfl
/-- The zero offsets of a rank-1 block, as a constant function. -/
theorem hz1 : (![0] : Fin 1 → Nat) = fun _ => 0 := funext fun a => by fin_cases a <;> rfl

/-- The block index maps of the second kernel, decided over its 128 grid points: the exponentials', the values' and
    the result's windows move with the point along the batch axis. -/
theorem idx1 : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_7.index t (0 : Fin 2) = t.val ∧ win1_7.index t (1 : Fin 2) = 0 :=
  (by decide +kernel : ∀ t : Fin grid1.N, _)

/-- Every other window stays at block zero. -/
theorem idx1w : ∀ t : Fin cfg1.N, win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0 ∧ True :=
  (by decide +kernel : ∀ t : Fin grid1.N, _)

/-- Row `512·t + r` of the batch axis. -/
abbrev brow (t : Fin cfg1.N) (r : Fin 512) : Fin 65536 :=
  ⟨512 * t.val + r.val, by have := t.isLt; have hN : cfg1.N = 128 := N_1; have := r.isLt; omega⟩

/-- The exponentials' block at point `t` holds rows `512·t + r` of the array the kernel finds. -/
theorem blk1_0 (c : Dev nD) (t : Fin cfg1.N) (r : Fin 512) (cc d : Fin 16) :
    (iblk1 V c 0 t : Vec Ideal S512x16x16 .f32) (ix3 r cc d) = V c main_v0_0 (ix3 (brow t r) cc d) := by
  unfold iblk1
  rw [View.read_apply]
  show V c main_v0_0 _ = V c main_v0_0 _
  refine congrArg _ ?_
  obtain ⟨e0, e1, e2, -⟩ := idx1 t
  funext a
  apply Fin.ext
  match a with
  | ⟨0, _⟩ => show win1_0.index t (0 : Fin 3) * 512 + 1 * r.val = 512 * t.val + r.val; omega
  | ⟨1, _⟩ => show win1_0.index t (1 : Fin 3) * 16 + 1 * cc.val = cc.val; omega
  | ⟨2, _⟩ => show win1_0.index t (2 : Fin 3) * 16 + 1 * d.val = d.val; omega

/-- The values' block likewise. -/
theorem blk1_1 (c : Dev nD) (t : Fin cfg1.N) (r : Fin 512) (cc : Fin 16) (l : Fin 32) :
    (iblk1 V c 1 t : Vec Ideal S512x16x32 .f32) (ix3 r cc l) = V c main_v0_1 (ix3 (brow t r) cc l) := by
  unfold iblk1
  rw [View.read_apply]
  show V c main_v0_1 _ = V c main_v0_1 _
  refine congrArg _ ?_
  obtain ⟨-, -, -, e0, e1, e2, -⟩ := idx1 t
  funext a
  apply Fin.ext
  match a with
  | ⟨0, _⟩ => show win1_1.index t (0 : Fin 3) * 512 + 1 * r.val = 512 * t.val + r.val; omega
  | ⟨1, _⟩ => show win1_1.index t (1 : Fin 3) * 16 + 1 * cc.val = cc.val; omega
  | ⟨2, _⟩ => show win1_1.index t (2 : Fin 3) * 32 + 1 * l.val = l.val; omega

/-- The column sums' window holds its whole array, at every point. -/
theorem blk1_2 (c : Dev nD) (t : Fin cfg1.N) : (iblk1 V c 2 t : Vec Ideal S16x16 .f32) = V c main_v0_2 := by
  funext j
  unfold iblk1
  rw [View.read_apply]
  show V c main_v0_2 _ = V c main_v0_2 _
  refine congrArg _ ?_
  obtain ⟨e0, e1, -⟩ := idx1w t
  funext a
  apply Fin.ext
  match a with
  | ⟨0, _⟩ => show win1_2.index t (0 : Fin 2) * 16 + 1 * (j 0).val = (j 0).val; omega
  | ⟨1, _⟩ => show win1_2.index t (1 : Fin 2) * 16 + 1 * (j 1).val = (j 1).val; omega
/-- The hidden layer's weight window holds its whole array, at every point. -/
theorem blk1_3 (c : Dev nD) (t : Fin cfg1.N) : (iblk1 V c 3 t : Vec Ideal S48x512 .f32) = V c main_arg8 := by
  funext j
  unfold iblk1
  rw [View.read_apply]
  show V c main_arg8 _ = V c main_arg8 _
  refine congrArg _ ?_
  obtain ⟨-, -, e0, e1, -⟩ := idx1w t
  funext a
  apply Fin.ext
  match a with
  | ⟨0, _⟩ => show win1_3.index t (0 : Fin 2) * 48 + 1 * (j 0).val = (j 0).val; omega
  | ⟨1, _⟩ => show win1_3.index t (1 : Fin 2) * 512 + 1 * (j 1).val = (j 1).val; omega
/-- The hidden layer's bias window holds its whole array, at every point. -/
theorem blk1_4 (c : Dev nD) (t : Fin cfg1.N) : (iblk1 V c 4 t : Vec Ideal S48 .f32) = V c main_arg9 := by
  funext j
  unfold iblk1
  rw [View.read_apply]
  show V c main_arg9 _ = V c main_arg9 _
  refine congrArg _ ?_
  obtain ⟨-, -, -, -, e0, -⟩ := idx1w t
  funext a
  apply Fin.ext
  match a with
  | ⟨0, _⟩ => show win1_4.index t (0 : Fin 1) * 48 + 1 * (j 0).val = (j 0).val; omega
/-- The last layer's weight window holds its whole array, at every point. -/
theorem blk1_5 (c : Dev nD) (t : Fin cfg1.N) : (iblk1 V c 5 t : Vec Ideal S3x48 .f32) = V c main_arg10 := by
  funext j
  unfold iblk1
  rw [View.read_apply]
  show V c main_arg10 _ = V c main_arg10 _
  refine congrArg _ ?_
  obtain ⟨-, -, -, -, -, e0, e1, -⟩ := idx1w t
  funext a
  apply Fin.ext
  match a with
  | ⟨0, _⟩ => show win1_5.index t (0 : Fin 2) * 3 + 1 * (j 0).val = (j 0).val; omega
  | ⟨1, _⟩ => show win1_5.index t (1 : Fin 2) * 48 + 1 * (j 1).val = (j 1).val; omega
/-- The last layer's bias window holds its whole array, at every point. -/
theorem blk1_6 (c : Dev nD) (t : Fin cfg1.N) : (iblk1 V c 6 t : Vec Ideal S3 .f32) = V c main_arg11 := by
  funext j
  unfold iblk1
  rw [View.read_apply]
  show V c main_arg11 _ = V c main_arg11 _
  refine congrArg _ ?_
  obtain ⟨-, -, -, -, -, -, -, e0, -⟩ := idx1w t
  funext a
  apply Fin.ext
  match a with
  | ⟨0, _⟩ => show win1_6.index t (0 : Fin 1) * 3 + 1 * (j 0).val = (j 0).val; omega

/-- The result array as one function of the arrays the second kernel finds: row `n` is the last layer applied to
    the softmax weights (the exponentials of row `n` divided by the column sums) and the values of row `n`,
    divided by its floored norm. -/
def G1 (c : Dev nD) : Buf (Elt Ideal) ((c : Thread nD τ).loc main_v1) := fun i =>
  out (fun cc d => Ideal.div (V c main_v0_0 (ix3 (⟨(i 0).val, (i 0).isLt⟩ : Fin 65536) cc d)) (V c main_v0_2 (ix2 cc d)))
    (row (V c main_v0_1) (⟨(i 0).val, (i 0).isLt⟩ : Fin 65536)) (mat (V c main_arg8)) (vec (V c main_arg9))
    (mat (V c main_arg10)) (vec (V c main_arg11)) (⟨(i 1).val, (i 1).isLt⟩ : Fin 3)

/-- At a point whose blocks hold rows `512·t + r` of the moving arrays and the whole of the others, the body's
    payload at row `r` of the block is the result function at row `512·t + r`. -/
theorem pay_point
    (hpay : ∀ (e : Vec Ideal S512x16x16 .f32) (s : Vec Ideal S16x16 .f32) (v : Vec Ideal S512x16x32 .f32)
      (w1 : Vec Ideal S48x512 .f32) (b1 : Vec Ideal S48 .f32) (w2 : Vec Ideal S3x48 .f32) (b2 : Vec Ideal S3 .f32)
      (r : Fin 512) (q : Fin 3),
      k1_pay1 (k1_pay2 e s v w1 b1 w2 b2) (k1_pay3 e s v w1 b1 w2 b2) (ix2 r q)
        = out (fun cc d => Ideal.div (e (ix3 r cc d)) (s (ix2 cc d))) (row v r) (mat w1) (vec b1) (mat w2) (vec b2) q)
    (c : Dev nD) (t : Fin cfg1.N)
    (x0 : Vec Ideal S512x16x16 .f32) (x1 : Vec Ideal S512x16x32 .f32) (x2 : Vec Ideal S16x16 .f32)
    (x3 : Vec Ideal S48x512 .f32) (x4 : Vec Ideal S48 .f32) (x5 : Vec Ideal S3x48 .f32) (x6 : Vec Ideal S3 .f32)
    (h0 : ∀ (r : Fin 512) (cc d : Fin 16), x0 (ix3 r cc d) = V c main_v0_0 (ix3 (brow t r) cc d))
    (h1 : ∀ (r : Fin 512) (cc : Fin 16) (l : Fin 32), x1 (ix3 r cc l) = V c main_v0_1 (ix3 (brow t r) cc l))
    (h2 : x2 = V c main_v0_2) (h3 : x3 = V c main_arg8) (h4 : x4 = V c main_arg9) (h5 : x5 = V c main_arg10)
    (h6 : x6 = V c main_arg11) (r : Fin 512) (q : Fin 3) :
    k1_pay1 (k1_pay2 x0 x2 x1 x3 x4 x5 x6) (k1_pay3 x0 x2 x1 x3 x4 x5 x6) (ix2 r q) = G1 V c (ix2 (brow t r) q) := by
  have eA : (fun cc d => Ideal.div (x0 (ix3 r cc d)) (x2 (ix2 cc d)))
      = fun cc d => Ideal.div (V c main_v0_0 (ix3 (brow t r) cc d)) (V c main_v0_2 (ix2 cc d)) := by
    funext cc d; rw [h0, h2]
  have eB : row x1 r = row (V c main_v0_1) (brow t r) := by
    funext cc l; exact h1 r cc l
  rw [hpay, eA, eB, h3, h4, h5, h6]
  rfl

/-- What point `t` writes back is block `t` of the result function. -/
theorem flushed7_eq
    (hpay : ∀ (e : Vec Ideal S512x16x16 .f32) (s : Vec Ideal S16x16 .f32) (v : Vec Ideal S512x16x32 .f32)
      (w1 : Vec Ideal S48x512 .f32) (b1 : Vec Ideal S48 .f32) (w2 : Vec Ideal S3x48 .f32) (b2 : Vec Ideal S3 .f32)
      (r : Fin 512) (q : Fin 3),
      k1_pay1 (k1_pay2 e s v w1 b1 w2 b2) (k1_pay3 e s v w1 b1 w2 b2) (ix2 r q)
        = out (fun cc d => Ideal.div (e (ix3 r cc d)) (s (ix2 cc d))) (row v r) (mat w1) (vec b1) (mat w2) (vec b2) q)
    (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz2]
  simp only [View.ld_unit_zero (S := S512x16x16) hz3, View.ld_unit_zero (S := S512x16x32) hz3,
    View.ld_unit_zero (S := S16x16) hz2, View.ld_unit_zero (S := S48x512) hz2, View.ld_unit_zero (S := S48) hz1,
    View.ld_unit_zero (S := S3x48) hz2, View.ld_unit_zero (S := S3) hz1]
  funext j
  have hj0 : (j 0).val < 512 := (j 0).isLt
  have hj1 : (j 1).val < 3 := (j 1).isLt
  have ej : j = ix2 (⟨(j 0).val, hj0⟩ : Fin 512) (⟨(j 1).val, hj1⟩ : Fin 3) := eq_ix2 j
  refine ((congrArg (k1_pay1 (k1_pay2 (iblk1 V c 0 t) (iblk1 V c 2 t) (iblk1 V c 1 t) (iblk1 V c 3 t) (iblk1 V c 4 t) (iblk1 V c 5 t) (iblk1 V c 6 t))
      (k1_pay3 (iblk1 V c 0 t) (iblk1 V c 2 t) (iblk1 V c 1 t) (iblk1 V c 3 t) (iblk1 V c 4 t) (iblk1 V c 5 t) (iblk1 V c 6 t))) ej).trans
    (pay_point V hpay c t (iblk1 V c 0 t) (iblk1 V c 1 t) (iblk1 V c 2 t) (iblk1 V c 3 t) (iblk1 V c 4 t) (iblk1 V c 5 t) (iblk1 V c 6 t)
      (blk1_0 V c t) (blk1_1 V c t) (blk1_2 V c t) (blk1_3 V c t) (blk1_4 V c t) (blk1_5 V c t) (blk1_6 V c t)
      ⟨(j 0).val, hj0⟩ ⟨(j 1).val, hj1⟩)).trans ?_
  rw [View.read_apply]
  refine congrArg (G1 V c) ?_
  obtain ⟨-, -, -, -, -, -, e0, e1⟩ := idx1 t
  funext a
  apply Fin.ext
  match a with
  | ⟨0, _⟩ => show 512 * t.val + (j 0).val = win1_7.index t (0 : Fin 2) * 512 + 1 * (j 0).val; omega
  | ⟨1, _⟩ => show (j 1).val = win1_7.index t (1 : Fin 2) * 3 + 1 * (j 1).val; omega

/-- An index of the result array is in point `t`'s block iff each coordinate is in the block's range on its axis. -/
theorem mem_blk7 (t : Fin cfg1.N) (i : S65536x3.Idx) :
    i ∈ ((cfg1.win 7).blk t).view.set ↔ ∀ a : Fin 2, win1_7.index t a * S512x3.size a ≤ (i a).val ∧ (i a).val < win1_7.index t a * S512x3.size a + S512x3.size a := by
  show i ∈ ((View.whole main_v1).slice (win1_7.rect t)).set ↔ _
  rw [View.set_slice_whole, Rect.mem_set_unit]
  exact Iff.rfl

/-- Every row of the result is in some point's block: row `n` in the block of point `n / 512`. -/
theorem cover7 (i : S65536x3.Idx) :
    ∃ t : Fin cfg1.N, (cfg1.win 7).flush t = true ∧ i ∈ ((cfg1.win 7).blk t).view.set := by
  have hi0 : (i 0).val < 65536 := (i 0).isLt
  have hi1 : (i 1).val < 3 := (i 1).isLt
  have hN : cfg1.N = 128 := N_1
  obtain ⟨t, ht⟩ : ∃ t : Fin cfg1.N, t.val = (i 0).val / 512 := ⟨⟨(i 0).val / 512, by omega⟩, rfl⟩
  obtain ⟨-, -, -, -, -, -, e0, e1⟩ := idx1 t
  refine ⟨t, flush1_7 t, ?_⟩
  rw [mem_blk7]
  intro a
  match a with
  | ⟨0, _⟩ => show win1_7.index t (0 : Fin 2) * 512 ≤ (i 0).val ∧ (i 0).val < win1_7.index t (0 : Fin 2) * 512 + 512; omega
  | ⟨1, _⟩ => show win1_7.index t (1 : Fin 2) * 3 ≤ (i 1).val ∧ (i 1).val < win1_7.index t (1 : Fin 2) * 3 + 3; omega

/-- The result array after the second kernel's run is the result function of the arrays it finds: every point
    writes its block of that function, and the blocks cover the array. -/
theorem final1
    (hpay : ∀ (e : Vec Ideal S512x16x16 .f32) (s : Vec Ideal S16x16 .f32) (v : Vec Ideal S512x16x32 .f32)
      (w1 : Vec Ideal S48x512 .f32) (b1 : Vec Ideal S48 .f32) (w2 : Vec Ideal S3x48 .f32) (b2 : Vec Ideal S3 .f32)
      (r : Fin 512) (q : Fin 3),
      k1_pay1 (k1_pay2 e s v w1 b1 w2 b2) (k1_pay3 e s v w1 b1 w2 b2) (ix2 r q)
        = out (fun cc d => Ideal.div (e (ix3 r cc d)) (s (ix2 cc d))) (row v r) (mat w1) (vec b1) (mat w2) (vec b2) q)
    (c : Dev nD) : (dat1 V c).arrAt 7 cfg1.N = G1 V c :=
  (dat1 V c).arrAt_eq_of_cover 7 (G1 V c) (fun t _ => flushed7_eq V hpay c t) cover7

end Cert.KernelIdeal.Arrays1

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.Stage1Pay.lean ====
import proofs.«124052_j71253507440717_2_alg».proof.Proof.Gen.KernelIdeal.Skeleton
import proofs.«124052_j71253507440717_2_alg».proof.Proof.Spec
import proofs.«124052_j71253507440717_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

/-!
# The first kernel's arithmetic, read at an index

One grid step of the first kernel works on a block of 512 batch rows. It flattens the block's two embeddings
from [512, 16, 32] to [8192, 32], applies three linear layers `x · Wᵀ + b` to each, multiplies the two
projections entrywise, and folds the products back to [512, 16, 32]. The value product is stored as it is; the
query and key products are divided row by row by their floored Euclidean norms, contracted against each other
over the 32 lanes (one [16, 16] matrix of cosine scores per batch row), and exponentiated. The exponentials
are summed over the 512 rows of the block into a [16, 16] accumulator, which the first grid step sets to zero.

This module reads each of those values at an index, as the per-row functions of the specification: row
`16 · r + c` of a flattened array is entry `(r, c)` of the block, so every value at batch row `r` depends on
row `r` of the two embeddings alone.
-/

noncomputable section

namespace Cert.Stage1Pay

open Cert.KernelIdeal Cert.KernelIdeal.Gen Cert.Spec Idealize.ShloMosaic Idealize.ShloMosaic.ValueIdx
open scoped BigOperators

/-! ## Layout operations at an index -/

/-- Row `16 · r + c` of the flattened array lies inside its 8192 rows. -/
theorem flatRow_lt (r : Fin 512) (c : Fin 16) : 16 * r.val + c.val < 8192 := by
  have := r.isLt
  have := c.isLt
  omega

/-- The row of the flattened [8192, 32] array that holds entry `(r, c)` of a [512, 16, ·] block. -/
abbrev flatRow (r : Fin 512) (c : Fin 16) : Fin 8192 := ⟨16 * r.val + c.val, flatRow_lt r c⟩

/-- A [512, 16, 32] block flattened to [8192, 32] reads, at row `16 · r + c` and lane `l`, the block at
    `(r, c, l)`: the two indices have the same row-major position. -/
theorem flatten_apply {α : Type} (x : S512x16x32.Idx → α) (h : S512x16x32.ShapeCasts S8192x32)
    (r : Fin 512) (c : Fin 16) (l : Fin 32) :
    shapeCast S8192x32 x h (ix2 (flatRow r c) l) = x (ix3 r c l) :=
  shapeCast_apply x h _ _ (by
    rw [Shape.rowMajor_val_three, Shape.rowMajor_val_two]
    show (r.val * 16 + c.val) * 32 + l.val = (16 * r.val + c.val) * 32 + l.val
    omega)

/-- An [8192, 32] array folded back to [512, 16, 32] reads, at `(r, c, e)`, the array at row `16 · r + c`
    and lane `e`. -/
theorem unflatten_apply {α : Type} (y : S8192x32.Idx → α) (h : S8192x32.ShapeCasts S512x16x32)
    (r : Fin 512) (c : Fin 16) (e : Fin 32) :
    shapeCast S512x16x32 y h (ix3 r c e) = y (ix2 (flatRow r c) e) :=
  shapeCast_apply y h _ _ (by
    rw [Shape.rowMajor_val_three, Shape.rowMajor_val_two]
    show (16 * r.val + c.val) * 32 + e.val = (r.val * 16 + c.val) * 32 + e.val
    omega)

/-- A bias vector [32] viewed as one row [1, 32] and repeated over 8192 rows reads, at `(p, e)`, the
    vector at `e`. -/
theorem bias_apply {α : Type} (b : S32.Idx → α) (h : S32.ShapeCasts S1x32) (h' : S1x32.Broadcasts S8192x32)
    (p : Fin 8192) (e : Fin 32) :
    broadcastTo S8192x32 (shapeCast S1x32 b h) h' (ix2 p e) = b (ix1 e) :=
  (broadcastTo_1b_ab_apply (shapeCast S1x32 b h) h' p e).trans (shapeCast_a_1a_apply b h 0 e)

/-- A [512, 16] array given a trailing unit axis reads, at `(r, c, u)`, the array at `(r, c)`. -/
theorem keepdims_apply {α : Type} (v : S512x16.Idx → α) (h : S512x16.ShapeCasts S512x16x1)
    (r : Fin 512) (c : Fin 16) (u : Fin 1) :
    shapeCast S512x16x1 v h (ix3 r c u) = v (ix2 r c) :=
  shapeCast_apply v h _ _ (by
    have hu : u.val = 0 := by omega
    rw [Shape.rowMajor_val_three, Shape.rowMajor_val_two]
    show r.val * 16 + c.val = (r.val * 16 + c.val) * 1 + u.val
    omega)

/-- A [512, 16, 1] array repeated along its unit axis to [512, 16, 32] reads, at `(r, c, e)`, the array at
    `(r, c, 0)`. -/
theorem lanes_apply {α : Type} (v : S512x16x1.Idx → α) (h : S512x16x1.Broadcasts S512x16x32)
    (r : Fin 512) (c : Fin 16) (e : Fin 32) :
    broadcastTo S512x16x32 v h (ix3 r c e) = v (ix3 r c (0 : Fin 1)) := by
  refine broadcastTo_apply v h (ix3 r c e) (ix3 r c (0 : Fin 1)) fun ax => ?_
  match ax with
  | ⟨0, _⟩ => rfl
  | ⟨1, _⟩ => rfl
  | ⟨2, _⟩ => rfl

/-! ## Sums at an index -/

/-- The sum over the lane axis of a [512, 16, 32] block reads, at `(r, c)`, the sum of the block's 32
    entries at `(r, c, ·)`. -/
theorem laneSum_apply (src : FVec Ideal S512x16x32 .f32) (h : S512x16x32.Reduces [2] S512x16)
    (hφ : FKind.Formats .f32) (hacc : (0x00000000#32 : BitVec 32) = 0x00000000#32) (r : Fin 512) (c : Fin 16) :
    multiReduction (F := Ideal) .add [2] S512x16 src 0x00000000#32 h hφ hacc (ix2 r c)
      = ∑ e : Fin 32, src (ix3 r c e) := by
  refine (Ideal.multiReduction_add_single src 0x00000000#32 h hφ hacc (ix2 r c)).trans ?_
  refine Finset.sum_congr rfl fun e _ => congrArg src (funext fun a => Fin.ext ?_)
  match a with
  | ⟨0, _⟩ => rfl
  | ⟨1, _⟩ => rfl
  | ⟨2, _⟩ => rfl

/-- The sum over the batch axis of a [512, 16, 16] block reads, at `(c, d)`, the sum of the block's 512
    entries at `(·, c, d)`. -/
theorem batchSum_apply (src : FVec Ideal S512x16x16 .f32) (h : S512x16x16.Reduces [0] S16x16)
    (hφ : FKind.Formats .f32) (hacc : (0x00000000#32 : BitVec 32) = 0x00000000#32) (c d : Fin 16) :
    multiReduction (F := Ideal) .add [0] S16x16 src 0x00000000#32 h hφ hacc (ix2 c d)
      = ∑ r : Fin 512, src (ix3 r c d) := by
  refine (Ideal.multiReduction_add_single src 0x00000000#32 h hφ hacc (ix2 c d)).trans ?_
  refine Finset.sum_congr rfl fun r _ => congrArg src (funext fun a => Fin.ext ?_)
  match a with
  | ⟨0, _⟩ => rfl
  | ⟨1, _⟩ => rfl
  | ⟨2, _⟩ => rfl

/-! ## The linear layer on a block -/

/-- A linear layer on a flattened block: the [8192, 32] × [32, 32] product of the block (flattened) with the
    transposed weights, plus the bias on every row, reads at row `16 · r + c` and lane `e` as
    `∑ l, x(r, c, l) · W(e, l) + b(e)` — the layer applied to batch row `r` alone. Rounding the operands to
    a narrower format is the identity over the extended reals. -/
theorem lin_apply (x : Vec Ideal S512x16x32 .f32) (W : Vec Ideal S32x32 .f32) (b : Vec Ideal S32 .f32)
    (r : Fin 512) (c : Fin 16) (e : Fin 32) :
    addf (F := Ideal) (matmul (F := Ideal) dot_S8192x32_S32x32_S8192x32_1_0_0_1_n_n none
        (truncf (F := Ideal) .bf16 (shapeCast S8192x32 x shapeCasts_S512x16x32_S8192x32) bitsLt_bf16_f32)
        (transpose S32x32 [1, 0] (truncf (F := Ideal) .bf16 W bitsLt_bf16_f32) transposes_S32x32_p1_0_S32x32)
        (constant (F := Ideal) S8192x32 .f32 0x00000000#32))
      (broadcastTo S8192x32 (shapeCast S1x32 b shapeCasts_S32_S1x32) broadcasts_S1x32_S8192x32)
      (ix2 (flatRow r c) e)
      = lin (row x r) (mat W) (vec b) c e := by
  unfold lin
  refine (addf_apply _ _ _).trans ?_
  refine congrArg₂ (· + ·) ?_ ?_
  · refine (LibPlainDot.matmul_zero_apply dot_S8192x32_S32x32_S8192x32_1_0_0_1_n_n ⟨rfl, rfl, rfl, rfl, rfl, rfl⟩ none
      _ _ (flatRow r c) e).trans ?_
    refine Finset.sum_congr rfl fun l _ => ?_
    refine congrArg₂ (· * ·) ?_ ?_
    · exact flatten_apply x shapeCasts_S512x16x32_S8192x32 r c l
    · exact transpose_ix2_apply (truncf (F := Ideal) .bf16 W bitsLt_bf16_f32) transposes_S32x32_p1_0_S32x32 l e
  · exact bias_apply b shapeCasts_S32_S1x32 broadcasts_S1x32_S8192x32 (flatRow r c) e

/-! ## The normalisation of a block -/

/-- A block divided by its rows' floored norms: the norm of row `(r, c)` is the square root of the sum of the
    squares of its 32 lanes, floored at `EPS`, kept as a [512, 16, 1] column and repeated over the lanes; the
    quotient at `(r, c, e)` is the unit vector of the specification for batch row `r`. -/
theorem unit_apply (z : FVec Ideal S512x16x32 .f32) (r : Fin 512) (c : Fin 16) (e : Fin 32) :
    divf (F := Ideal) z (broadcastTo S512x16x32
        (maximumf (F := Ideal)
          (sqrt (F := Ideal) (shapeCast S512x16x1
            (multiReduction (F := Ideal) .add [2] S512x16 (mulf z z) 0x00000000#32 reduces_S512x16x32_S512x16 (.inl rfl) rfl)
            shapeCasts_S512x16_S512x16x1))
          (broadcast S512x16x1 (Scalar.ofBits (F := Ideal) .f32 0x2B8CBCCC#32)))
        broadcasts_S512x16x1_S512x16x32) (ix3 r c e)
      = unit (fun c e => z (ix3 r c e)) c e := by
  unfold unit floorNorm
  refine (divf_apply _ _ _).trans ?_
  refine congrArg (Ideal.div (z (ix3 r c e))) ?_
  refine (lanes_apply _ broadcasts_S512x16x1_S512x16x32 r c e).trans ?_
  refine (maximumf_apply _ _ _).trans ?_
  refine congrArg₂ max ?_ rfl
  show Ideal.sqrt _ = Ideal.sqrt _
  refine congrArg Ideal.sqrt ?_
  refine (keepdims_apply _ shapeCasts_S512x16_S512x16x1 r c 0).trans ?_
  exact laneSum_apply (mulf z z) reduces_S512x16x32_S512x16 (.inl rfl) rfl r c

/-! ## The batched product -/

/-- The left operand of the batched product keeps the result's batch coordinate. -/
theorem bdot_lhs0 (i : S512x16x16.Idx) (q : dot_S512x16x32_S512x16x32_S512x16x16_2_2_1_1_0_0.contr.Idx) :
    (dot_S512x16x32_S512x16x32_S512x16x16_2_2_1_1_0_0.lhsIdx i q 0).val = (i 0).val := by
  unfold DotDims.lhsIdx
  rw [dif_pos (show (0 : Fin S512x16x32.rank) ∈ dot_S512x16x32_S512x16x32_S512x16x16_2_2_1_1_0_0.lhsBatch by decide)]
  rfl

/-- The left operand of the batched product keeps the result's row coordinate. -/
theorem bdot_lhs1 (i : S512x16x16.Idx) (q : dot_S512x16x32_S512x16x32_S512x16x16_2_2_1_1_0_0.contr.Idx) :
    (dot_S512x16x32_S512x16x32_S512x16x16_2_2_1_1_0_0.lhsIdx i q 1).val = (i 1).val := by
  unfold DotDims.lhsIdx
  rw [dif_neg (show ¬(1 : Fin S512x16x32.rank) ∈ dot_S512x16x32_S512x16x32_S512x16x16_2_2_1_1_0_0.lhsBatch by decide),
    dif_pos (show (1 : Fin S512x16x32.rank) ∈ dot_S512x16x32_S512x16x32_S512x16x16_2_2_1_1_0_0.lhsNonContracting by decide)]
  rfl

/-- The right operand of the batched product keeps the result's batch coordinate. -/
theorem bdot_rhs0 (i : S512x16x16.Idx) (q : dot_S512x16x32_S512x16x32_S512x16x16_2_2_1_1_0_0.contr.Idx) :
    (dot_S512x16x32_S512x16x32_S512x16x16_2_2_1_1_0_0.rhsIdx i q 0).val = (i 0).val := by
  unfold DotDims.rhsIdx
  rw [dif_pos (show (0 : Fin S512x16x32.rank) ∈ dot_S512x16x32_S512x16x32_S512x16x16_2_2_1_1_0_0.rhsBatch by decide)]
  rfl

/-- The right operand's row coordinate is the result's column coordinate. -/
theorem bdot_rhs1 (i : S512x16x16.Idx) (q : dot_S512x16x32_S512x16x32_S512x16x16_2_2_1_1_0_0.contr.Idx) :
    (dot_S512x16x32_S512x16x32_S512x16x16_2_2_1_1_0_0.rhsIdx i q 1).val = (i 2).val := by
  unfold DotDims.rhsIdx
  rw [dif_neg (show ¬(1 : Fin S512x16x32.rank) ∈ dot_S512x16x32_S512x16x32_S512x16x16_2_2_1_1_0_0.rhsBatch by decide),
    dif_pos (show (1 : Fin S512x16x32.rank) ∈ dot_S512x16x32_S512x16x32_S512x16x16_2_2_1_1_0_0.rhsNonContracting by decide)]
  rfl

/-- The batched product into a zero accumulator: for every batch row `r`, entry `(c, d)` is the sum over the
    32 lanes of the left operand at `(r, c, ·)` times the right operand at `(r, d, ·)`. -/
theorem bdot_apply {φ₁ φ₂ : FTy} (lhs : FVec Ideal S512x16x32 φ₁) (rhs : FVec Ideal S512x16x32 φ₂)
    (r : Fin 512) (c d : Fin 16) :
    matmul (F := Ideal) dot_S512x16x32_S512x16x32_S512x16x16_2_2_1_1_0_0 none lhs rhs (constant (F := Ideal) S512x16x16 .f32 0x00000000#32) (ix3 r c d)
      = ∑ e : Fin 32, lhs (ix3 r c e) * rhs (ix3 r d e) := by
  refine (Ideal.matmul_constant_zero_apply dot_S512x16x32_S512x16x32_S512x16x16_2_2_1_1_0_0 none lhs rhs (ix3 r c d)).trans ?_
  rw [← Equiv.sum_comp (contrEquiv1 dot_S512x16x32_S512x16x32_S512x16x16_2_2_1_1_0_0 32 rfl rfl).symm]
  refine Finset.sum_congr rfl fun k _ => ?_
  have hk := contrEquiv1_symm_val dot_S512x16x32_S512x16x32_S512x16x16_2_2_1_1_0_0 32 rfl rfl k
  have el : dot_S512x16x32_S512x16x32_S512x16x16_2_2_1_1_0_0.lhsIdx (ix3 r c d)
      ((contrEquiv1 dot_S512x16x32_S512x16x32_S512x16x16_2_2_1_1_0_0 32 rfl rfl).symm k) = ix3 r c k :=
    funext fun a => Fin.ext (by
      match a with
      | ⟨0, _⟩ => exact bdot_lhs0 _ _
      | ⟨1, _⟩ => exact bdot_lhs1 _ _
      | ⟨2, _⟩ => exact (dot_S512x16x32_S512x16x32_S512x16x16_2_2_1_1_0_0.lhsIdx_val_of_single rfl _ _).trans hk)
  have er : dot_S512x16x32_S512x16x32_S512x16x16_2_2_1_1_0_0.rhsIdx (ix3 r c d)
      ((contrEquiv1 dot_S512x16x32_S512x16x32_S512x16x16_2_2_1_1_0_0 32 rfl rfl).symm k) = ix3 r d k :=
    funext fun a => Fin.ext (by
      match a with
      | ⟨0, _⟩ => exact bdot_rhs0 _ _
      | ⟨1, _⟩ => exact bdot_rhs1 _ _
      | ⟨2, _⟩ => exact (dot_S512x16x32_S512x16x32_S512x16x16_2_2_1_1_0_0.rhsIdx_val_of_single rfl _ _).trans hk)
  rw [el, er]

/-! ## The accumulator -/

/-- The accumulator's update: the new [16, 16] value at `(c, d)` is the old one plus the sum over the
    block's 512 batch rows of the exponentials at `(·, c, d)`. -/
theorem acc_apply (E : FVec Ideal S512x16x16 .f32) (s : Vec Ideal S16x16 .f32) (c d : Fin 16) :
    k0_pay1 E s (ix2 c d) = s (ix2 c d) + ∑ r : Fin 512, E (ix3 r c d) := by
  unfold k0_pay1
  refine (addf_apply _ _ _).trans ?_
  refine congrArg₂ (· + ·) ?_ ?_
  · exact congrFun (shapeCast_self s shapeCasts_S16x16_S16x16) (ix2 c d)
  · exact batchSum_apply E reduces_S512x16x16_S16x16 (.inl rfl) rfl c d

/-- The accumulator's first value is zero at every entry. -/
theorem zero_apply (c d : Fin 16) : k0_pay2 (F := Ideal) (ix2 c d) = 0 := by
  unfold k0_pay2
  exact Ideal.ofBits_zero_f32

/-! ## The value product -/

/-- The product of the two embeddings' projections by one linear layer, computed on the flattened block and
    folded back: at `(r, c, e)` it is the specification's product for batch row `r`. -/
theorem prod_apply (x0 x1 : Vec Ideal S512x16x32 .f32) (W : Vec Ideal S32x32 .f32) (b : Vec Ideal S32 .f32)
    (r : Fin 512) (c : Fin 16) (e : Fin 32) :
    k0_pay7 x0 x1 W b b (ix3 r c e) = pr (row x0 r) (row x1 r) (mat W) (vec b) c e := by
  unfold k0_pay7 pr
  refine (unflatten_apply _ shapeCasts_S8192x32_S512x16x32 r c e).trans ?_
  refine (mulf_apply _ _ _).trans ?_
  exact congrArg₂ (· * ·) (lin_apply x0 W b r c e) (lin_apply x1 W b r c e)

/-- The value block the kernel stores: at `(r, c, e)`, the product of the two embeddings' value projections
    for batch row `r`. -/
theorem value_apply (x0 x1 : Vec Ideal S512x16x32 .f32) (vW : Vec Ideal S32x32 .f32) (vb : Vec Ideal S32 .f32)
    (r : Fin 512) (c : Fin 16) (e : Fin 32) :
    k0_pay10 (k0_pay3 x0) (k0_pay4 x1) (k0_pay6 vW) vb vb (ix3 r c e)
      = pr (row x0 r) (row x1 r) (mat vW) (vec vb) c e := by
  unfold k0_pay10 pr
  refine (unflatten_apply _ shapeCasts_S8192x32_S512x16x32 r c e).trans ?_
  refine (mulf_apply _ _ _).trans ?_
  exact congrArg₂ (· * ·) (lin_apply x0 vW vb r c e) (lin_apply x1 vW vb r c e)

/-! ## The exponentiated scores -/

/-- The key product: the first embedding's key projection times the second embedding's (whose bias is added
    only here), folded back to [512, 16, 32]; at `(r, c, e)` it is the specification's product for batch
    row `r`. -/
theorem keyProd_apply (x0 x1 : Vec Ideal S512x16x32 .f32) (kW : Vec Ideal S32x32 .f32) (kb : Vec Ideal S32 .f32)
    (r : Fin 512) (c : Fin 16) (e : Fin 32) :
    shapeCast S512x16x32
        (mulf (F := Ideal) (k0_pay8 x0 kW kb)
          (addf (F := Ideal) (k0_pay9 x1 kW)
            (broadcastTo S8192x32 (shapeCast S1x32 kb shapeCasts_S32_S1x32) broadcasts_S1x32_S8192x32)))
        shapeCasts_S8192x32_S512x16x32 (ix3 r c e)
      = pr (row x0 r) (row x1 r) (mat kW) (vec kb) c e := by
  unfold pr
  refine (unflatten_apply _ shapeCasts_S8192x32_S512x16x32 r c e).trans ?_
  refine (mulf_apply _ _ _).trans ?_
  exact congrArg₂ (· * ·) (lin_apply x0 kW kb r c e) (lin_apply x1 kW kb r c e)

/-- The normalisation of a block whose rows at batch row `r` are a known matrix `p`: the quotient at
    `(r, c, e)` is the unit vector of row `c` of `p`. -/
theorem unit_of_eq (z : FVec Ideal S512x16x32 .f32) (r : Fin 512) (p : Fin 16 → Fin 32 → EReal)
    (hz : ∀ c e, z (ix3 r c e) = p c e) (c : Fin 16) (e : Fin 32) :
    divf (F := Ideal) z (broadcastTo S512x16x32
        (maximumf (F := Ideal)
          (sqrt (F := Ideal) (shapeCast S512x16x1
            (multiReduction (F := Ideal) .add [2] S512x16 (mulf z z) 0x00000000#32 reduces_S512x16x32_S512x16 (.inl rfl) rfl)
            shapeCasts_S512x16_S512x16x1))
          (broadcast S512x16x1 (Scalar.ofBits (F := Ideal) .f32 0x2B8CBCCC#32)))
        broadcasts_S512x16x1_S512x16x32) (ix3 r c e)
      = unit p c e :=
  (unit_apply z r c e).trans (congrArg (fun f => unit f c e) (funext fun c' => funext fun e' => hz c' e'))

/-- The exponentials the kernel stores and accumulates: at `(r, c, d)`, the exponential of the cosine score
    of query row `c` against key row `d` for batch row `r` — the normalised query and key products
    contracted over their 32 lanes. -/
theorem exp_score_apply (x0 x1 : Vec Ideal S512x16x32 .f32) (qW kW : Vec Ideal S32x32 .f32) (qb kb : Vec Ideal S32 .f32)
    (r : Fin 512) (c d : Fin 16) :
    k0_pay11 (k0_pay7 x0 x1 qW qb qb) (k0_pay8 x0 kW kb) (k0_pay9 x1 kW) kb (ix3 r c d)
      = Ideal.exp (score (row x0 r) (row x1 r) (mat qW) (vec qb) (mat kW) (vec kb) c d) := by
  unfold k0_pay11 score
  show Ideal.exp _ = Ideal.exp _
  refine congrArg Ideal.exp ?_
  refine (bdot_apply _ _ r c d).trans ?_
  refine Finset.sum_congr rfl fun e _ => ?_
  refine congrArg₂ (· * ·) ?_ ?_
  · refine (truncf_apply (ψ := .bf16) _ bitsLt_bf16_f32 (ix3 r _ e)).trans ?_
    exact unit_of_eq _ r _ (fun c' e' => prod_apply x0 x1 qW qb r c' e') c e
  · refine (truncf_apply (ψ := .bf16) _ bitsLt_bf16_f32 (ix3 r _ e)).trans ?_
    exact unit_of_eq _ r _ (fun c' e' => keyProd_apply x0 x1 kW kb r c' e') d e

end Cert.Stage1Pay

end
-- ==== Proof.Stage2Pay.lean ====
import proofs.«124052_j71253507440717_2_alg».proof.Proof.Gen.KernelIdeal.Skeleton
import proofs.«124052_j71253507440717_2_alg».proof.Proof.Spec
import proofs.«124052_j71253507440717_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

/-!
# The second kernel's arithmetic read at an index

One block of 512 batch rows: the exponentials divided by the column sums, applied to the values, flattened
row-major, passed through a hidden layer with a floor at zero and a last linear layer, and each row of three
divided by its floored Euclidean norm. Every operation that moves data (a unit axis added, a broadcast, a
transpose, a row-major reshape, a batched or a plain product, a sum over the lanes) is read at an index given by
coordinates; the arithmetic between them is pointwise. Row `r` of the block is then the per-row function of
`Cert.Spec` at row `r` of the operands.
-/

noncomputable section

namespace Cert.Stage2Pay

open Cert.KernelIdeal Cert.KernelIdeal.Gen Cert.Spec Idealize.ShloMosaic Idealize.ShloMosaic.ValueIdx
open scoped BigOperators

/-! ## Layout operations at an index -/

/-- A [16, 16] matrix given a leading unit axis and broadcast over 512 rows reads, at `(r, c, d)`, the matrix
    at `(c, d)`. -/
theorem bcast_mat_apply (s : FVec Ideal S16x16 .f32) (h1 : S16x16.ShapeCasts S1x16x16)
    (h2 : S1x16x16.Broadcasts S512x16x16) (r : Fin 512) (c d : Fin 16) :
    broadcastTo S512x16x16 (shapeCast S1x16x16 s h1) h2 (ix3 r c d) = s (ix2 c d) := by
  refine (broadcastTo_apply (shapeCast S1x16x16 s h1) h2 (ix3 r c d) (ix3 (0 : Fin 1) c d) fun ax => ?_).trans
    (shapeCast_ab_1ab_apply s h1 0 c d)
  match ax with
  | ⟨0, _⟩ => rfl
  | ⟨1, _⟩ => rfl
  | ⟨2, _⟩ => rfl

/-- A vector of `n` entries given a leading unit axis and broadcast over 512 rows reads, at `(r, k)`, entry `k`. -/
theorem bcast_vec_apply {n : Nat} (b : FVec Ideal ⟨1, ![n]⟩ .f32) (h1 : (⟨1, ![n]⟩ : Shape).ShapeCasts ⟨2, ![1, n]⟩)
    (h2 : (⟨2, ![1, n]⟩ : Shape).Broadcasts ⟨2, ![512, n]⟩) (r : Fin 512) (k : Fin n) :
    broadcastTo ⟨2, ![512, n]⟩ (shapeCast ⟨2, ![1, n]⟩ b h1) h2 (ix2 r k) = b (ix1 k) :=
  (broadcastTo_1b_ab_apply (shapeCast ⟨2, ![1, n]⟩ b h1) h2 r k).trans (shapeCast_a_1a_apply b h1 0 k)

/-- A [512, 16, 32] block reshaped to [512, 512] reads, at `(r, j)`, the block at `(r, j / 32, j % 32)`: the
    row-major position of `(c, l)` in a [16, 32] matrix is `32 c + l`. -/
theorem flat_cast_apply (x : FVec Ideal S512x16x32 .f32) (h : S512x16x32.ShapeCasts S512x512) (r : Fin 512) (j : Fin 512) :
    shapeCast S512x512 x h (ix2 r j)
      = x (ix3 r ⟨j.val / 32, by have := j.isLt; omega⟩ ⟨j.val % 32, by have := j.isLt; omega⟩) :=
  shapeCast_apply x h _ _ (by
    rw [Shape.rowMajor_val_three, Shape.rowMajor_val_two]
    show (r.val * 16 + j.val / 32) * 32 + j.val % 32 = r.val * 512 + j.val
    omega)

/-- A vector of 512 entries made a column reads, at `(r, u)`, entry `r`. -/
theorem col_cast_apply (x : FVec Ideal S512 .f32) (h : S512.ShapeCasts S512x1) (r : Fin 512) (u : Fin 1) :
    shapeCast S512x1 x h (ix2 r u) = x (ix1 r) :=
  shapeCast_apply x h _ _ (by
    have hu : u.val = 0 := by omega
    rw [Shape.rowMajor_val_two, Shape.rowMajor_val_one]
    show r.val = r.val * 1 + u.val
    omega)

/-- A column of 512 entries broadcast over three lanes reads, at `(r, q)`, the column's entry `r`. -/
theorem col_bcast_apply (x : FVec Ideal S512x1 .f32) (h : S512x1.Broadcasts S512x3) (r : Fin 512) (q : Fin 3) :
    broadcastTo S512x3 x h (ix2 r q) = x (ix2 r (0 : Fin 1)) := by
  refine broadcastTo_apply x h (ix2 r q) (ix2 r (0 : Fin 1)) fun ax => ?_
  match ax with
  | ⟨0, _⟩ => rfl
  | ⟨1, _⟩ => rfl

/-- The sum over the three lanes of a [512, 3] block reads, at `r`, `∑ q, x (r, q)`. -/
theorem lane_sum_apply (x : FVec Ideal S512x3 .f32) (ax : List (Fin S512x3.rank)) (h : S512x3.Reduces ax S512)
    (hφ : FKind.Formats .f32) (hacc : (0x00000000#32 : BitVec 32) = 0x00000000#32) (hax : ax = [1]) (r : Fin 512) :
    multiReduction .add ax S512 x 0x00000000#32 h hφ hacc (ix1 r) = ∑ q : Fin 3, x (ix2 r q) := by
  subst hax
  refine (Ideal.multiReduction_add_single x 0x00000000#32 h hφ hacc (ix1 r)).trans ?_
  refine Finset.sum_congr rfl fun q _ => congrArg x (funext fun ax => Fin.ext ?_)
  match ax with
  | ⟨0, _⟩ => rfl
  | ⟨1, _⟩ => rfl

/-! ## The batched product at an index -/

/-- The dimension numbers of the batched product: axis 0 of both operands is the batch, axis 1 of both is summed. -/
abbrev D3 : DotDims S512x16x16 S512x16x32 S512x16x32 := dot_S512x16x16_S512x16x32_S512x16x32_1_1_2_2_0_0

/-- The left operand's batch coordinate is the result's. -/
theorem D3_lhs0 (i : S512x16x32.Idx) (k : D3.contr.Idx) : (D3.lhsIdx i k 0).val = (i 0).val := by
  unfold DotDims.lhsIdx
  rw [dif_pos (show (0 : Fin S512x16x16.rank) ∈ D3.lhsBatch by decide)]
  rfl

/-- The left operand's last coordinate is the result's middle one. -/
theorem D3_lhs2 (i : S512x16x32.Idx) (k : D3.contr.Idx) : (D3.lhsIdx i k 2).val = (i 1).val := by
  unfold DotDims.lhsIdx
  rw [dif_neg (show ¬(2 : Fin S512x16x16.rank) ∈ D3.lhsBatch by decide),
    dif_pos (show (2 : Fin S512x16x16.rank) ∈ D3.lhsNonContracting by decide)]
  rfl

/-- The right operand's batch coordinate is the result's. -/
theorem D3_rhs0 (i : S512x16x32.Idx) (k : D3.contr.Idx) : (D3.rhsIdx i k 0).val = (i 0).val := by
  unfold DotDims.rhsIdx
  rw [dif_pos (show (0 : Fin S512x16x32.rank) ∈ D3.rhsBatch by decide)]
  rfl

/-- The right operand's last coordinate is the result's last one. -/
theorem D3_rhs2 (i : S512x16x32.Idx) (k : D3.contr.Idx) : (D3.rhsIdx i k 2).val = (i 2).val := by
  unfold DotDims.rhsIdx
  rw [dif_neg (show ¬(2 : Fin S512x16x32.rank) ∈ D3.rhsBatch by decide),
    dif_pos (show (2 : Fin S512x16x32.rank) ∈ D3.rhsNonContracting by decide)]
  rfl

/-- The batched product into a zero accumulator reads, at `(r, d, e)`, `∑ c, l (r, c, d) · v (r, c, e)`. -/
theorem bdot_apply {φ₁ φ₂ : FTy} (l : FVec Ideal S512x16x16 φ₁) (v : FVec Ideal S512x16x32 φ₂)
    (r : Fin 512) (d : Fin 16) (e : Fin 32) :
    matmul D3 none l v (constant S512x16x32 .f32 0x00000000#32) (ix3 r d e)
      = ∑ c : Fin 16, l (ix3 r c d) * v (ix3 r c e) := by
  refine (Ideal.matmul_constant_zero_apply D3 none l v (ix3 r d e)).trans ?_
  rw [← Equiv.sum_comp (contrEquiv1 D3 16 rfl rfl).symm]
  refine Finset.sum_congr rfl fun c _ => ?_
  have hc := contrEquiv1_symm_val D3 16 rfl rfl c
  have el : D3.lhsIdx (ix3 r d e) ((contrEquiv1 D3 16 rfl rfl).symm c) = ix3 r c d := funext fun a => Fin.ext (by
    match a with
    | ⟨0, _⟩ => exact D3_lhs0 _ _
    | ⟨1, _⟩ => exact (D3.lhsIdx_val_of_single rfl _ _).trans hc
    | ⟨2, _⟩ => exact D3_lhs2 _ _)
  have er : D3.rhsIdx (ix3 r d e) ((contrEquiv1 D3 16 rfl rfl).symm c) = ix3 r c e := funext fun a => Fin.ext (by
    match a with
    | ⟨0, _⟩ => exact D3_rhs0 _ _
    | ⟨1, _⟩ => exact (D3.rhsIdx_val_of_single rfl _ _).trans hc
    | ⟨2, _⟩ => exact D3_rhs2 _ _)
  rw [el, er]

/-! ## The two plain products -/

/-- The hidden layer's product contracts the left operand's columns with the right operand's rows. -/
theorem plain_hid : LibPlainDot.Plain dot_S512x512_S512x48_S512x48_1_0_0_1_n_n := ⟨rfl, rfl, rfl, rfl, rfl, rfl⟩

/-- The last layer's product contracts the left operand's columns with the right operand's rows. -/
theorem plain_head : LibPlainDot.Plain dot_S512x48_S48x3_S512x3_1_0_0_1_n_n := ⟨rfl, rfl, rfl, rfl, rfl, rfl⟩

/-- The hidden layer's weights with their two axes exchanged read, at `(j, k)`, the weights at `(k, j)`. -/
theorem tr_hid_apply {φ : FTy} (w : FVec Ideal S48x512 φ) (p : List (Fin S48x512.rank)) (h : S48x512.Transposes p S512x48)
    (hp : p = [1, 0]) (j : Fin 512) (k : Fin 48) :
    transpose S512x48 p w h (ix2 j k) = w (ix2 k j) := by
  subst hp
  exact transpose_ix2_apply w h j k

/-- The last layer's weights with their two axes exchanged read, at `(k, q)`, the weights at `(q, k)`. -/
theorem tr_head_apply {φ : FTy} (w : FVec Ideal S3x48 φ) (p : List (Fin S3x48.rank)) (h : S3x48.Transposes p S48x3)
    (hp : p = [1, 0]) (k : Fin 48) (q : Fin 3) :
    transpose S48x3 p w h (ix2 k q) = w (ix2 q k) := by
  subst hp
  exact transpose_ix2_apply w h k q

/-! ## The last linear layer at an index -/

/-- Row `r`, lane `q` of the block the last linear layer produces is the per-row function `head` of the weights
    `e (r, c, d) / s (c, d)`, row `r` of the values and the two layers' parameters. -/
theorem head_apply (e : Vec Ideal S512x16x16 .f32) (s : Vec Ideal S16x16 .f32) (v : Vec Ideal S512x16x32 .f32)
    (w1 : Vec Ideal S48x512 .f32) (b1 : Vec Ideal S48 .f32) (w2 : Vec Ideal S3x48 .f32) (b2 : Vec Ideal S3 .f32)
    (r : Fin 512) (q : Fin 3) :
    k1_pay2 e s v w1 b1 w2 b2 (ix2 r q)
      = head (fun c d => Ideal.div (e (ix3 r c d)) (s (ix2 c d))) (row v r) (mat w1) (vec b1) (mat w2) (vec b2) q := by
  unfold k1_pay2
  simp only [addf_apply, maximumf_apply, truncf_apply, divf_apply, broadcast_apply, shapeCast_self,
    bcast_vec_apply, LibPlainDot.matmul_zero_apply _ plain_hid, LibPlainDot.matmul_zero_apply _ plain_head,
    tr_hid_apply, tr_head_apply, flat_cast_apply, bdot_apply, bcast_mat_apply]
  rfl

/-! ## The block the kernel stores, at an index -/

/-- The square root of a block reads, at an index, the square root of the block's entry. -/
theorem sqrt_apply {t : Shape} {φ : FTy} (a : FVec Ideal t φ) (i : t.Idx) :
    Idealize.ShloMosaic.sqrt a i = Ideal.sqrt (a i) := rfl

/-- Row `r`, lane `q` of the block the kernel stores is the per-row function `out`: the last layer's row divided by
    its Euclidean norm floored at `EPS`. -/
theorem out_apply (e : Vec Ideal S512x16x16 .f32) (s : Vec Ideal S16x16 .f32) (v : Vec Ideal S512x16x32 .f32)
    (w1 : Vec Ideal S48x512 .f32) (b1 : Vec Ideal S48 .f32) (w2 : Vec Ideal S3x48 .f32) (b2 : Vec Ideal S3 .f32)
    (r : Fin 512) (q : Fin 3) :
    k1_pay1 (k1_pay2 e s v w1 b1 w2 b2) (k1_pay3 e s v w1 b1 w2 b2) (ix2 r q)
      = out (fun c d => Ideal.div (e (ix3 r c d)) (s (ix2 c d))) (row v r) (mat w1) (vec b1) (mat w2) (vec b2) q := by
  unfold k1_pay1 k1_pay3
  simp only [divf_apply, col_bcast_apply, maximumf_apply, sqrt_apply, col_cast_apply, lane_sum_apply, mulf_apply,
    broadcast_apply, head_apply]
  rfl

end Cert.Stage2Pay

end
-- ==== Proof.Final.lean ====
import proofs.«124052_j71253507440717_2_alg».proof.Proof.Spec

/-!
# The result as one function of the twelve argument arrays

Entry `(n, r)` of the result is the last layer's normalised output on batch row `n`, where the weights that mix the
value rows are the softmax over the WHOLE batch axis of the cosine scores: `exp (score n c d) / ∑ n', exp (score n' c d)`.
-/

noncomputable section

namespace Cert.Final

open Cert.Spec Idealize.ShloMosaic Idealize.ShloMosaic.ValueIdx
open scoped BigOperators

/-- The whole result array, index by index. -/
def G (x0 x1 : (⟨3, ![65536, 16, 32]⟩ : Shape).Idx → EReal) (x2 : (⟨2, ![32, 32]⟩ : Shape).Idx → EReal)
    (x3 : (⟨1, ![32]⟩ : Shape).Idx → EReal) (x4 : (⟨2, ![32, 32]⟩ : Shape).Idx → EReal) (x5 : (⟨1, ![32]⟩ : Shape).Idx → EReal)
    (x6 : (⟨2, ![32, 32]⟩ : Shape).Idx → EReal) (x7 : (⟨1, ![32]⟩ : Shape).Idx → EReal)
    (x8 : (⟨2, ![48, 512]⟩ : Shape).Idx → EReal) (x9 : (⟨1, ![48]⟩ : Shape).Idx → EReal)
    (x10 : (⟨2, ![3, 48]⟩ : Shape).Idx → EReal) (x11 : (⟨1, ![3]⟩ : Shape).Idx → EReal) :
    (⟨2, ![65536, 3]⟩ : Shape).Idx → EReal := fun i =>
  out (fun cc d => soft (fun n' : Fin 65536 => score (row x0 n') (row x1 n') (mat x2) (vec x3) (mat x4) (vec x5) cc d)
        (⟨(i 0).val, (i 0).isLt⟩ : Fin 65536))
    (pr (row x0 (⟨(i 0).val, (i 0).isLt⟩ : Fin 65536)) (row x1 (⟨(i 0).val, (i 0).isLt⟩ : Fin 65536)) (mat x6) (vec x7))
    (mat x8) (vec x9) (mat x10) (vec x11) (⟨(i 1).val, (i 1).isLt⟩ : Fin 3)

end Cert.Final

end
-- ==== Proof.KernelValue.lean ====
import proofs.«124052_j71253507440717_2_alg».proof.Proof.KernelRun
import proofs.«124052_j71253507440717_2_alg».proof.Proof.Arrays0c
import proofs.«124052_j71253507440717_2_alg».proof.Proof.Arrays0d
import proofs.«124052_j71253507440717_2_alg».proof.Proof.Arrays1
import proofs.«124052_j71253507440717_2_alg».proof.Proof.Stage1Pay
import proofs.«124052_j71253507440717_2_alg».proof.Proof.Stage2Pay
import proofs.«124052_j71253507440717_2_alg».proof.Proof.Final

/-!
# The kernel program's result is the result function

The second kernel enters with the three arrays the first kernel left: the exponentials of the scores, the value rows
and the sums of the exponentials over the whole batch axis. Its write-backs cover the result array, and row `n` of its
block arithmetic is the per-row tail applied to the weights `exp (score n c d) / ∑ n', exp (score n' c d)`.
-/

set_option maxRecDepth 16384

noncomputable section

namespace Cert.KernelIdeal.Result

open Cert.KernelIdeal Cert.KernelIdeal.Gen Cert.KernelIdeal.Arrays Cert.Spec
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- The first kernel's score arithmetic at an index. -/
theorem payE : ∀ (x0 x1 : Vec Ideal S512x16x32 .f32) (qW : Vec Ideal S32x32 .f32) (qb : Vec Ideal S32 .f32) (kW : Vec Ideal S32x32 .f32) (kb : Vec Ideal S32 .f32) (r : Fin 512) (cc d : Fin 16),
      k0_pay11 (k0_pay7 x0 x1 qW qb qb) (k0_pay8 x0 kW kb) (k0_pay9 x1 kW) kb (ix3 r cc d) = Ideal.exp (score (row x0 r) (row x1 r) (mat qW) (vec qb) (mat kW) (vec kb) cc d) :=
  fun x0 x1 qW qb kW kb r cc d => Cert.Stage1Pay.exp_score_apply x0 x1 qW kW qb kb r cc d
/-- The first kernel's value arithmetic at an index. -/
theorem payV : ∀ (x0 x1 : Vec Ideal S512x16x32 .f32) (vW : Vec Ideal S32x32 .f32) (vb : Vec Ideal S32 .f32) (r : Fin 512) (cc : Fin 16) (e : Fin 32),
      k0_pay10 (k0_pay3 x0) (k0_pay4 x1) (k0_pay6 vW) vb vb (ix3 r cc e) = pr (row x0 r) (row x1 r) (mat vW) (vec vb) cc e :=
  fun x0 x1 vW vb r cc e => Cert.Stage1Pay.value_apply x0 x1 vW vb r cc e
/-- The running sum's update at an index. -/
theorem payAcc : ∀ (E : FVec Ideal S512x16x16 .f32) (s : Vec Ideal S16x16 .f32) (cc d : Fin 16), k0_pay1 E s (ix2 cc d) = s (ix2 cc d) + ∑ r : Fin 512, E (ix3 r cc d) :=
  fun E s cc d => Cert.Stage1Pay.acc_apply E s cc d
/-- The reset block at an index. -/
theorem payZero : ∀ (cc d : Fin 16), k0_pay2 (F := Ideal) (ix2 cc d) = 0 :=
  fun cc d => Cert.Stage1Pay.zero_apply cc d

/-- What the second kernel finds in the first kernel's three output arrays. -/
theorem entry_E (c : Dev nD) : V1 m ρ c main_v0_0 = GE m c := (hF0 m ρ c 8).symm.trans (final8 m ρ payE c)
theorem entry_V (c : Dev nD) : V1 m ρ c main_v0_1 = GV m c := (hF0 m ρ c 9).symm.trans (final9 m ρ payV c)
theorem entry_S (c : Dev nD) : V1 m ρ c main_v0_2 = GS m c := (hF0 m ρ c 10).symm.trans (final10 m ρ payE payAcc payZero c)

/-- The last layers' weight arrays are no window of the first kernel: the second kernel finds them as launched. -/
theorem entry_8 (c : Dev nD) : V1 m ρ c main_arg8 = (m ((c : Thread nD τ).loc main_arg8)) := W1_of_ne m ρ c main_arg8 (by decide)
theorem entry_9 (c : Dev nD) : V1 m ρ c main_arg9 = (m ((c : Thread nD τ).loc main_arg9)) := W1_of_ne m ρ c main_arg9 (by decide)
theorem entry_10 (c : Dev nD) : V1 m ρ c main_arg10 = (m ((c : Thread nD τ).loc main_arg10)) := W1_of_ne m ρ c main_arg10 (by decide)
theorem entry_11 (c : Dev nD) : V1 m ρ c main_arg11 = (m ((c : Thread nD τ).loc main_arg11)) := W1_of_ne m ρ c main_arg11 (by decide)

/-- The result array after the second kernel's last point is the result function of the arrays as launched. -/
theorem result_eq (c : Dev nD) : (dat1 (V1 m ρ) c).arrAt 7 cfg1.N
    = Cert.Final.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [Cert.KernelIdeal.Arrays1.final1 (V1 m ρ) (fun e s v w1 b1 w2 b2 r q => Cert.Stage2Pay.out_apply e s v w1 b1 w2 b2 r q) c]
  funext i
  unfold Cert.KernelIdeal.Arrays1.G1 Cert.Final.G
  rw [entry_8, entry_9, entry_10, entry_11]
  refine congrArg₂ (fun p v => out p v _ _ _ _ _) ?_ ?_
  · funext cc d
    rw [entry_E, entry_S, GS_apply]
    unfold GE soft sc
    rfl
  · rw [entry_V]
    funext cc e
    unfold GV vl
    rfl

end Cert.KernelIdeal.Result

end
-- ==== Proof.RefValue.lean ====
import proofs.«124052_j71253507440717_2_alg».proof.Proof.Gen.ReferenceIdeal.Read
import proofs.«124052_j71253507440717_2_alg».proof.Proof.Spec

/-!
# The reference is the specification

Entry by entry, the arrays of the reference program are the per-row functions of the specification: the value
projection, the cosine score, the softmax weights over the batch axis (with the shift by the column maximum,
which is a real when the column's scores are), and the normalised output of the two-layer head.
-/

noncomputable section

namespace Cert.RefValue

open Cert.ReferenceIdeal Cert.ReferenceIdeal.Read Cert.Spec Idealize.ShloMosaic Idealize.ShloMosaic.ValueIdx
open scoped BigOperators

/-- A linear layer of the reference at an entry: the contraction of row `(n, c)` of the input with row `e` of the
    weights, plus the bias entry `e` (the bias is broadcast along the two leading axes). -/
theorem lin_apply (X : (⟨S65536x16x32, .f32⟩ : BufTy).Contents (Elt Ideal)) (W : (⟨S32x32, .f32⟩ : BufTy).Contents (Elt Ideal))
    (b : (⟨S32, .f32⟩ : BufTy).Contents (Elt Ideal)) (n : Fin 65536) (c : Fin 16) (e : Fin 32) :
    val_main_v3 (F := Ideal) X W b (ix3 n c e) = lin (row X n) (mat W) (vec b) c e := by
  have hl : ∀ k : Fin 32, lidx_main_v0 (ix3 n c e) k = ix3 n c k := fun k =>
    funext fun a => Fin.ext (by match a with | ⟨0, _⟩ => rfl | ⟨1, _⟩ => rfl | ⟨2, _⟩ => rfl)
  have hr : ∀ k : Fin 32, ridx_main_v0 (ix3 n c e) k = ix2 e k := fun k =>
    funext fun a => Fin.ext (by match a with | ⟨0, _⟩ => rfl | ⟨1, _⟩ => rfl)
  have hb : idx_main_v1 (idx_main_v2 (ix3 n c e)) = ix1 e :=
    funext fun a => Fin.ext (by match a with | ⟨0, _⟩ => rfl)
  rw [val_main_v3_apply, val_main_v0_apply, val_main_v2_apply, val_main_v1_apply, hb]
  simp only [hl, hr, Ideal.addf_def]
  rfl

/-- The product of the two embeddings' projections, as the reference computes it (both linear layers share the weights
    and the bias). -/
theorem pr_apply (X1 X2 : (⟨S65536x16x32, .f32⟩ : BufTy).Contents (Elt Ideal)) (W : (⟨S32x32, .f32⟩ : BufTy).Contents (Elt Ideal))
    (b : (⟨S32, .f32⟩ : BufTy).Contents (Elt Ideal)) (n : Fin 65536) (c : Fin 16) (e : Fin 32) :
    val_main_v8 (F := Ideal) X1 X2 W b (ix3 n c e) = pr (row X1 n) (row X2 n) (mat W) (vec b) c e := by
  have h7 : val_main_v7 (F := Ideal) X2 W b = val_main_v3 (F := Ideal) X2 W b := rfl
  rw [val_main_v8_apply, h7, lin_apply, lin_apply]
  rfl

/-- The projection product divided by its floored Euclidean norm along the last axis, as the reference computes it:
    the sum of squares over the last axis starts from the zero word, the root is floored at `EPS`, and the norm is
    broadcast back along the last axis. -/
theorem unit_apply (X1 X2 : (⟨S65536x16x32, .f32⟩ : BufTy).Contents (Elt Ideal)) (W : (⟨S32x32, .f32⟩ : BufTy).Contents (Elt Ideal))
    (b : (⟨S32, .f32⟩ : BufTy).Contents (Elt Ideal)) (n : Fin 65536) (c : Fin 16) (e : Fin 32) :
    val_main_v34 (F := Ideal) X1 X2 W b (ix3 n c e) = unit (pr (row X1 n) (row X2 n) (mat W) (vec b)) c e := by
  have hs : ∀ k : Fin 32, idx_main_v28 (idx_main_v29 (idx_main_v33 (ix3 n c e))) k = ix3 n c k := fun k =>
    funext fun a => Fin.ext (by match a with | ⟨0, _⟩ => rfl | ⟨1, _⟩ => rfl | ⟨2, _⟩ => rfl)
  rw [val_main_v34_apply, val_main_v33_apply, val_main_v32_apply, val_main_v30_apply, val_main_v29_apply,
    val_main_v28_apply, val_main_v31_apply, val_main_cst_0_apply, val_main_cst_apply]
  simp only [hs, val_main_v27_apply, pr_apply, Ideal.ofBits_def, Ideal.ofBits_zero_f32, zero_add, Ideal.mulf_def,
    Ideal.hostDivf_def, Ideal.hostUnary_sqrt_def, Ideal.maximumf_def]
  rfl

/-- **The value projection.** Entry `(n, c, e)` of the reference's value array is the projection product of row `n`
    of the two embeddings under the value weights. -/
theorem value_apply (x0 x1 : (⟨S65536x16x32, .f32⟩ : BufTy).Contents (Elt Ideal)) (x6 : (⟨S32x32, .f32⟩ : BufTy).Contents (Elt Ideal))
    (x7 : (⟨S32, .f32⟩ : BufTy).Contents (Elt Ideal)) (n : Fin 65536) (c : Fin 16) (e : Fin 32) :
    val_main_v26 (F := Ideal) x0 x1 x6 x7 (ix3 n c e) = pr (row x0 n) (row x1 n) (mat x6) (vec x7) c e := by
  have h : val_main_v26 (F := Ideal) x0 x1 x6 x7 = val_main_v8 (F := Ideal) x0 x1 x6 x7 := rfl
  rw [h, pr_apply]

/-- **The cosine score.** Entry `(n, c, d)` of the reference's score array contracts the normalised query row `c` with
    the normalised key row `d` of batch row `n`. -/
theorem score_apply (x0 x1 : (⟨S65536x16x32, .f32⟩ : BufTy).Contents (Elt Ideal)) (x2 : (⟨S32x32, .f32⟩ : BufTy).Contents (Elt Ideal))
    (x3 : (⟨S32, .f32⟩ : BufTy).Contents (Elt Ideal)) (x4 : (⟨S32x32, .f32⟩ : BufTy).Contents (Elt Ideal))
    (x5 : (⟨S32, .f32⟩ : BufTy).Contents (Elt Ideal)) (n : Fin 65536) (c d : Fin 16) :
    val_main_v43 (F := Ideal) x0 x1 x2 x3 x4 x5 (ix3 n c d)
      = score (row x0 n) (row x1 n) (mat x2) (vec x3) (mat x4) (vec x5) c d := by
  have hl : ∀ k : Fin 32, lidx_main_v43 (ix3 n c d) k = ix3 n c k := fun k =>
    funext fun a => Fin.ext (by match a with | ⟨0, _⟩ => rfl | ⟨1, _⟩ => rfl | ⟨2, _⟩ => rfl)
  have hr : ∀ k : Fin 32, ridx_main_v43 (ix3 n c d) k = ix3 n d k := fun k =>
    funext fun a => Fin.ext (by match a with | ⟨0, _⟩ => rfl | ⟨1, _⟩ => rfl | ⟨2, _⟩ => rfl)
  have h42 : val_main_v42 (F := Ideal) x0 x1 x4 x5 = val_main_v34 (F := Ideal) x0 x1 x4 x5 := rfl
  rw [val_main_v43_apply, h42]
  simp only [hl, hr, unit_apply]
  rfl

section Softmax

variable (x0 x1 : (⟨S65536x16x32, .f32⟩ : BufTy).Contents (Elt Ideal)) (x2 : (⟨S32x32, .f32⟩ : BufTy).Contents (Elt Ideal))
  (x3 : (⟨S32, .f32⟩ : BufTy).Contents (Elt Ideal)) (x4 : (⟨S32x32, .f32⟩ : BufTy).Contents (Elt Ideal))
  (x5 : (⟨S32, .f32⟩ : BufTy).Contents (Elt Ideal))

/-- The shifted exponential: the score minus the column shift (a `[16, 16]` array broadcast along the batch axis),
    exponentiated. -/
theorem exp_apply (n : Fin 65536) (c d : Fin 16) :
    val_main_v50 (F := Ideal) x0 x1 x2 x3 x4 x5 (ix3 n c d)
      = Ideal.exp (val_main_v43 (F := Ideal) x0 x1 x2 x3 x4 x5 (ix3 n c d)
          - val_main_v46 (F := Ideal) x0 x1 x2 x3 x4 x5 (ix2 c d)) := by
  have hb : idx_main_v47 (idx_main_v48 (ix3 n c d)) = ix2 c d :=
    funext fun a => Fin.ext (by match a with | ⟨0, _⟩ => rfl | ⟨1, _⟩ => rfl)
  rw [val_main_v50_apply, val_main_v49_apply, val_main_v48_apply, val_main_v47_apply, hb]
  generalize val_main_v43 (F := Ideal) x0 x1 x2 x3 x4 x5 = A
  generalize val_main_v46 (F := Ideal) x0 x1 x2 x3 x4 x5 = M
  rfl

/-- **The softmax weights.** Entry `(n, c, d)` of the reference's weights is the shifted exponential of the score
    divided by the sum of the shifted exponentials over the batch axis (the sum starts from the zero word and is
    broadcast back along the batch axis). -/
theorem weights_apply (n : Fin 65536) (c d : Fin 16) :
    val_main_v54 (F := Ideal) x0 x1 x2 x3 x4 x5 (ix3 n c d)
      = softShift (fun n' : Fin 65536 => val_main_v43 (F := Ideal) x0 x1 x2 x3 x4 x5 (ix3 n' c d))
          (val_main_v46 (F := Ideal) x0 x1 x2 x3 x4 x5 (ix2 c d)) n := by
  have hb : idx_main_v52 (idx_main_v53 (ix3 n c d)) = ix2 c d :=
    funext fun a => Fin.ext (by match a with | ⟨0, _⟩ => rfl | ⟨1, _⟩ => rfl)
  have hs : ∀ k : Fin 65536, idx_main_v51 (ix2 c d) k = ix3 k c d := fun k =>
    funext fun a => Fin.ext (by match a with | ⟨0, _⟩ => rfl | ⟨1, _⟩ => rfl | ⟨2, _⟩ => rfl)
  rw [val_main_v54_apply, val_main_v53_apply, val_main_v52_apply, hb, val_main_v51_apply, val_main_cst_5_apply]
  simp only [hs, exp_apply, Ideal.ofBits_def, Ideal.ofBits_zero_f32, zero_add, Ideal.hostDivf_def]
  generalize val_main_v43 (F := Ideal) x0 x1 x2 x3 x4 x5 = A
  generalize val_main_v46 (F := Ideal) x0 x1 x2 x3 x4 x5 = M
  rfl

/-- From `⊥`, the running maximum of a nonempty finite family of reals is a real: it is above one member, and below
    `⊤` because the start and every member are. -/
theorem fold_max_real {ι : Type} (s : Finset ι) (hs : s.Nonempty) (g : ι → EReal)
    (hg : ∀ i ∈ s, ∃ a : ℝ, g i = (a : EReal)) : ∃ M : ℝ, s.fold max (⊥ : EReal) g = (M : EReal) := by
  obtain ⟨i, hi⟩ := hs
  obtain ⟨a, ha⟩ := hg i hi
  have hlo : (⊥ : EReal) < s.fold max ⊥ g :=
    (Finset.lt_fold_max _).2 (Or.inr ⟨i, hi, by rw [ha]; exact EReal.bot_lt_coe a⟩)
  have hhi : s.fold max (⊥ : EReal) g < ⊤ :=
    (Finset.fold_max_lt _).2 ⟨bot_lt_top, fun j hj => by obtain ⟨b, hb⟩ := hg j hj; rw [hb]; exact EReal.coe_lt_top b⟩
  exact ⟨(s.fold max ⊥ g).toReal, (EReal.coe_toReal hhi.ne hlo.ne').symm⟩

/-- The index over `(c, d)` with the batch coordinate `k` put back on the reduced axis is `(k, c, d)`. -/
theorem lift_batch (h : S65536x16x16.Reduces [0] S16x16) (c d : Fin 16) (k : Fin (S65536x16x16.size 0)) :
    h.lift (ix2 c d) k = ix3 (⟨k.val, k.isLt⟩ : Fin 65536) c d := by
  funext a
  apply Fin.ext
  match a with
  | ⟨0, _⟩ => rfl
  | ⟨1, _⟩ => rfl
  | ⟨2, _⟩ => rfl

/-- The maximum over the batch axis, from the `-∞` word, of a column of reals is a real: read at `(c, d)` it is the
    fold of `max` from `⊥` over the batch coordinates. -/
theorem colmax_real (A : FVec Ideal S65536x16x16 .f32) (c d : Fin 16)
    (hfin : ∀ n : Fin 65536, ∃ a : ℝ, A (ix3 n c d) = (a : EReal)) :
    ∃ M : ℝ, Host.reduce (FloatOps.maximumf (F := Ideal) (φ := .f32)) A (val_main_cst_3 (F := Ideal))
      Gen.reducesTo_S65536x16x16_S16x16_d0 Gen.h_S_ (ix2 c d) = (M : EReal) := by
  have hbot : Ideal.ofBits .f32 0xFF800000#32 = (⊥ : EReal) := by simp [Ideal.ofBits, Ideal.ieee]
  have hred : S65536x16x16.Reduces [0] S16x16 := by decide
  rw [Host.reduce_eq_fold_single (FloatOps.maximumf (F := Ideal) (φ := .f32)) A _ Gen.reducesTo_S65536x16x16_S16x16_d0 hred
    Gen.h_S_, val_main_cst_3_apply, Ideal.ofBits_def, hbot]
  have hne : (Finset.univ : Finset (Fin (S65536x16x16.size 0))).Nonempty :=
    ⟨⟨0, show 0 < 65536 by norm_num⟩, Finset.mem_univ _⟩
  exact fold_max_real (Finset.univ : Finset (Fin (S65536x16x16.size 0))) hne (A ∘ hred.lift (ix2 c d))
    (fun k _ => by
      obtain ⟨a, ha⟩ := hfin ⟨k.val, k.isLt⟩
      exact ⟨a, by rw [Function.comp_apply, lift_batch hred c d k, ha]⟩)

/-- **The shift is a real.** The column shift is the maximum, from the `-∞` word, of the scores over the batch axis
    (and once more against the `-∞` word); when every score of the column is a real, so is the shift. -/
theorem shift_real (c d : Fin 16)
    (hfin : ∀ n : Fin 65536, ∃ a : ℝ, val_main_v43 (F := Ideal) x0 x1 x2 x3 x4 x5 (ix3 n c d) = (a : EReal)) :
    ∃ M : ℝ, val_main_v46 (F := Ideal) x0 x1 x2 x3 x4 x5 (ix2 c d) = (M : EReal) := by
  have hbot : Ideal.ofBits .f32 0xFF800000#32 = (⊥ : EReal) := by simp [Ideal.ofBits, Ideal.ieee]
  obtain ⟨M, hM⟩ := colmax_real (val_main_v43 (F := Ideal) x0 x1 x2 x3 x4 x5) c d hfin
  have h44 : val_main_v44 (F := Ideal) x0 x1 x2 x3 x4 x5 (ix2 c d) = (M : EReal) := by
    unfold val_main_v44
    exact hM
  refine ⟨M, ?_⟩
  rw [val_main_v46_apply, val_main_v45_apply, val_main_cst_4_apply, Ideal.ofBits_def, hbot, h44, Ideal.maximumf_def]
  exact max_eq_right bot_le

end Softmax

section Head

variable (x0 x1 : (⟨S65536x16x32, .f32⟩ : BufTy).Contents (Elt Ideal)) (x2 : (⟨S32x32, .f32⟩ : BufTy).Contents (Elt Ideal))
  (x3 : (⟨S32, .f32⟩ : BufTy).Contents (Elt Ideal)) (x4 : (⟨S32x32, .f32⟩ : BufTy).Contents (Elt Ideal))
  (x5 : (⟨S32, .f32⟩ : BufTy).Contents (Elt Ideal)) (x6 : (⟨S32x32, .f32⟩ : BufTy).Contents (Elt Ideal))
  (x7 : (⟨S32, .f32⟩ : BufTy).Contents (Elt Ideal)) (x8 : (⟨S48x512, .f32⟩ : BufTy).Contents (Elt Ideal))
  (x9 : (⟨S48, .f32⟩ : BufTy).Contents (Elt Ideal)) (x10 : (⟨S3x48, .f32⟩ : BufTy).Contents (Elt Ideal))
  (x11 : (⟨S3, .f32⟩ : BufTy).Contents (Elt Ideal))

/-- The weights applied to the values: the batched product contracts the query axis `c` of the weights of batch row
    `n` with the same axis of the values. -/
theorem mix_apply (n : Fin 65536) (d : Fin 16) (e : Fin 32) :
    val_main_v55 (F := Ideal) x0 x1 x2 x3 x4 x5 x6 x7 (ix3 n d e)
      = mix (fun c d => val_main_v54 (F := Ideal) x0 x1 x2 x3 x4 x5 (ix3 n c d))
          (fun c e => val_main_v26 (F := Ideal) x0 x1 x6 x7 (ix3 n c e)) d e := by
  have hl : ∀ k : Fin 16, lidx_main_v55 (ix3 n d e) k = ix3 n k d := fun k =>
    funext fun a => Fin.ext (by match a with | ⟨0, _⟩ => rfl | ⟨1, _⟩ => rfl | ⟨2, _⟩ => rfl)
  have hr : ∀ k : Fin 16, ridx_main_v55 (ix3 n d e) k = ix3 n k e := fun k =>
    funext fun a => Fin.ext (by match a with | ⟨0, _⟩ => rfl | ⟨1, _⟩ => rfl | ⟨2, _⟩ => rfl)
  rw [val_main_v55_apply]
  simp only [hl, hr]
  generalize val_main_v54 (F := Ideal) x0 x1 x2 x3 x4 x5 = P
  generalize val_main_v26 (F := Ideal) x0 x1 x6 x7 = V
  rfl

/-- The reshape to `[65536, 512]` reads entry `j` of row `n` at `(n, j / 32, j % 32)`: the row-major layout of the
    `[16, 32]` matrix of row `n`. -/
theorem flat_apply (n : Fin 65536) (j : Fin 512) :
    val_main_v56 (F := Ideal) x0 x1 x2 x3 x4 x5 x6 x7 (ix2 n j)
      = flat (mix (fun c d => val_main_v54 (F := Ideal) x0 x1 x2 x3 x4 x5 (ix3 n c d))
          (fun c e => val_main_v26 (F := Ideal) x0 x1 x6 x7 (ix3 n c e))) j := by
  have hi : idx_main_v56 (ix2 n j)
      = ix3 n (⟨j.val / 32, by have := j.isLt; omega⟩ : Fin 16) (⟨j.val % 32, by have := j.isLt; omega⟩ : Fin 32) :=
    funext fun a => Fin.ext (by
      have hj : j.val < 512 := j.isLt
      match a with
      | ⟨0, _⟩ => show (n.val * 512 + j.val) / 512 = n.val; omega
      | ⟨1, _⟩ => show (n.val * 512 + j.val) / 32 % 16 = j.val / 32; omega
      | ⟨2, _⟩ => show (n.val * 512 + j.val) % 32 = j.val % 32; omega)
  rw [val_main_v56_apply, hi, mix_apply]
  rfl

/-- The hidden layer: the first linear layer (weights transposed, bias broadcast along the batch axis) followed by the
    maximum with the broadcast zero word. -/
theorem hid_apply (n : Fin 65536) (k : Fin 48) :
    val_main_v62 (F := Ideal) x0 x1 x2 x3 x4 x5 x6 x7 x8 x9 (ix2 n k)
      = hid (flat (mix (fun c d => val_main_v54 (F := Ideal) x0 x1 x2 x3 x4 x5 (ix3 n c d))
          (fun c e => val_main_v26 (F := Ideal) x0 x1 x6 x7 (ix3 n c e)))) (mat x8) (vec x9) k := by
  have hl : ∀ j : Fin 512, lidx_main_v58 (ix2 n k) j = ix2 n j := fun j =>
    funext fun a => Fin.ext (by match a with | ⟨0, _⟩ => rfl | ⟨1, _⟩ => rfl)
  have hr : ∀ j : Fin 512, idx_main_v57 (ridx_main_v58 (ix2 n k) j) = ix2 k j := fun j =>
    funext fun a => Fin.ext (by match a with | ⟨0, _⟩ => rfl | ⟨1, _⟩ => rfl)
  have hb : idx_main_v59 (idx_main_v60 (ix2 n k)) = ix1 k :=
    funext fun a => Fin.ext (by match a with | ⟨0, _⟩ => rfl)
  rw [val_main_v62_apply, val_main_v61_apply, val_main_v58_apply, val_main_v60_apply, val_main_v59_apply, hb,
    val_main_call0_v0_apply, val_main_call0_cst_apply]
  simp only [hl, val_main_v57_apply, hr, flat_apply, Ideal.ofBits_def, Ideal.addf_def, Ideal.maximumf_def]
  rfl

/-- The last linear layer (weights transposed, bias broadcast along the batch axis) on the hidden layer. -/
theorem head_apply (n : Fin 65536) (r : Fin 3) :
    val_main_v67 (F := Ideal) x0 x1 x2 x3 x4 x5 x6 x7 x8 x9 x10 x11 (ix2 n r)
      = head (fun c d => val_main_v54 (F := Ideal) x0 x1 x2 x3 x4 x5 (ix3 n c d))
          (fun c e => val_main_v26 (F := Ideal) x0 x1 x6 x7 (ix3 n c e)) (mat x8) (vec x9) (mat x10) (vec x11) r := by
  have hl : ∀ k : Fin 48, lidx_main_v64 (ix2 n r) k = ix2 n k := fun k =>
    funext fun a => Fin.ext (by match a with | ⟨0, _⟩ => rfl | ⟨1, _⟩ => rfl)
  have hr : ∀ k : Fin 48, idx_main_v63 (ridx_main_v64 (ix2 n r) k) = ix2 r k := fun k =>
    funext fun a => Fin.ext (by match a with | ⟨0, _⟩ => rfl | ⟨1, _⟩ => rfl)
  have hb : idx_main_v65 (idx_main_v66 (ix2 n r)) = ix1 r :=
    funext fun a => Fin.ext (by match a with | ⟨0, _⟩ => rfl)
  rw [val_main_v67_apply, val_main_v64_apply, val_main_v66_apply, val_main_v65_apply, hb]
  simp only [hl, val_main_v63_apply, hr, hid_apply, Ideal.addf_def]
  rfl

/-- **The result.** Entry `(n, r)` of the reference's result is the last layer's output of batch row `n`, computed from
    that row's softmax weights and values, divided by its floored Euclidean norm. -/
theorem result_apply (n : Fin 65536) (r : Fin 3) :
    val_main_v75 (F := Ideal) x0 x1 x2 x3 x4 x5 x6 x7 x8 x9 x10 x11 (ix2 n r)
      = out (fun c d => val_main_v54 (F := Ideal) x0 x1 x2 x3 x4 x5 (ix3 n c d))
          (fun c e => val_main_v26 (F := Ideal) x0 x1 x6 x7 (ix3 n c e)) (mat x8) (vec x9) (mat x10) (vec x11) r := by
  have hs : ∀ k : Fin 3, idx_main_v69 (idx_main_v70 (idx_main_v74 (ix2 n r))) k = ix2 n k := fun k =>
    funext fun a => Fin.ext (by match a with | ⟨0, _⟩ => rfl | ⟨1, _⟩ => rfl)
  rw [val_main_v75_apply, val_main_v74_apply, val_main_v73_apply, val_main_v71_apply, val_main_v70_apply,
    val_main_v69_apply, val_main_v72_apply, val_main_cst_7_apply, val_main_cst_6_apply]
  simp only [hs, val_main_v68_apply, head_apply, Ideal.ofBits_def, Ideal.ofBits_zero_f32, zero_add, Ideal.mulf_def,
    Ideal.hostDivf_def, Ideal.hostUnary_sqrt_def, Ideal.maximumf_def]
  rfl

end Head

end Cert.RefValue

end
-- ==== Proof.RefFinal.lean ====
import proofs.«124052_j71253507440717_2_alg».proof.Proof.RefValue
import proofs.«124052_j71253507440717_2_alg».proof.Proof.Reals
import proofs.«124052_j71253507440717_2_alg».proof.Proof.Final

/-!
# The reference computes the result function

The reference's softmax subtracts the column maximum over the batch axis before exponentiating. When every input
entry is a real number, every score is real and so is that maximum, and subtracting a real from every exponent leaves
the softmax weights unchanged; the rest of the reference is the per-row tail applied to those weights.
-/

noncomputable section

namespace Cert.RefFinal

open Cert.ReferenceIdeal Cert.ReferenceIdeal.Read Cert.Spec Idealize.ShloMosaic Idealize.ShloMosaic.ValueIdx
open scoped BigOperators

/-- With real embeddings and real query / key weights, the reference's result is the result function. -/
theorem ref_value (x0 x1 : (⟨S65536x16x32, .f32⟩ : BufTy).Contents (Elt Ideal)) (x2 : (⟨S32x32, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal))
    (x8 : (⟨S48x512, .f32⟩ : BufTy).Contents (Elt Ideal)) (x9 : (⟨S48, .f32⟩ : BufTy).Contents (Elt Ideal)) (x10 : (⟨S3x48, .f32⟩ : BufTy).Contents (Elt Ideal)) (x11 : (⟨S3, .f32⟩ : BufTy).Contents (Elt Ideal))
    (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal))
    (h4 : ∀ i, ∃ r : ℝ, x4 i = (r : EReal)) (h5 : ∀ i, ∃ r : ℝ, x5 i = (r : EReal)) :
    val_main_v75 (F := Ideal) x0 x1 x2 x3 x4 x5 x6 x7 x8 x9 x10 x11 = Cert.Final.G x0 x1 x2 x3 x4 x5 x6 x7 x8 x9 x10 x11 := by
  funext i
  obtain ⟨n, r, rfl⟩ : ∃ (n : Fin 65536) (r : Fin 3), i = ix2 n r := ⟨i 0, i 1, eq_ix2 i⟩
  rw [Cert.RefValue.result_apply]
  have hsc : ∀ (cc d : Fin 16), (fun n' : Fin 65536 => val_main_v43 (F := Ideal) x0 x1 x2 x3 x4 x5 (ix3 n' cc d))
      = fun n' : Fin 65536 => score (row x0 n') (row x1 n') (mat x2) (vec x3) (mat x4) (vec x5) cc d :=
    fun cc d => funext fun n' => Cert.RefValue.score_apply x0 x1 x2 x3 x4 x5 n' cc d
  have hreal : ∀ (cc d : Fin 16) (n' : Fin 65536), ∃ a : ℝ, score (row x0 n') (row x1 n') (mat x2) (vec x3) (mat x4) (vec x5) cc d = (a : EReal) :=
    fun cc d n' => Cert.Reals.score_real _ _ _ _ _ _ (fun c l => h0 (ix3 n' c l)) (fun c l => h1 (ix3 n' c l))
      (fun e l => h2 (ix2 e l)) (fun e => h3 (ix1 e)) (fun e l => h4 (ix2 e l)) (fun e => h5 (ix1 e)) cc d
  have hw : (fun cc d => val_main_v54 (F := Ideal) x0 x1 x2 x3 x4 x5 (ix3 n cc d))
      = fun cc d => soft (fun n' : Fin 65536 => score (row x0 n') (row x1 n') (mat x2) (vec x3) (mat x4) (vec x5) cc d) n := by
    funext cc d
    have hM := Cert.RefValue.shift_real x0 x1 x2 x3 x4 x5 cc d
      (fun n' => by rw [Cert.RefValue.score_apply]; exact hreal cc d n')
    rw [Cert.RefValue.weights_apply, hsc cc d]
    exact Cert.Reals.soft_shift _ _ (hreal cc d) hM n
  have hv : (fun c e => val_main_v26 (F := Ideal) x0 x1 x6 x7 (ix3 n c e)) = pr (row x0 n) (row x1 n) (mat x6) (vec x7) :=
    funext fun c => funext fun e => Cert.RefValue.value_apply x0 x1 x6 x7 n c e
  rw [hw, hv]
  rfl

end Cert.RefFinal

end
-- ==== Proof.PreFinite.lean ====
import proofs.«124052_j71253507440717_2_alg».proof.Pre_finite_inputs
import proofs.«124052_j71253507440717_2_alg».proof.Proof.Gen.Pre_finite_inputs
import Idealize.ShloMosaic.Lib.ReduceAll
import Idealize.ShloMosaic.Lib.ValueIdx
import Idealize.ShloMosaic.PureOps.Ideal.Laws

noncomputable section

namespace Cert.PreFinite

open Idealize.ShloMosaic Cert.Pre_finite_inputs

/-- The shape of rank 0 has exactly one index. -/
instance subsingleton_S_ : Subsingleton S_.Idx := ⟨fun a b => funext fun d => d.elim0⟩

/-- The single-precision word 0x7F800000 denotes +∞. -/
theorem ofBits_inf : Ideal.ofBits .f32 0x7F800000#32 = ⊤ := by simp [Ideal.ofBits, Ideal.ieee]

/-- An extended real whose absolute value max x (-x) is below +∞ is a real. -/
theorem real_of_abs_lt_top (x : EReal) (h : Ideal.cmp .olt (max x (-x)) ⊤ = 1#1) : ∃ r : ℝ, x = (r : EReal) := by
  unfold Ideal.cmp at h
  induction x using EReal.rec with
  | bot => simp at h
  | coe r => exact ⟨r, rfl⟩
  | top => simp at h

/-- If the conjunction over every index of "|x i| < +∞" is true, every entry of x is a real. -/
theorem reals_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf x) (broadcastInDim s ![] hb (constant (F := Ideal) S_ .f32 0x7F800000#32)))
          (constantI S_ 1 1#1) hr hu j = 1#1) :
    ∀ i, ∃ r : ℝ, x i = (r : EReal) := by
  intro i
  have h := Host.reduce_andi_all _ _ hr hu j e i
  refine real_of_abs_lt_top (x i) ?_
  rw [← ofBits_inf]
  exact h

/-- A conjunction of two truth values that is true has both conjuncts true. -/
theorem and_split (p q : IVec S_ 1) (j : S_.Idx) (h : Idealize.ShloMosaic.andi p q j = 1#1) : p j = 1#1 ∧ q j = 1#1 :=
  IntOp.andi_eq_one.1 h

/-- The precondition "every entry of every argument has absolute value below +∞" gives that every entry of each
    of the twelve arguments is a real: the predicate is the conjunction of twelve conjunctions over all indices,
    each of which is read back entry by entry. -/
theorem reals_of_fn [Cert.Pre_finite_inputs.Facts]
    (a0 a1 : FVec Ideal S65536x16x32 .f32) (a2 : FVec Ideal S32x32 .f32) (a3 : FVec Ideal S32 .f32)
    (a4 : FVec Ideal S32x32 .f32) (a5 : FVec Ideal S32 .f32) (a6 : FVec Ideal S32x32 .f32) (a7 : FVec Ideal S32 .f32)
    (a8 : FVec Ideal S48x512 .f32) (a9 : FVec Ideal S48 .f32) (a10 : FVec Ideal S3x48 .f32) (a11 : FVec Ideal S3 .f32)
    (h : Cert.Pre_finite_inputs.fn (F := Ideal) a0 a1 a2 a3 a4 a5 a6 a7 a8 a9 a10 a11 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧ (∀ i, ∃ r : ℝ, a8 i = (r : EReal)) ∧
    (∀ i, ∃ r : ℝ, a9 i = (r : EReal)) ∧ (∀ i, ∃ r : ℝ, a10 i = (r : EReal)) ∧ (∀ i, ∃ r : ℝ, a11 i = (r : EReal)) := by
  have e := congrFun h ValueIdx.ix0
  dsimp only [fn, fn_part1, fn_part2, fn_part3] at e
  obtain ⟨e, h11⟩ := and_split _ _ _ e
  obtain ⟨e, h10⟩ := and_split _ _ _ e
  obtain ⟨e, h9⟩ := and_split _ _ _ e
  obtain ⟨e, h8⟩ := and_split _ _ _ e
  obtain ⟨e, h7⟩ := and_split _ _ _ e
  obtain ⟨e, h6⟩ := and_split _ _ _ e
  obtain ⟨e, h5⟩ := and_split _ _ _ e
  obtain ⟨e, h4⟩ := and_split _ _ _ e
  obtain ⟨e, h3⟩ := and_split _ _ _ e
  obtain ⟨e, h2⟩ := and_split _ _ _ e
  obtain ⟨h0, h1⟩ := and_split _ _ _ e
  exact ⟨reals_of_all a0 _ _ _ _ h0, reals_of_all a1 _ _ _ _ h1, reals_of_all a2 _ _ _ _ h2, reals_of_all a3 _ _ _ _ h3,
    reals_of_all a4 _ _ _ _ h4, reals_of_all a5 _ _ _ _ h5, reals_of_all a6 _ _ _ _ h6, reals_of_all a7 _ _ _ _ h7,
    reals_of_all a8 _ _ _ _ h8, reals_of_all a9 _ _ _ _ h9, reals_of_all a10 _ _ _ _ h10, reals_of_all a11 _ _ _ _ h11⟩

end Cert.PreFinite

end
-- ==== Proof.lean ====
/-
  Two tiled kernels against a whole-array reference, over the extended reals.

  The programs. Inputs: two embeddings f32[65536,16,32] and the weights of three [32,32] linear layers, a [48,512] and
  a [3,48] layer. Per batch row, query, key and value are each the product of the two embeddings' projections; query
  and key rows are divided by their Euclidean norms floored at 1e-12; `score(n,c,d) = ∑ e, q(n,c,e)·k(n,d,e)`. The
  softmax runs over the BATCH axis: the weight at (n,c,d) is `exp score(n,c,d) / ∑ n', exp score(n',c,d)`. The weights
  mix the value rows, the [16,32] result is flattened to 512, passed through the two last layers with a `max · 0` between,
  and divided by its floored norm.

  The first kernel walks the batch axis in 128 blocks of 512 rows: it writes the exponentials of the scores and the
  values block by block and accumulates the column sums of the exponentials into one [16,16] block that is reset at
  the first point and written back after the last; the second kernel divides by those sums and applies the tail, again
  block by block. The reference subtracts the column maximum over the batch axis before exponentiating.

  Why the two agree (`algebraic`). Every operation before and after the softmax is the same function of one batch row
  on both sides; a matrix product into a zero accumulator and a host `dot_general`, a lane reduction and a host sum,
  are the same finite sums, and a change of float format is the identity. The accumulated sum is the sum over all 65536
  rows re-bracketed as 128 × 512. The one law that needs the precondition: for REAL scores and a REAL shift `M`,
  `exp (a − M) / ∑ exp (a' − M) = exp a / ∑ exp a'`. Finite inputs make every score real (sums and products of reals,
  a square root of a sum of squares, a quotient by a norm that is at least 1e-12), and the column maximum of finitely
  many reals is real.

  `preserves` is `True` (nothing was rewritten). The two kernel frames are the generated frame certificates; the
  reference's frame is its run with the result dropped.
-/
import proofs.«124052_j71253507440717_2_alg».proof.Defs
import proofs.«124052_j71253507440717_2_alg».proof.Proof.Gen.Kernel
import proofs.«124052_j71253507440717_2_alg».proof.Proof.Gen.Kernel.Frame
import proofs.«124052_j71253507440717_2_alg».proof.Proof.Gen.KernelIdeal
import proofs.«124052_j71253507440717_2_alg».proof.Proof.Gen.KernelIdeal.Frame
import proofs.«124052_j71253507440717_2_alg».proof.Proof.Gen.ReferenceIdeal
import proofs.«124052_j71253507440717_2_alg».proof.Proof.Gen.ReferenceIdeal.Run
import proofs.«124052_j71253507440717_2_alg».proof.Proof.Gen.ReferenceIdeal.Read
import proofs.«124052_j71253507440717_2_alg».proof.Proof.Gen.Pre_finite_inputs
import proofs.«124052_j71253507440717_2_alg».proof.Proof.KernelRun
import proofs.«124052_j71253507440717_2_alg».proof.Proof.KernelValue
import proofs.«124052_j71253507440717_2_alg».proof.Proof.RefFinal
import proofs.«124052_j71253507440717_2_alg».proof.Proof.PreFinite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, the kernel program's result array and the reference's result both end
    at the result function of the arguments: the kernel's by the two regions' write-backs, the reference's by the shift
    law of the softmax under finite inputs. -/
theorem algebraic : Cert.algebraic_KernelIdeal_ReferenceIdeal := by
  intro m ρ m' ρ' hpre hagree
  refine ⟨fun c => Cert.Final.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Result.result_eq m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v75_eq]
    obtain ⟨a0, a1, a2, a3, a4, a5, a6, a7, a8, a9, a10, a11⟩ := hagree c
    rw [a0, a1, a2, a3, a4, a5, a6, a7, a8, a9, a10, a11]
    obtain ⟨r0, r1, r2, r3, r4, r5, -⟩ := Cert.PreFinite.reals_of_fn _ _ _ _ _ _ _ _ _ _ _ _ (hpre c)
    exact Cert.RefFinal.ref_value _ _ _ _ _ _ _ _ _ _ _ _ r0 r1 r2 r3 r4 r5

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
